-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S3x1024x1024 : Shape := ⟨3, ![3, 1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3x1024x1024 : S_.BroadcastsInDim S3x1024x1024 (![] : Fin 0 → Fin S3x1024x1024.rank)
  reducesTo_S3x1024x1024_S_d0_1_2 : S3x1024x1024.ReducesTo [0, 1, 2] S_

variable [Facts]

def fn {F : FTy → Type} [FloatOps F] (main_arg0 : FVec F S4x2048x1024 .f32) (main_arg1 : FVec F S3x1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S3x1024x1024 .f32 := Host.absf main_arg1
  let main_cst_0 : FVec F S_ .f32 := constant S_ .f32 0x7F800000#32
  let main_v5 : FVec F S3x1024x1024 .f32 := broadcastInDim S3x1024x1024 ![] bcast_S_S3x1024x1024 main_cst_0
  let main_v6 : IVec S3x1024x1024 1 := cmpf .olt main_v4 main_v5
  let main_c_1 : IVec S_ 1 := constantI S_ 1 1#1
  let main_v7 : IVec S_ 1 := (fun x v => Host.reduce IntOp.andi x v reducesTo_S3x1024x1024_S_d0_1_2 h_S_) main_v6 main_c_1
  let main_v8 : IVec S_ 1 := andi main_v3 main_v7
  main_v8
-- ==== Kernel.lean ====
abbrev S4x2048x1024 : Shape := ⟨3, ![4, 2048, 1024]⟩
abbrev S3x1024x1024 : Shape := ⟨3, ![3, 1024, 1024]⟩
abbrev S1x1024x1024 : Shape := ⟨3, ![1, 1024, 1024]⟩
abbrev S1024x1024 : Shape := ⟨2, ![1024, 1024]⟩
abbrev S_ : Shape := ⟨0, ![]⟩
abbrev S1024x2048 : Shape := ⟨2, ![1024, 2048]⟩
abbrev S1024x1 : Shape := ⟨2, ![1024, 1]⟩
abbrev S1024 : Shape := ⟨1, ![1024]⟩

abbrev nBuf : Space → Nat
  | .hbm => 17
  | .vmem => 20
  | .smem => 0
  | _ => 0

abbrev bufTy : (tb : Table) → Fin (tcTables nBuf tb) → BufTy
  | .hbm, ⟨0, _⟩ => ⟨S4x2048x1024, .f32⟩
  | .hbm, ⟨1, _⟩ => ⟨S3x1024x1024, .f32⟩
  | .hbm, ⟨2, _⟩ => ⟨S1x1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S1024x1024, .bf16⟩
  | .hbm, ⟨8, _⟩ => ⟨S1x1024x1024, .f32⟩
  | .hbm, ⟨9, _⟩ => ⟨S1024x1024, .f32⟩
  | .hbm, ⟨10, _⟩ => ⟨S1x1024x1024, .f32⟩
  | .hbm, ⟨11, _⟩ => ⟨S1024x1024, .f32⟩
  | .hbm, ⟨12, _⟩ => ⟨S1024x2048, .f32⟩
  | .hbm, ⟨13, _⟩ => ⟨S1024x2048, .bf16⟩
  | .hbm, ⟨14, _⟩ => ⟨S4x2048x1024, .bf16⟩
  | .hbm, ⟨15, _⟩ => ⟨S4x2048x1024, .bf16⟩
  | .hbm, ⟨16, _⟩ => ⟨S4x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x2048, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .f32⟩
  | .local _ .vmem, ⟨8, _⟩ => ⟨S1x1024x1024, .f32⟩
  | .local _ .vmem, ⟨9, _⟩ => ⟨S1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .f32⟩
  | .local _ .vmem, ⟨15, _⟩ => ⟨S1x1024x1024, .f32⟩
  | .local _ .vmem, ⟨16, _⟩ => ⟨S1024x1024, .bf16⟩
  | .local _ .vmem, ⟨17, _⟩ => ⟨S1024x1, .f32⟩
  | .local _ .vmem, ⟨18, _⟩ => ⟨S1024x1, .f32⟩
  | .local _ .vmem, ⟨19, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11_0 : Ref sig .tc := ⟨.hbm, 14, rfl⟩
abbrev main_v11_1 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_scratch0 : Ref sig .tc := ⟨.vmem, 16, rfl⟩
abbrev cc1_scratch1 : Ref sig .tc := ⟨.vmem, 17, rfl⟩
abbrev cc1_scratch2 : Ref sig .tc := ⟨.vmem, 18, rfl⟩
abbrev cc1_scratch3 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![4, 2, 2], ![false, false, false]⟩

def k1_cond2 (i : grid1.Coords) : BitVec 1 :=
  let arg2 : BitVec 32 := BitVec.ofNat 32 (i 2).val
  let c1_i32 : BitVec 32 := 1#32
  let v39 : BitVec 1 := Scalar.cmpi .eq arg2 c1_i32
  let v40 : BitVec 32 := Scalar.extui v39
  let c0_i32_25 : BitVec 32 := 0#32
  let v41 : BitVec 1 := Scalar.cmpi .ne v40 c0_i32_25
  v41

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, false]

abbrev stage1_2 : Fin 2 → Memref sig .tc .vmem S1x1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, true]

abbrev stage1_4 : Fin 2 → Memref sig .tc .vmem S1x1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  slices_S3x1024x1024_S1x1024x1024_0_0_0 : S3x1024x1024.Slices ![0, 0, 0] S1x1024x1024
  shapeCasts_S1x1024x1024_S1024x1024 : S1x1024x1024.ShapeCasts S1024x1024
  bcast_S_S1024x1024 : S_.BroadcastsInDim S1024x1024 (![] : Fin 0 → Fin S1024x1024.rank)
  bitsLt_bf16_f32 : FTy.bits .bf16 < FTy.bits .f32
  slices_S3x1024x1024_S1x1024x1024_1_0_0 : S3x1024x1024.Slices ![1, 0, 0] S1x1024x1024
  slices_S3x1024x1024_S1x1024x1024_2_0_0 : S3x1024x1024.Slices ![2, 0, 0] S1x1024x1024
  concatenates_S1024x1024_S1024x1024_S1024x2048_d1 : Shape.Concatenates [S1024x1024, S1024x1024] S1024x2048 1
  inb_S1x1024x1024_S1x1024x1024_0_0_0 : ∀ a, (![0, 0, 0] : Fin 3 → Nat) a + S1x1024x1024.size a ≤ S1x1024x1024.size a
  h_S1x1024x1024 : 0 < S1x1024x1024.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  slices_S1024x2048_o0_0_S1024x1024 : S1024x2048.Slices ![0, 0] S1024x1024
  shapeCasts_S1024x1024_S1x1024x1024 : S1024x1024.ShapeCasts S1x1024x1024
  packedbf16_S1x1024x1024_S1x1024x1024_0_0_0 : (Rect.unit (s := S1x1024x1024) ![0, 0, 0] S1x1024x1024.size inb_S1x1024x1024_S1x1024x1024_0_0_0).PackedRows (EltTy.packing .bf16)
  slices_S1024x2048_o0_1024_S1024x1024 : S1024x2048.Slices ![0, 1024] S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x1024_S1024 : S1024x1024.Reduces [1] S1024
  shapeCasts_S1024_S1024x1 : S1024.ShapeCasts S1024x1
  broadcasts_S1024x1_S1024x1024 : S1024x1.Broadcasts S1024x1024
  dot_S1024x1024_S1024x2048_S1024x2048_1_0_0_1_n_n_wf : DotDims.WF S1024x1024 S1024x2048 S1024x2048 [1] [0] [0] [1] [] []
  dot_S1024x1024_S1024x1024_S1024x1024_1_0_0_1_n_n_wf : DotDims.WF S1024x1024 S1024x1024 S1024x1024 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x2048x1024.size a
  hwx0_0 : ∀ i : grid0.Coords, EltTy.bits .f32 = 32 ∨ (Rect.block (s := S4x2048x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .bf16 = 32 ∨ (Rect.block (s := S1024x2048) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S4x2048x1024.size a
  hwx0_2 : ∀ i : grid0.Coords, EltTy.bits .bf16 = 32 ∨ (Rect.block (s := S4x2048x1024) S1x1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S4x2048x1024.size a
  hwx0_3 : ∀ i : grid0.Coords, EltTy.bits .bf16 = 32 ∨ (Rect.block (s := S4x2048x1024) S1x1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x2048x1024.size a
  hwx1_0 : ∀ i : grid1.Coords, EltTy.bits .f32 = 32 ∨ (Rect.block (s := S4x2048x1024) S1x1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S4x2048x1024.size a
  hwx1_2 : ∀ i : grid1.Coords, EltTy.bits .bf16 = 32 ∨ (Rect.block (s := S4x2048x1024) S1x1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x2048x1024.size a
  hwx1_3 : ∀ i : grid1.Coords, EltTy.bits .bf16 = 32 ∨ (Rect.block (s := S4x2048x1024) S1x1024x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x1024.size a ≤ S4x2048x1024.size a
  hwx1_4 : ∀ i : grid1.Coords, EltTy.bits .f32 = 32 ∨ (Rect.block (s := S4x2048x1024) S1x1024x1024.size (cc1_transform_4 i) (hinb1_4 i)).WholeWords (EltTy.packing .f32)

variable [Facts₀]

def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11_0) S1x1024x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11_1) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11_0) S1x1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11_1) S1x1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1x1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S3x1024x1024 : Shape := ⟨3, ![3, 1024, 1024]⟩
abbrev S1x1024x1024 : Shape := ⟨3, ![1, 1024, 1024]⟩
abbrev S1024x1024 : Shape := ⟨2, ![1024, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 31
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S3x1024x1024, .f32⟩
  | .hbm, ⟨2, _⟩ => ⟨S1x1024x1024, .f32⟩
  | .hbm, ⟨3, _⟩ => ⟨S1024x1024, .f32⟩
  | .hbm, ⟨4, _⟩ => ⟨S4x2048x1024, .f32⟩
  | .hbm, ⟨5, _⟩ => ⟨S1x1024x1024, .f32⟩
  | .hbm, ⟨6, _⟩ => ⟨S1024x1024, .f32⟩
  | .hbm, ⟨7, _⟩ => ⟨S4x2048x1024, .f32⟩
  | .hbm, ⟨8, _⟩ => ⟨S1x1024x1024, .f32⟩
  | .hbm, ⟨9, _⟩ => ⟨S1024x1024, .f32⟩
  | .hbm, ⟨10, _⟩ => ⟨S4x2048x1024, .f32⟩
  | .hbm, ⟨11, _⟩ => ⟨S4x2048x2048, .f32⟩
  | .hbm, ⟨12, _⟩ => ⟨S_, .f32⟩
  | .hbm, ⟨13, _⟩ => ⟨S_, .f32⟩
  | .hbm, ⟨14, _⟩ => ⟨S4x2048x2048, .f32⟩
  | .hbm, ⟨15, _⟩ => ⟨S4x2048x2048, .f32⟩
  | .hbm, ⟨16, _⟩ => ⟨S_, .f32⟩
  | .hbm, ⟨17, _⟩ => ⟨S4x2048, .f32⟩
  | .hbm, ⟨18, _⟩ => ⟨S_, .f32⟩
  | .hbm, ⟨19, _⟩ => ⟨S4x2048, .f32⟩
  | .hbm, ⟨20, _⟩ => ⟨S4x2048, .f32⟩
  | .hbm, ⟨21, _⟩ => ⟨S4x2048x1, .f32⟩
  | .hbm, ⟨22, _⟩ => ⟨S4x2048x2048, .f32⟩
  | .hbm, ⟨23, _⟩ => ⟨S4x2048x2048, .f32⟩
  | .hbm, ⟨24, _⟩ => ⟨S4x2048x2048, .f32⟩
  | .hbm, ⟨25, _⟩ => ⟨S_, .f32⟩
  | .hbm, ⟨26, _⟩ => ⟨S4x2048, .f32⟩
  | .hbm, ⟨27, _⟩ => ⟨S4x2048x1, .f32⟩
  | .hbm, ⟨28, _⟩ => ⟨S4x2048x2048, .f32⟩
  | .hbm, ⟨29, _⟩ => ⟨S4x2048x2048, .f32⟩
  | .hbm, ⟨30, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]

class Facts₀ : Prop where
  slices_S3x1024x1024_S1x1024x1024_0_0_0 : S3x1024x1024.Slices ![0, 0, 0] S1x1024x1024
  shapeCasts_S1x1024x1024_S1024x1024 : S1x1024x1024.ShapeCasts S1024x1024
  slices_S3x1024x1024_S1x1024x1024_1_0_0 : S3x1024x1024.Slices ![1, 0, 0] S1x1024x1024
  slices_S3x1024x1024_S1x1024x1024_2_0_0 : S3x1024x1024.Slices ![2, 0, 0] S1x1024x1024
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.K.Region0.lean ====
/-
  Region 0, the key/value projection kernel: on each of its 8 grid points (batch, row block) it reads one block of
  the activations and the whole concatenated weight matrix, multiplies them, and stores the left half of the product
  as the key block and the right half as the value block. Here: each window's block at a point, what the body leaves
  in the two output buffers as a function of the two input blocks, the body's triple, the proof data of the pipeline
  and its body obligation, all at a parameter V, the contents of the buffers when the region is entered.
-/
import proofs.«101893_j63488206570043_2_alg».proof.Proof.Gen.Kernel.Launch
import proofs.«101893_j63488206570043_2_alg».proof.Proof.Gen.Kernel.Skeleton
import proofs.«101893_j63488206570043_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' current staging buffer holds their block at every point, fetched there or not, for any proof
    data whose array is V's and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the weight matrix, whose one block is the whole array, fetched at the first point only. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_0 : Rect S1x1024x1024 := Rect.unit (s := S1x1024x1024) ![0, 0, 0] S1x1024x1024.size inb_S1x1024x1024_S1x1024x1024_0_0_0
abbrev r0_1 : Rect S1024x2048 := Rect.unit (s := S1024x2048) ![0, 0] S1024x2048.size inb_S1024x2048_S1024x2048_0_0

/-! ## What the body leaves in each output window's buffer -/

/-- The key block's staging buffer after the body, from the two input blocks: its one store, of the left half of the
    product rounded to bf16. -/
def out0_2 (x0 : Vec F S1x1024x1024 .f32) (x1 : Vec F S1024x2048 .bf16) : Vec F S1x1024x1024 .bf16 :=
  View.canon [⟨r0_0, k0_pay2 (View.ld x0 r0_0) (View.ld x1 r0_1)⟩]

/-- The value block's staging buffer after the body: its one store, of the right half of the product rounded to bf16. -/
def out0_3 (x0 : Vec F S1x1024x1024 .f32) (x1 : Vec F S1024x2048 .bf16) : Vec F S1x1024x1024 .bf16 :=
  View.canon [⟨r0_0, k0_pay3 (View.ld x0 r0_0) (View.ld x1 r0_1)⟩]

/-- The one store tiles the buffer, so it covers it. -/
theorem cover0_2 (p0 : Vec F S1x1024x1024 .bf16) (y : S1x1024x1024.Idx) :
    ∃ pc ∈ ([⟨r0_0, p0⟩] : List (View.Piece (Elt F) S1x1024x1024 .bf16)), y ∈ pc.1.set :=
  View.cover_of_tiled [⟨r0_0, p0⟩] S1x1024x1024.size (by rfl) y

theorem cover0_3 (p0 : Vec F S1x1024x1024 .bf16) (y : S1x1024x1024.Idx) :
    ∃ pc ∈ ([⟨r0_0, p0⟩] : List (View.Piece (Elt F) S1x1024x1024 .bf16)), y ∈ pc.1.set :=
  View.cover_of_tiled [⟨r0_0, p0⟩] S1x1024x1024.size (by rfl) y

/-! ## The body's triple -/

set_option maxHeartbeats 1000000 in
/-- The kernel body on whole staging memrefs, the inputs' at read contents x0, x1 and the outputs' at anything, runs
    to the continuation holding the inputs' as they were and each output's at out0_W of the inputs'. -/
theorem sound_kernel0 (c : Dev nD) (E : Set ℕ) (i : grid0.Coords)
    (arg2 : Memref sig .tc .vmem S1x1024x1024 .f32) (harg2 : arg2.IsWhole) (arg3 : Memref sig .tc .vmem S1024x2048 .bf16) (harg3 : arg3.IsWhole)
    (arg4 : Memref sig .tc .vmem S1x1024x1024 .bf16) (harg4 : arg4.IsWhole) (arg5 : Memref sig .tc .vmem S1x1024x1024 .bf16) (harg5 : arg5.IsWhole)
    (x0 : Vec F S1x1024x1024 .f32) (x1 : Vec F S1024x2048 .bf16) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (out0_2 x0 x1) ∗ owns (c : Thread nD τ) arg5 fullShare (out0_3 x0 x1)) -∗ K ⟨⟩))
      ⊢ wp frame (wpE (defs₀ (F := F)) Variants.none c none) E (cc0_kernel i arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%d2, %f2, -, H2⟩, ⟨%d3, %f3, -, H3⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

/-! ## The pipeline's proof data -/

/-- The proof data of pipeline 0 on core c: the arrays as the region finds them; after the body at point t each
    input's buffer at its block and each output's at out0_W of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Shared.lean ====
/-
  Region 1, the attention kernel: what its two control cases share. The grid is (batch, query block, key block)
  = 4 x 2 x 2, the key block running fastest, so a point t has key block t mod 2. The body's first conditional
  (reset the scratch and project the queries) holds exactly at key block 0, its second (divide and store the
  output block) exactly at key block 1. The output window is idle at key block 0 and written back at key block 1.
-/
import proofs.«101893_j63488206570043_2_alg».proof.Proof.Gen.Kernel.Launch
import proofs.«101893_j63488206570043_2_alg».proof.Proof.Gen.Kernel.Skeleton
import proofs.«101893_j63488206570043_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions, decided over the grid -/

/-- The first conditional's condition: the key-block coordinate is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)
/-- The second conditional's condition: the key-block coordinate is 1, the last. -/
abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
theorem liveAt1_4_B : ∀ t : Fin cfg1.N, ¬cond1_0 (grid1.coords t) → cond1_1 (grid1.coords t) → cfg1.idle 4 (grid1.coords t) = false := by decide +kernel

/-! ## The memrefs the body is called with -/

abbrev ms1_0 (t : Fin cfg1.N) : Memref sig .tc .vmem S1x1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x1024 .f32 := win1_4.stage (cfg1.slots t 4)
abbrev hs1_4 (t : Fin cfg1.N) : (ms1_4 t).IsWhole := hstage1_4 ((cfg1.slots t 4).cast nbuf1_4)
/-- The four scratch buffers: the cached queries, the running maximum, the running denominator, the running numerator. -/
abbrev scM1_0 : Memref sig .tc .vmem S1024x1024 .bf16 := Memref.whole cc1_scratch0
abbrev scM1_1 : Memref sig .tc .vmem S1024x1 .f32 := Memref.whole cc1_scratch1
abbrev scM1_2 : Memref sig .tc .vmem S1024x1 .f32 := Memref.whole cc1_scratch2
abbrev scM1_3 : Memref sig .tc .vmem S1024x1024 .f32 := Memref.whole cc1_scratch3
abbrev VS1_0 : View sig .tc .vmem S1024x1024 .bf16 := scM1_0.view
abbrev VS1_1 : View sig .tc .vmem S1024x1 .f32 := scM1_1.view
abbrev VS1_2 : View sig .tc .vmem S1024x1 .f32 := scM1_2.view
abbrev VS1_3 : View sig .tc .vmem S1024x1024 .f32 := scM1_3.view
/-- One staging buffer of the output window, through which its contents are stated. -/
abbrev VO1_4 : View sig .tc .vmem S1x1024x1024 .f32 := (Memref.whole cc1_stg4_0 : Memref sig .tc .vmem S1x1024x1024 .f32).view

/-- The class invariant spelt out: the other region's staging buffers at some contents, the four scratch buffers
    owned as memrefs at some contents, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

end Cert.Kernel.Hand

end
-- ==== Proof.K.R1RunA.lean ====
/-
  Region 1 at a point with key block 0: the body resets the scratch (queries = x·Wq, maximum = -∞, denominator = 0,
  numerator = 0), absorbs the first key block into it, and leaves the output block alone. Stated on any whole
  memrefs: the four input blocks are kept, the output buffer is handed back as found, and each scratch buffer ends
  with the pieces its stores wrote, last first.
-/
import proofs.«101893_j63488206570043_2_alg».proof.Proof.K.R1Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's triple at key block 0, with the pieces each scratch buffer ends with as its witness. -/
noncomputable def kernelRun1_A (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i)
    (x0 : Vec F S1x1024x1024 .f32) (x1 : Vec F S1024x1024 .bf16) (x2 : Vec F S1x1024x1024 .bf16) (x3 : Vec F S1x1024x1024 .bf16) :
    Σ' (LS0 : List (View.Piece (Elt F) S1024x1024 .bf16)) (LS1 : List (View.Piece (Elt F) S1024x1 .f32)) (LS2 : List (View.Piece (Elt F) S1024x1 .f32)), { LS3 : List (View.Piece (Elt F) S1024x1024 .f32) //
      ∀ (xi4 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc1_kernel i arg3 harg3 arg4 harg4 arg5 harg5 arg6 harg6 arg7 harg7 arg8 harg8 arg9 harg9 arg10 harg10 arg11 harg11) K } := by
  refine ⟨?_, ?_, ?_, ?_, fun xi4 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    iexists _; iexact HS3

end Cert.Kernel.Hand

end
-- ==== Proof.K.R1RunB.lean ====
/-
  Region 1 at a point with key block 1: the body absorbs the second key block into the scratch the point before
  left (the cached queries are only read), and stores numerator / denominator into the output block. Stated on any
  whole memrefs: the four input blocks and the cached queries are kept, and the output buffer and the other three
  scratch buffers end with the pieces their stores wrote, last first.
-/
import proofs.«101893_j63488206570043_2_alg».proof.Proof.K.R1Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's triple at key block 1, with the pieces the output buffer and each stored scratch buffer end with as its witness. -/
noncomputable def kernelRun1_B (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i)
    (x0 : Vec F S1x1024x1024 .f32) (x1 : Vec F S1024x1024 .bf16) (x2 : Vec F S1x1024x1024 .bf16) (x3 : Vec F S1x1024x1024 .bf16) (xs0 : Vec F S1024x1024 .bf16) (xs1 : Vec F S1024x1 .f32) (xs2 : Vec F S1024x1 .f32) (xs3 : Vec F S1024x1024 .f32) :
    Σ' (L4 : List (View.Piece (Elt F) S1x1024x1024 .f32)) (LS1 : List (View.Piece (Elt F) S1024x1 .f32)) (LS2 : List (View.Piece (Elt F) S1024x1 .f32)), { LS3 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)
                ∗ owns (c : Thread nD τ) arg8 fullShare xs0 ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc1_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]
    · iexists _; isplitr; · ipureintro; exact harg8.read_unread _
      iexact HS0
    isplitl [HS1]; · iexists _; iexact HS1
    isplitl [HS2]; · iexists _; iexact HS2
    iexists _; iexact HS3

end Cert.Kernel.Hand

end
-- ==== Proof.K.Region1.lean ====
/-
  Region 1, the attention kernel: its proof data over the 16 grid points (batch, query block, key block) and the
  body's triple at each point. At a point with key block 0 the body resets the four scratch buffers (the cached
  queries, the running maximum, the running denominator, the running numerator) and absorbs the first key block;
  at a point with key block 1 it absorbs the second key block into what the point before left and stores the
  quotient numerator / denominator into the output block. What the scratch holds after each point is stated by
  recursion on the point, and the region's invariant carries it from one point to the next.
-/
import proofs.«101893_j63488206570043_2_alg».proof.Proof.K.R1RunA
import proofs.«101893_j63488206570043_2_alg».proof.Proof.K.R1RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves: the pieces its stores wrote, read back -/

/-- At key block 0 the stores into scratch 0 cover it. -/
theorem scover1_A_0 (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i)
    (x0 : Vec F S1x1024x1024 .f32) (x1 : Vec F S1024x1024 .bf16) (x2 : Vec F S1x1024x1024 .bf16) (x3 : Vec F S1x1024x1024 .bf16) (y : S1024x1024.Idx) :
    ∃ pc ∈ (kernelRun1_A c i arg3 harg3 arg4 harg4 arg5 harg5 arg6 harg6 arg7 harg7 arg8 harg8 arg9 harg9 arg10 harg10 arg11 harg11 hc0 hc1 x0 x1 x2 x3).1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3).1 S1024x1024.size (by sl_kernel_rfl) y

/-- What key block 0 leaves in scratch 0. -/
def sout1_A_0 (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i)
    (x0 : Vec F S1x1024x1024 .f32) (x1 : Vec F S1024x1024 .bf16) (x2 : Vec F S1x1024x1024 .bf16) (x3 : Vec F S1x1024x1024 .bf16) : Vec F S1024x1024 .bf16 :=
  VS1_0.read (Elt F) (VS1_0.writes (Elt F) VS1_0.junk (kernelRun1_A c i arg3 harg3 arg4 harg4 arg5 harg5 arg6 harg6 arg7 harg7 arg8 harg8 arg9 harg9 arg10 harg10 arg11 harg11 hc0 hc1 x0 x1 x2 x3).1)

/-- At key block 0 the stores into scratch 1 cover it. -/
theorem scover1_A_1 (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i)
    (x0 : Vec F S1x1024x1024 .f32) (x1 : Vec F S1024x1024 .bf16) (x2 : Vec F S1x1024x1024 .bf16) (x3 : Vec F S1x1024x1024 .bf16) (y : S1024x1.Idx) :
    ∃ pc ∈ (kernelRun1_A c i arg3 harg3 arg4 harg4 arg5 harg5 arg6 harg6 arg7 harg7 arg8 harg8 arg9 harg9 arg10 harg10 arg11 harg11 hc0 hc1 x0 x1 x2 x3).2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3).2.1 S1024x1.size (by sl_kernel_rfl) y

/-- What key block 0 leaves in scratch 1. -/
def sout1_A_1 (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i)
    (x0 : Vec F S1x1024x1024 .f32) (x1 : Vec F S1024x1024 .bf16) (x2 : Vec F S1x1024x1024 .bf16) (x3 : Vec F S1x1024x1024 .bf16) : Vec F S1024x1 .f32 :=
  VS1_1.read (Elt F) (VS1_1.writes (Elt F) VS1_1.junk (kernelRun1_A c i arg3 harg3 arg4 harg4 arg5 harg5 arg6 harg6 arg7 harg7 arg8 harg8 arg9 harg9 arg10 harg10 arg11 harg11 hc0 hc1 x0 x1 x2 x3).2.1)

/-- At key block 0 the stores into scratch 2 cover it. -/
theorem scover1_A_2 (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i)
    (x0 : Vec F S1x1024x1024 .f32) (x1 : Vec F S1024x1024 .bf16) (x2 : Vec F S1x1024x1024 .bf16) (x3 : Vec F S1x1024x1024 .bf16) (y : S1024x1.Idx) :
    ∃ pc ∈ (kernelRun1_A c i arg3 harg3 arg4 harg4 arg5 harg5 arg6 harg6 arg7 harg7 arg8 harg8 arg9 harg9 arg10 harg10 arg11 harg11 hc0 hc1 x0 x1 x2 x3).2.2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3).2.2.1 S1024x1.size (by sl_kernel_rfl) y

/-- What key block 0 leaves in scratch 2. -/
def sout1_A_2 (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i)
    (x0 : Vec F S1x1024x1024 .f32) (x1 : Vec F S1024x1024 .bf16) (x2 : Vec F S1x1024x1024 .bf16) (x3 : Vec F S1x1024x1024 .bf16) : Vec F S1024x1 .f32 :=
  VS1_2.read (Elt F) (VS1_2.writes (Elt F) VS1_2.junk (kernelRun1_A c i arg3 harg3 arg4 harg4 arg5 harg5 arg6 harg6 arg7 harg7 arg8 harg8 arg9 harg9 arg10 harg10 arg11 harg11 hc0 hc1 x0 x1 x2 x3).2.2.1)

/-- At key block 0 the stores into scratch 3 cover it. -/
theorem scover1_A_3 (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i)
    (x0 : Vec F S1x1024x1024 .f32) (x1 : Vec F S1024x1024 .bf16) (x2 : Vec F S1x1024x1024 .bf16) (x3 : Vec F S1x1024x1024 .bf16) (y : S1024x1024.Idx) :
    ∃ pc ∈ (kernelRun1_A c i arg3 harg3 arg4 harg4 arg5 harg5 arg6 harg6 arg7 harg7 arg8 harg8 arg9 harg9 arg10 harg10 arg11 harg11 hc0 hc1 x0 x1 x2 x3).2.2.2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3).2.2.2.1 S1024x1024.size (by sl_kernel_rfl) y

/-- What key block 0 leaves in scratch 3. -/
def sout1_A_3 (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i)
    (x0 : Vec F S1x1024x1024 .f32) (x1 : Vec F S1024x1024 .bf16) (x2 : Vec F S1x1024x1024 .bf16) (x3 : Vec F S1x1024x1024 .bf16) : Vec F S1024x1024 .f32 :=
  VS1_3.read (Elt F) (VS1_3.writes (Elt F) VS1_3.junk (kernelRun1_A c i arg3 harg3 arg4 harg4 arg5 harg5 arg6 harg6 arg7 harg7 arg8 harg8 arg9 harg9 arg10 harg10 arg11 harg11 hc0 hc1 x0 x1 x2 x3).2.2.2.1)

/-- At key block 1 the store into the output block covers it. -/
theorem cover1_B_4 (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i)
    (x0 : Vec F S1x1024x1024 .f32) (x1 : Vec F S1024x1024 .bf16) (x2 : Vec F S1x1024x1024 .bf16) (x3 : Vec F S1x1024x1024 .bf16) (xs0 : Vec F S1024x1024 .bf16) (xs1 : Vec F S1024x1 .f32) (xs2 : Vec F S1024x1 .f32) (xs3 : Vec F S1024x1024 .f32) (y : S1x1024x1024.Idx) :
    ∃ pc ∈ (kernelRun1_B c i arg3 harg3 arg4 harg4 arg5 harg5 arg6 harg6 arg7 harg7 arg8 harg8 arg9 harg9 arg10 harg10 arg11 harg11 hc0 hc1 x0 x1 x2 x3 xs0 xs1 xs2 xs3).1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 xs0 xs1 xs2 xs3).1 S1x1024x1024.size (by sl_kernel_rfl) y

/-- What key block 1 leaves in the output block. -/
def out1_B_4 (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i)
    (x0 : Vec F S1x1024x1024 .f32) (x1 : Vec F S1024x1024 .bf16) (x2 : Vec F S1x1024x1024 .bf16) (x3 : Vec F S1x1024x1024 .bf16) (xs0 : Vec F S1024x1024 .bf16) (xs1 : Vec F S1024x1 .f32) (xs2 : Vec F S1024x1 .f32) (xs3 : Vec F S1024x1024 .f32) : Vec F S1x1024x1024 .f32 :=
  VO1_4.read (Elt F) (VO1_4.writes (Elt F) VO1_4.junk (kernelRun1_B c i arg3 harg3 arg4 harg4 arg5 harg5 arg6 harg6 arg7 harg7 arg8 harg8 arg9 harg9 arg10 harg10 arg11 harg11 hc0 hc1 x0 x1 x2 x3 xs0 xs1 xs2 xs3).1)

/-- At key block 1 the stores into scratch 1 cover it. -/
theorem scover1_B_1 (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i)
    (x0 : Vec F S1x1024x1024 .f32) (x1 : Vec F S1024x1024 .bf16) (x2 : Vec F S1x1024x1024 .bf16) (x3 : Vec F S1x1024x1024 .bf16) (xs0 : Vec F S1024x1024 .bf16) (xs1 : Vec F S1024x1 .f32) (xs2 : Vec F S1024x1 .f32) (xs3 : Vec F S1024x1024 .f32) (y : S1024x1.Idx) :
    ∃ pc ∈ (kernelRun1_B c i arg3 harg3 arg4 harg4 arg5 harg5 arg6 harg6 arg7 harg7 arg8 harg8 arg9 harg9 arg10 harg10 arg11 harg11 hc0 hc1 x0 x1 x2 x3 xs0 xs1 xs2 xs3).2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 xs0 xs1 xs2 xs3).2.1 S1024x1.size (by sl_kernel_rfl) y

/-- What key block 1 leaves in scratch 1. -/
def sout1_B_1 (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i)
    (x0 : Vec F S1x1024x1024 .f32) (x1 : Vec F S1024x1024 .bf16) (x2 : Vec F S1x1024x1024 .bf16) (x3 : Vec F S1x1024x1024 .bf16) (xs0 : Vec F S1024x1024 .bf16) (xs1 : Vec F S1024x1 .f32) (xs2 : Vec F S1024x1 .f32) (xs3 : Vec F S1024x1024 .f32) : Vec F S1024x1 .f32 :=
  VS1_1.read (Elt F) (VS1_1.writes (Elt F) VS1_1.junk (kernelRun1_B c i arg3 harg3 arg4 harg4 arg5 harg5 arg6 harg6 arg7 harg7 arg8 harg8 arg9 harg9 arg10 harg10 arg11 harg11 hc0 hc1 x0 x1 x2 x3 xs0 xs1 xs2 xs3).2.1)

/-- At key block 1 the stores into scratch 2 cover it. -/
theorem scover1_B_2 (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i)
    (x0 : Vec F S1x1024x1024 .f32) (x1 : Vec F S1024x1024 .bf16) (x2 : Vec F S1x1024x1024 .bf16) (x3 : Vec F S1x1024x1024 .bf16) (xs0 : Vec F S1024x1024 .bf16) (xs1 : Vec F S1024x1 .f32) (xs2 : Vec F S1024x1 .f32) (xs3 : Vec F S1024x1024 .f32) (y : S1024x1.Idx) :
    ∃ pc ∈ (kernelRun1_B c i arg3 harg3 arg4 harg4 arg5 harg5 arg6 harg6 arg7 harg7 arg8 harg8 arg9 harg9 arg10 harg10 arg11 harg11 hc0 hc1 x0 x1 x2 x3 xs0 xs1 xs2 xs3).2.2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 xs0 xs1 xs2 xs3).2.2.1 S1024x1.size (by sl_kernel_rfl) y

/-- What key block 1 leaves in scratch 2. -/
def sout1_B_2 (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i)
    (x0 : Vec F S1x1024x1024 .f32) (x1 : Vec F S1024x1024 .bf16) (x2 : Vec F S1x1024x1024 .bf16) (x3 : Vec F S1x1024x1024 .bf16) (xs0 : Vec F S1024x1024 .bf16) (xs1 : Vec F S1024x1 .f32) (xs2 : Vec F S1024x1 .f32) (xs3 : Vec F S1024x1024 .f32) : Vec F S1024x1 .f32 :=
  VS1_2.read (Elt F) (VS1_2.writes (Elt F) VS1_2.junk (kernelRun1_B c i arg3 harg3 arg4 harg4 arg5 harg5 arg6 harg6 arg7 harg7 arg8 harg8 arg9 harg9 arg10 harg10 arg11 harg11 hc0 hc1 x0 x1 x2 x3 xs0 xs1 xs2 xs3).2.2.1)

/-- At key block 1 the stores into scratch 3 cover it. -/
theorem scover1_B_3 (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i)
    (x0 : Vec F S1x1024x1024 .f32) (x1 : Vec F S1024x1024 .bf16) (x2 : Vec F S1x1024x1024 .bf16) (x3 : Vec F S1x1024x1024 .bf16) (xs0 : Vec F S1024x1024 .bf16) (xs1 : Vec F S1024x1 .f32) (xs2 : Vec F S1024x1 .f32) (xs3 : Vec F S1024x1024 .f32) (y : S1024x1024.Idx) :
    ∃ pc ∈ (kernelRun1_B c i arg3 harg3 arg4 harg4 arg5 harg5 arg6 harg6 arg7 harg7 arg8 harg8 arg9 harg9 arg10 harg10 arg11 harg11 hc0 hc1 x0 x1 x2 x3 xs0 xs1 xs2 xs3).2.2.2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 xs0 xs1 xs2 xs3).2.2.2.1 S1024x1024.size (by sl_kernel_rfl) y

/-- What key block 1 leaves in scratch 3. -/
def sout1_B_3 (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i)
    (x0 : Vec F S1x1024x1024 .f32) (x1 : Vec F S1024x1024 .bf16) (x2 : Vec F S1x1024x1024 .bf16) (x3 : Vec F S1x1024x1024 .bf16) (xs0 : Vec F S1024x1024 .bf16) (xs1 : Vec F S1024x1 .f32) (xs2 : Vec F S1024x1 .f32) (xs3 : Vec F S1024x1024 .f32) : Vec F S1024x1024 .f32 :=
  VS1_3.read (Elt F) (VS1_3.writes (Elt F) VS1_3.junk (kernelRun1_B c i arg3 harg3 arg4 harg4 arg5 harg5 arg6 harg6 arg7 harg7 arg8 harg8 arg9 harg9 arg10 harg10 arg11 harg11 hc0 hc1 x0 x1 x2 x3 xs0 xs1 xs2 xs3).2.2.2.1)

variable (V : (c : Dev nD) → (b : Ref sig .tc) → Buf (Elt F) ((c : Thread nD τ).loc b))

/-! ## What the output block and the scratch hold after each point -/

/-- The output block's staging buffer, then the four scratch buffers. -/
abbrev Outs1 (F : FTy → Type) [FloatOps F] : Type := Vec F S1x1024x1024 .f32 × Vec F S1024x1024 .bf16 × Vec F S1024x1 .f32 × Vec F S1024x1 .f32 × Vec F S1024x1024 .f32

theorem hcA1 (t : Fin cfg1.N) (h0 : t.val % 2 = 0) : ¬cond1_1 (grid1.coords t) := fun h => by have := (hcond1_1 t).mp h; omega
theorem hcB1 (t : Fin cfg1.N) (h0 : ¬t.val % 2 = 0) : cond1_1 (grid1.coords t) := (hcond1_1 t).mpr (by omega)

/-- After a point with key block 0: the scratch as that case leaves it from the point's input blocks; the output block is not stored (a placeholder nothing consults). -/
def outA1 (c : Dev nD) (t : Fin cfg1.N) (h0 : t.val % 2 = 0) : Outs1 F :=
  (VO1_4.read (Elt F) VO1_4.junk,
   sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (hcA1 t h0) (iblk1 V c 0 t) (iblk1 V c 1 t) (iblk1 V c 2 t) (iblk1 V c 3 t),
   sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (hcA1 t h0) (iblk1 V c 0 t) (iblk1 V c 1 t) (iblk1 V c 2 t) (iblk1 V c 3 t),
   sout1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (hcA1 t h0) (iblk1 V c 0 t) (iblk1 V c 1 t) (iblk1 V c 2 t) (iblk1 V c 3 t),
   sout1_A_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (hcA1 t h0) (iblk1 V c 0 t) (iblk1 V c 1 t) (iblk1 V c 2 t) (iblk1 V c 3 t))

/-- After a point with key block 1: the output block and the last three scratch buffers as that case leaves them from the point's input blocks and the scratch the point before left; the cached queries unchanged. -/
def outB1 (c : Dev nD) (t : Fin cfg1.N) (h0 : ¬t.val % 2 = 0) (prev : Outs1 F) : Outs1 F :=
  (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) (hcB1 t h0) (iblk1 V c 0 t) (iblk1 V c 1 t) (iblk1 V c 2 t) (iblk1 V c 3 t) prev.2.1 prev.2.2.1 prev.2.2.2.1 prev.2.2.2.2,
   prev.2.1,
   sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) (hcB1 t h0) (iblk1 V c 0 t) (iblk1 V c 1 t) (iblk1 V c 2 t) (iblk1 V c 3 t) prev.2.1 prev.2.2.1 prev.2.2.2.1 prev.2.2.2.2,
   sout1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) (hcB1 t h0) (iblk1 V c 0 t) (iblk1 V c 1 t) (iblk1 V c 2 t) (iblk1 V c 3 t) prev.2.1 prev.2.2.1 prev.2.2.2.1 prev.2.2.2.2,
   sout1_B_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) (hcB1 t h0) (iblk1 V c 0 t) (iblk1 V c 1 t) (iblk1 V c 2 t) (iblk1 V c 3 t) prev.2.1 prev.2.2.1 prev.2.2.2.1 prev.2.2.2.2)

/-- What the output block's staging buffer and the scratch hold after the body at position n, by recursion on the point. -/
def outsAt1 (c : Dev nD) : (n : ℕ) → n < cfg1.N → Outs1 F
  | 0, hn => outA1 V c ⟨0, hn⟩ (Nat.zero_mod _)
  | n + 1, hn =>
    if h0 : (n + 1) % 2 = 0 then outA1 V c ⟨n + 1, hn⟩ h0
    else outB1 V c ⟨n + 1, hn⟩ h0 (outsAt1 c n (Nat.lt_of_succ_lt hn))

theorem outsAt1_A (c : Dev nD) (t : Fin cfg1.N) (h0 : t.val % 2 = 0) : outsAt1 V c t.val t.isLt = outA1 V c t h0 := by
  obtain ⟨n, hn⟩ := t
  cases n with
  | zero => rfl
  | succ n => exact dif_pos h0

theorem outsAt1_B (c : Dev nD) (t : Fin cfg1.N) (h0 : ¬t.val % 2 = 0) :
    outsAt1 V c t.val t.isLt = outB1 V c t h0 (outsAt1 V c (t.val - 1) (Nat.lt_of_le_of_lt (Nat.sub_le _ _) t.isLt)) := by
  obtain ⟨n, hn⟩ := t
  cases n with
  | zero => exact absurd (Nat.zero_mod _) h0
  | succ n => exact dif_neg h0

/-- The region invariant before position n: before the first point the class's (every scratch buffer at anything); afterwards each scratch buffer at what the point before left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2.1 ∗ owns (c : Thread nD τ) scM1_3 fullShare (outsAt1 V c n hn).2.2.2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2.1 ∗ owns (c : Thread nD τ) scM1_3 fullShare (outsAt1 V c n hn).2.2.2.2) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2.1 ∗ owns (c : Thread nD τ) scM1_3 fullShare (outsAt1 V c (n - 1) (by omega)).2.2.2.2) ∗ (∃ r, prngReg c r)) := by
  cases n with
  | zero => exact absurd rfl hz
  | succ n => rfl

/-! ## The proof data -/

/-- The proof data of region 1 on core c: the arrays as the region finds them; after the body at point t each input's buffer at its block and the output's at what the recursion says; the invariant carrying the scratch; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the point's key block says which case it is in; the invariant hands the body the scratch at what the point before left (at anything at the first point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  by_cases h0 : t.val % 2 = 0
  · -- key block 0
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [Dat.leavesExact_idle (dat1 V c) 4 t (idleAt1_4_A t ((hcond1_0 t).mpr h0) (hcA1 t h0)) (noFlush1_4_A t ((hcond1_0 t).mpr h0) (hcA1 t h0))]
    rw [outsAt1_A V c t h0]
    unfold outA1 sout1_A_0 sout1_A_1 sout1_A_2 sout1_A_3; (try dsimp only)
    by_cases hz : t.val = 0
    · rw [PhiS1_castSucc V c t, PhiS1_zero V c _ _ hz, PhiA1_eq]
      iintro ⟨⟨⟨E1, E2, E3, E4, E5, E6, E7, HS0, HS1, HS2, HS3⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ _ _ _ _ ((hcond1_0 t).mpr h0) (hcA1 t h0) (iblk1 V c 0 t) (iblk1 V c 1 t) (iblk1 V c 2 t) (iblk1 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%es0, HS0⟩, ⟨%es1, HS1⟩, ⟨%es2, HS2⟩, ⟨%es3, HS3⟩⟩
      isplitl [E1 E2 E3 E4 E5 E6 E7 HS0 HS1 HS2 HS3 Hg]
      · isplitl [E1 E2 E3 E4 E5 E6 E7 HS0 HS1 HS2 HS3]
        · isplitl [E1]; · iexact E1
          isplitl [E2]; · iexact E2
          isplitl [E3]; · iexact E3
          isplitl [E4]; · iexact E4
          isplitl [E5]; · iexact E5
          isplitl [E6]; · iexact E6
          isplitl [E7]; · iexact E7
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _ _ _)
          unfold owns; iexists _; isplitr
          swap; · iexact HS3
          ipureintro; exact View.read_writes_of_cover _ _ _ _ _ (scover1_A_3 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨E1, E2, E3, E4, E5, E6, E7, HS0, HS1, HS2, HS3⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ _ _ _ _ ((hcond1_0 t).mpr h0) (hcA1 t h0) (iblk1 V c 0 t) (iblk1 V c 1 t) (iblk1 V c 2 t) (iblk1 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      isplitl [HS3]; · iexists _; iexact HS3
      iintro ⟨H0, H1, H2, H3, H4, ⟨%es0, HS0⟩, ⟨%es1, HS1⟩, ⟨%es2, HS2⟩, ⟨%es3, HS3⟩⟩
      isplitl [E1 E2 E3 E4 E5 E6 E7 HS0 HS1 HS2 HS3 Hg]
      · isplitl [E1 E2 E3 E4 E5 E6 E7 HS0 HS1 HS2 HS3]
        · isplitl [E1]; · iexact E1
          isplitl [E2]; · iexact E2
          isplitl [E3]; · iexact E3
          isplitl [E4]; · iexact E4
          isplitl [E5]; · iexact E5
          isplitl [E6]; · iexact E6
          isplitl [E7]; · iexact E7
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _ _ _)
          unfold owns; iexists _; isplitr
          swap; · iexact HS3
          ipureintro; exact View.read_writes_of_cover _ _ _ _ _ (scover1_A_3 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · -- key block 1
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4_B t (fun h => h0 ((hcond1_0 t).mp h)) (hcB1 t h0)], after1_4]
    rw [outsAt1_B V c t h0]
    unfold outB1 out1_B_4 sout1_B_1 sout1_B_2 sout1_B_3; (try dsimp only)
    have hz : t.val ≠ 0 := fun h => h0 (by rw [h])
    rw [PhiS1_castSucc V c t, PhiS1_pos V c _ _ hz]
    iintro ⟨⟨⟨E1, E2, E3, E4, E5, E6, E7, HS0, HS1, HS2, HS3⟩, Hg⟩, Ho, ⟨%d0, H0⟩, ⟨%d1, H1⟩, ⟨%d2, H2⟩, ⟨%d3, H3⟩, ⟨%d4, H4⟩⟩
    iapply ((kernelRun1_B c (grid1.coords t) _ _ _ _ _ _ _ _ _ _ _ _ _ _ _ _ _ _ (fun h => h0 ((hcond1_0 t).mp h)) (hcB1 t h0) (iblk1 V c 0 t) (iblk1 V c 1 t) (iblk1 V c 2 t) (iblk1 V c 3 t) _ _ _ _).2.2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HS3]; · iexact HS3
    iintro ⟨H0, H1, H2, H3, ⟨%e4, H4⟩, HS0, ⟨%es1, HS1⟩, ⟨%es2, HS2⟩, ⟨%es3, HS3⟩⟩
    isplitl [E1 E2 E3 E4 E5 E6 E7 HS0 HS1 HS2 HS3 Hg]
    · isplitl [E1 E2 E3 E4 E5 E6 E7 HS0 HS1 HS2 HS3]
      · isplitl [E1]; · iexact E1
        isplitl [E2]; · iexact E2
        isplitl [E3]; · iexact E3
        isplitl [E4]; · iexact E4
        isplitl [E5]; · iexact E5
        isplitl [E6]; · iexact E6
        isplitl [E7]; · iexact E7
        isplitl [HS0]; · iexact HS0
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover1_B_2 c _ _ _ _ _ _ _ _ _ _ _ _ _ _ _ _ _ _ _ _ _ _ _ _ _ _ _ _ _)
        unfold owns; iexists _; isplitr
        swap; · iexact HS3
        ipureintro; exact View.read_writes_of_cover _ _ _ _ _ (scover1_B_3 c _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B_4 c _ _ _ _ _ _ _ _ _ _ _ _ _ _ _ _ _ _ _ _ _ _ _ _ _ _ _ _ _)

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch's named contents are forgotten. -/
theorem hout1 (c : Dev nD) : (dat1 V c).Φ (Fin.last cfg1.N) ⊢ (Pipeline.ΦA spec1 c : sProp 𝕄) := by
  have ht : (Fin.last cfg1.N).val ≠ 0 := by rw [Fin.val_last]; have : cfg1.N = 16 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨E1, E2, E3, E4, E5, E6, E7, HS0, HS1, HS2, HS3⟩, Hg⟩
  isplitl [E1 E2 E3 E4 E5 E6 E7 HS0 HS1 HS2 HS3]
  · isplitl [E1]; · iexact E1
    isplitl [E2]; · iexact E2
    isplitl [E3]; · iexact E3
    isplitl [E4]; · iexact E4
    isplitl [E5]; · iexact E5
    isplitl [E6]; · iexact E6
    isplitl [E7]; · iexact E7
    isplitl [HS0]; · iexists _; iexact HS0
    isplitl [HS1]; · iexists _; iexact HS1
    isplitl [HS2]; · iexists _; iexact HS2
    iexists _; iexact HS3
  iexact Hg

end Cert.Kernel.Hand

end
-- ==== Proof.K.Run.lean ====
/-
  The run of the whole program: twelve host operations (the scaled query weights, and the key and value weights
  side by side), then the projection kernel (region 0), then the attention kernel (region 1), and nothing after.
  Here: the contents of every unscoped buffer at each of the four boundaries, as a fold from the launch memory;
  each argument array read back through the fold to its launch contents; the two regions as segments over the
  thread state "every unscoped buffer at the boundary's contents, the generator register at some state, nothing
  owed"; and the run itself, whose final memory is the last boundary's contents at every unscoped buffer.
-/
import proofs.«101893_j63488206570043_2_alg».proof.Proof.K.Region0
import proofs.«101893_j63488206570043_2_alg».proof.Proof.K.Region1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the program -/

/-- Core c's buffers at launch. -/
abbrev W0 : Dev nD → Valuation τ sig (Elt F) := fun c b => (s₀ m ρ).mem ((c : Dev nD), b)
/-- After the host operations (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit (region 1's entry: no host operation between): its arrays at what the pipeline leaves
    (the inputs as entered, each output's write-backs folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (what region 1's proof data take). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit (the end of the program): its arrays at what the pipeline leaves, every other buffer as
    entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: no host operation writes one, region 0 and region 1 read the activations
    through an input window and never touch the weights -/

theorem W1_main_arg0 (c : Dev nD) : W1 m ρ c (Proc.devRef .tc main_arg0) = W0 m ρ c (Proc.devRef .tc main_arg0) :=
  StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W1_main_arg1 (c : Dev nD) : W1 m ρ c (Proc.devRef .tc main_arg1) = W0 m ρ c (Proc.devRef .tc main_arg1) :=
  StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_main_arg0 m ρ c
    _ = m ((c : Thread nD τ).loc main_arg0) := rfl

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (V2 m ρ) c).arrAt_in 0 rfl _).trans (A_eq1 (V2 m ρ) c 0))
    _ = m ((c : Thread nD τ).loc main_arg0) := W2_main_arg0 m ρ c

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_main_arg1 m ρ c
    _ = m ((c : Thread nD τ).loc main_arg1) := rfl

/-! ### What region 1 finds in the arrays it reads -/

/-- The key array is what region 0's write-backs leave in it, -/
theorem V2_v11_0 (c : Dev nD) : V2 m ρ c main_v11_0 = (dat0 (V1 m ρ) c).arrAt 2 cfg0.N := W2_arr m ρ c 2
/-- the value array likewise, -/
theorem V2_v11_1 (c : Dev nD) : V2 m ρ c main_v11_1 = (dat0 (V1 m ρ) c).arrAt 3 cfg0.N := W2_arr m ρ c 3
/-- the activations are as launched, -/
theorem V2_arg0 (c : Dev nD) : V2 m ρ c main_arg0 = m ((c : Thread nD τ).loc main_arg0) := W2_main_arg0 m ρ c
/-- and the scaled query weights are as the host operations left them. -/
theorem V2_v4 (c : Dev nD) : V2 m ρ c main_v4 = V1 m ρ c main_v4 := W2_of_ne m ρ c main_v4 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered from every unscoped buffer at W1, left at W2. Its arrays split out of
    the unscoped buffers and put back at the exit contents; the generator register into the invariant and out;
    nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W2, left at W3, the end of the program.
    Its invariant names what the body has left in the scratch buffers after each point: it is made from the
    generator register and the scoped buffers no window stages at the first point, and gives them back at the last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    refine .trans ?_ (hin1 (V2 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V2 m ρ) c).Φ (Fin.last cfg1.N) from rfl]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's 3 segments in order: the host stretch from the launch contents, then a region per kernel. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- The program is the run of the segments. -/
theorem main_run (c : Dev nD) : main (F := F) c = Pipeline.Seg.run (segs m ρ) := (main_chain c).trans (by chain_rfl)

set_option backward.isDefEq.respectTransparency.types false in
/-- The run: from any memory with zero counters, every weakly fair execution of the program on the TensorCores
    terminates, nothing faulting, and every final memory holds, at every unscoped buffer of every core, the last
    boundary's contents W3. -/
theorem run_full : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: the program runs and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W3_main_arg0 m ρ c),
     (h c _ (mem_uc main_arg1 (by decide))).trans (W3_main_arg1 m ρ c)⟩) (run_full m ρ)

/-- The run with its value: the result array ends holding what region 1's write-backs leave in it, and both argument
    arrays end as launched. -/
theorem run_value : θ_run defs (onTc (τ := τ) (main (F := F))) ⟨m, fun _ => 0, ρ⟩ (fun r => ∀ c : Dev nD,
      r.2.mem ((c.tc : Thread nD τ).loc main_v12) = (dat1 (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v12 (by decide))).trans (W3_arr m ρ c 4),
     (h c _ (mem_uc main_arg0 (by decide))).trans (W3_main_arg0 m ρ c),
     (h c _ (mem_uc main_arg1 (by decide))).trans (W3_main_arg1 m ρ c)⟩) (run_full m ρ)

end Cert.Kernel.Hand

end
-- ==== Proof.KI.Region0.lean ====
/-
  Region 0, the key/value projection kernel: on each of its 8 grid points (batch, row block) it reads one block of
  the activations and the whole concatenated weight matrix, multiplies them, and stores the left half of the product
  as the key block and the right half as the value block. Here: each window's block at a point, what the body leaves
  in the two output buffers as a function of the two input blocks, the body's triple, the proof data of the pipeline
  and its body obligation, all at a parameter V, the contents of the buffers when the region is entered.
-/
import proofs.«101893_j63488206570043_2_alg».proof.Proof.Gen.KernelIdeal.Launch
import proofs.«101893_j63488206570043_2_alg».proof.Proof.Gen.KernelIdeal.Skeleton
import proofs.«101893_j63488206570043_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' current staging buffer holds their block at every point, fetched there or not, for any proof
    data whose array is V's and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the weight matrix, whose one block is the whole array, fetched at the first point only. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_0 : Rect S1x1024x1024 := Rect.unit (s := S1x1024x1024) ![0, 0, 0] S1x1024x1024.size inb_S1x1024x1024_S1x1024x1024_0_0_0
abbrev r0_1 : Rect S1024x2048 := Rect.unit (s := S1024x2048) ![0, 0] S1024x2048.size inb_S1024x2048_S1024x2048_0_0

/-! ## What the body leaves in each output window's buffer -/

/-- The key block's staging buffer after the body, from the two input blocks: its one store, of the left half of the
    product rounded to bf16. -/
def out0_2 (x0 : Vec F S1x1024x1024 .f32) (x1 : Vec F S1024x2048 .bf16) : Vec F S1x1024x1024 .bf16 :=
  View.canon [⟨r0_0, k0_pay2 (View.ld x0 r0_0) (View.ld x1 r0_1)⟩]

/-- The value block's staging buffer after the body: its one store, of the right half of the product rounded to bf16. -/
def out0_3 (x0 : Vec F S1x1024x1024 .f32) (x1 : Vec F S1024x2048 .bf16) : Vec F S1x1024x1024 .bf16 :=
  View.canon [⟨r0_0, k0_pay3 (View.ld x0 r0_0) (View.ld x1 r0_1)⟩]

/-- The one store tiles the buffer, so it covers it. -/
theorem cover0_2 (p0 : Vec F S1x1024x1024 .bf16) (y : S1x1024x1024.Idx) :
    ∃ pc ∈ ([⟨r0_0, p0⟩] : List (View.Piece (Elt F) S1x1024x1024 .bf16)), y ∈ pc.1.set :=
  View.cover_of_tiled [⟨r0_0, p0⟩] S1x1024x1024.size (by rfl) y

theorem cover0_3 (p0 : Vec F S1x1024x1024 .bf16) (y : S1x1024x1024.Idx) :
    ∃ pc ∈ ([⟨r0_0, p0⟩] : List (View.Piece (Elt F) S1x1024x1024 .bf16)), y ∈ pc.1.set :=
  View.cover_of_tiled [⟨r0_0, p0⟩] S1x1024x1024.size (by rfl) y

/-! ## The body's triple -/

set_option maxHeartbeats 1000000 in
/-- The kernel body on whole staging memrefs, the inputs' at read contents x0, x1 and the outputs' at anything, runs
    to the continuation holding the inputs' as they were and each output's at out0_W of the inputs'. -/
theorem sound_kernel0 (c : Dev nD) (E : Set ℕ) (i : grid0.Coords)
    (arg2 : Memref sig .tc .vmem S1x1024x1024 .f32) (harg2 : arg2.IsWhole) (arg3 : Memref sig .tc .vmem S1024x2048 .bf16) (harg3 : arg3.IsWhole)
    (arg4 : Memref sig .tc .vmem S1x1024x1024 .bf16) (harg4 : arg4.IsWhole) (arg5 : Memref sig .tc .vmem S1x1024x1024 .bf16) (harg5 : arg5.IsWhole)
    (x0 : Vec F S1x1024x1024 .f32) (x1 : Vec F S1024x2048 .bf16) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (out0_2 x0 x1) ∗ owns (c : Thread nD τ) arg5 fullShare (out0_3 x0 x1)) -∗ K ⟨⟩))
      ⊢ wp frame (wpE (defs₀ (F := F)) Variants.none c none) E (cc0_kernel i arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%d2, %f2, -, H2⟩, ⟨%d3, %f3, -, H3⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

/-! ## The pipeline's proof data -/

/-- The proof data of pipeline 0 on core c: the arrays as the region finds them; after the body at point t each
    input's buffer at its block and each output's at out0_W of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Shared.lean ====
/-
  Region 1, the attention kernel: what its two control cases share. The grid is (batch, query block, key block)
  = 4 x 2 x 2, the key block running fastest, so a point t has key block t mod 2. The body's first conditional
  (reset the scratch and project the queries) holds exactly at key block 0, its second (divide and store the
  output block) exactly at key block 1. The output window is idle at key block 0 and written back at key block 1.
-/
import proofs.«101893_j63488206570043_2_alg».proof.Proof.Gen.KernelIdeal.Launch
import proofs.«101893_j63488206570043_2_alg».proof.Proof.Gen.KernelIdeal.Skeleton
import proofs.«101893_j63488206570043_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions, decided over the grid -/

/-- The first conditional's condition: the key-block coordinate is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)
/-- The second conditional's condition: the key-block coordinate is 1, the last. -/
abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
theorem liveAt1_4_B : ∀ t : Fin cfg1.N, ¬cond1_0 (grid1.coords t) → cond1_1 (grid1.coords t) → cfg1.idle 4 (grid1.coords t) = false := by decide +kernel

/-! ## The memrefs the body is called with -/

abbrev ms1_0 (t : Fin cfg1.N) : Memref sig .tc .vmem S1x1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x1024 .f32 := win1_4.stage (cfg1.slots t 4)
abbrev hs1_4 (t : Fin cfg1.N) : (ms1_4 t).IsWhole := hstage1_4 ((cfg1.slots t 4).cast nbuf1_4)
/-- The four scratch buffers: the cached queries, the running maximum, the running denominator, the running numerator. -/
abbrev scM1_0 : Memref sig .tc .vmem S1024x1024 .bf16 := Memref.whole cc1_scratch0
abbrev scM1_1 : Memref sig .tc .vmem S1024x1 .f32 := Memref.whole cc1_scratch1
abbrev scM1_2 : Memref sig .tc .vmem S1024x1 .f32 := Memref.whole cc1_scratch2
abbrev scM1_3 : Memref sig .tc .vmem S1024x1024 .f32 := Memref.whole cc1_scratch3
abbrev VS1_0 : View sig .tc .vmem S1024x1024 .bf16 := scM1_0.view
abbrev VS1_1 : View sig .tc .vmem S1024x1 .f32 := scM1_1.view
abbrev VS1_2 : View sig .tc .vmem S1024x1 .f32 := scM1_2.view
abbrev VS1_3 : View sig .tc .vmem S1024x1024 .f32 := scM1_3.view
/-- One staging buffer of the output window, through which its contents are stated. -/
abbrev VO1_4 : View sig .tc .vmem S1x1024x1024 .f32 := (Memref.whole cc1_stg4_0 : Memref sig .tc .vmem S1x1024x1024 .f32).view

/-- The class invariant spelt out: the other region's staging buffers at some contents, the four scratch buffers
    owned as memrefs at some contents, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

end Cert.KernelIdeal.Hand

end
-- ==== Proof.KI.R1RunA.lean ====
/-
  Region 1 at a point with key block 0: the body resets the scratch (queries = x·Wq, maximum = -∞, denominator = 0,
  numerator = 0), absorbs the first key block into it, and leaves the output block alone. Stated on any whole
  memrefs: the four input blocks are kept, the output buffer is handed back as found, and each scratch buffer ends
  with the pieces its stores wrote, last first.
-/
import proofs.«101893_j63488206570043_2_alg».proof.Proof.KI.R1Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's triple at key block 0, with the pieces each scratch buffer ends with as its witness. -/
noncomputable def kernelRun1_A (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i)
    (x0 : Vec F S1x1024x1024 .f32) (x1 : Vec F S1024x1024 .bf16) (x2 : Vec F S1x1024x1024 .bf16) (x3 : Vec F S1x1024x1024 .bf16) :
    Σ' (LS0 : List (View.Piece (Elt F) S1024x1024 .bf16)) (LS1 : List (View.Piece (Elt F) S1024x1 .f32)) (LS2 : List (View.Piece (Elt F) S1024x1 .f32)), { LS3 : List (View.Piece (Elt F) S1024x1024 .f32) //
      ∀ (xi4 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc1_kernel i arg3 harg3 arg4 harg4 arg5 harg5 arg6 harg6 arg7 harg7 arg8 harg8 arg9 harg9 arg10 harg10 arg11 harg11) K } := by
  refine ⟨?_, ?_, ?_, ?_, fun xi4 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    iexists _; iexact HS3

end Cert.KernelIdeal.Hand

end
-- ==== Proof.KI.R1RunB.lean ====
/-
  Region 1 at a point with key block 1: the body absorbs the second key block into the scratch the point before
  left (the cached queries are only read), and stores numerator / denominator into the output block. Stated on any
  whole memrefs: the four input blocks and the cached queries are kept, and the output buffer and the other three
  scratch buffers end with the pieces their stores wrote, last first.
-/
import proofs.«101893_j63488206570043_2_alg».proof.Proof.KI.R1Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's triple at key block 1, with the pieces the output buffer and each stored scratch buffer end with as its witness. -/
noncomputable def kernelRun1_B (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i)
    (x0 : Vec F S1x1024x1024 .f32) (x1 : Vec F S1024x1024 .bf16) (x2 : Vec F S1x1024x1024 .bf16) (x3 : Vec F S1x1024x1024 .bf16) (xs0 : Vec F S1024x1024 .bf16) (xs1 : Vec F S1024x1 .f32) (xs2 : Vec F S1024x1 .f32) (xs3 : Vec F S1024x1024 .f32) :
    Σ' (L4 : List (View.Piece (Elt F) S1x1024x1024 .f32)) (LS1 : List (View.Piece (Elt F) S1024x1 .f32)) (LS2 : List (View.Piece (Elt F) S1024x1 .f32)), { LS3 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)
                ∗ owns (c : Thread nD τ) arg8 fullShare xs0 ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc1_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]
    · iexists _; isplitr; · ipureintro; exact harg8.read_unread _
      iexact HS0
    isplitl [HS1]; · iexists _; iexact HS1
    isplitl [HS2]; · iexists _; iexact HS2
    iexists _; iexact HS3

end Cert.KernelIdeal.Hand

end
-- ==== Proof.KI.Region1.lean ====
/-
  Region 1, the attention kernel: its proof data over the 16 grid points (batch, query block, key block) and the
  body's triple at each point. At a point with key block 0 the body resets the four scratch buffers (the cached
  queries, the running maximum, the running denominator, the running numerator) and absorbs the first key block;
  at a point with key block 1 it absorbs the second key block into what the point before left and stores the
  quotient numerator / denominator into the output block. What the scratch holds after each point is stated by
  recursion on the point, and the region's invariant carries it from one point to the next.
-/
import proofs.«101893_j63488206570043_2_alg».proof.Proof.KI.R1RunA
import proofs.«101893_j63488206570043_2_alg».proof.Proof.KI.R1RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves: the pieces its stores wrote, read back -/

/-- At key block 0 the stores into scratch 0 cover it. -/
theorem scover1_A_0 (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i)
    (x0 : Vec F S1x1024x1024 .f32) (x1 : Vec F S1024x1024 .bf16) (x2 : Vec F S1x1024x1024 .bf16) (x3 : Vec F S1x1024x1024 .bf16) (y : S1024x1024.Idx) :
    ∃ pc ∈ (kernelRun1_A c i arg3 harg3 arg4 harg4 arg5 harg5 arg6 harg6 arg7 harg7 arg8 harg8 arg9 harg9 arg10 harg10 arg11 harg11 hc0 hc1 x0 x1 x2 x3).1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3).1 S1024x1024.size (by sl_kernel_rfl) y

/-- What key block 0 leaves in scratch 0. -/
def sout1_A_0 (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i)
    (x0 : Vec F S1x1024x1024 .f32) (x1 : Vec F S1024x1024 .bf16) (x2 : Vec F S1x1024x1024 .bf16) (x3 : Vec F S1x1024x1024 .bf16) : Vec F S1024x1024 .bf16 :=
  VS1_0.read (Elt F) (VS1_0.writes (Elt F) VS1_0.junk (kernelRun1_A c i arg3 harg3 arg4 harg4 arg5 harg5 arg6 harg6 arg7 harg7 arg8 harg8 arg9 harg9 arg10 harg10 arg11 harg11 hc0 hc1 x0 x1 x2 x3).1)

/-- At key block 0 the stores into scratch 1 cover it. -/
theorem scover1_A_1 (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i)
    (x0 : Vec F S1x1024x1024 .f32) (x1 : Vec F S1024x1024 .bf16) (x2 : Vec F S1x1024x1024 .bf16) (x3 : Vec F S1x1024x1024 .bf16) (y : S1024x1.Idx) :
    ∃ pc ∈ (kernelRun1_A c i arg3 harg3 arg4 harg4 arg5 harg5 arg6 harg6 arg7 harg7 arg8 harg8 arg9 harg9 arg10 harg10 arg11 harg11 hc0 hc1 x0 x1 x2 x3).2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3).2.1 S1024x1.size (by sl_kernel_rfl) y

/-- What key block 0 leaves in scratch 1. -/
def sout1_A_1 (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i)
    (x0 : Vec F S1x1024x1024 .f32) (x1 : Vec F S1024x1024 .bf16) (x2 : Vec F S1x1024x1024 .bf16) (x3 : Vec F S1x1024x1024 .bf16) : Vec F S1024x1 .f32 :=
  VS1_1.read (Elt F) (VS1_1.writes (Elt F) VS1_1.junk (kernelRun1_A c i arg3 harg3 arg4 harg4 arg5 harg5 arg6 harg6 arg7 harg7 arg8 harg8 arg9 harg9 arg10 harg10 arg11 harg11 hc0 hc1 x0 x1 x2 x3).2.1)

/-- At key block 0 the stores into scratch 2 cover it. -/
theorem scover1_A_2 (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i)
    (x0 : Vec F S1x1024x1024 .f32) (x1 : Vec F S1024x1024 .bf16) (x2 : Vec F S1x1024x1024 .bf16) (x3 : Vec F S1x1024x1024 .bf16) (y : S1024x1.Idx) :
    ∃ pc ∈ (kernelRun1_A c i arg3 harg3 arg4 harg4 arg5 harg5 arg6 harg6 arg7 harg7 arg8 harg8 arg9 harg9 arg10 harg10 arg11 harg11 hc0 hc1 x0 x1 x2 x3).2.2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3).2.2.1 S1024x1.size (by sl_kernel_rfl) y

/-- What key block 0 leaves in scratch 2. -/
def sout1_A_2 (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i)
    (x0 : Vec F S1x1024x1024 .f32) (x1 : Vec F S1024x1024 .bf16) (x2 : Vec F S1x1024x1024 .bf16) (x3 : Vec F S1x1024x1024 .bf16) : Vec F S1024x1 .f32 :=
  VS1_2.read (Elt F) (VS1_2.writes (Elt F) VS1_2.junk (kernelRun1_A c i arg3 harg3 arg4 harg4 arg5 harg5 arg6 harg6 arg7 harg7 arg8 harg8 arg9 harg9 arg10 harg10 arg11 harg11 hc0 hc1 x0 x1 x2 x3).2.2.1)

/-- At key block 0 the stores into scratch 3 cover it. -/
theorem scover1_A_3 (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i)
    (x0 : Vec F S1x1024x1024 .f32) (x1 : Vec F S1024x1024 .bf16) (x2 : Vec F S1x1024x1024 .bf16) (x3 : Vec F S1x1024x1024 .bf16) (y : S1024x1024.Idx) :
    ∃ pc ∈ (kernelRun1_A c i arg3 harg3 arg4 harg4 arg5 harg5 arg6 harg6 arg7 harg7 arg8 harg8 arg9 harg9 arg10 harg10 arg11 harg11 hc0 hc1 x0 x1 x2 x3).2.2.2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3).2.2.2.1 S1024x1024.size (by sl_kernel_rfl) y

/-- What key block 0 leaves in scratch 3. -/
def sout1_A_3 (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i)
    (x0 : Vec F S1x1024x1024 .f32) (x1 : Vec F S1024x1024 .bf16) (x2 : Vec F S1x1024x1024 .bf16) (x3 : Vec F S1x1024x1024 .bf16) : Vec F S1024x1024 .f32 :=
  VS1_3.read (Elt F) (VS1_3.writes (Elt F) VS1_3.junk (kernelRun1_A c i arg3 harg3 arg4 harg4 arg5 harg5 arg6 harg6 arg7 harg7 arg8 harg8 arg9 harg9 arg10 harg10 arg11 harg11 hc0 hc1 x0 x1 x2 x3).2.2.2.1)

/-- At key block 1 the store into the output block covers it. -/
theorem cover1_B_4 (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i)
    (x0 : Vec F S1x1024x1024 .f32) (x1 : Vec F S1024x1024 .bf16) (x2 : Vec F S1x1024x1024 .bf16) (x3 : Vec F S1x1024x1024 .bf16) (xs0 : Vec F S1024x1024 .bf16) (xs1 : Vec F S1024x1 .f32) (xs2 : Vec F S1024x1 .f32) (xs3 : Vec F S1024x1024 .f32) (y : S1x1024x1024.Idx) :
    ∃ pc ∈ (kernelRun1_B c i arg3 harg3 arg4 harg4 arg5 harg5 arg6 harg6 arg7 harg7 arg8 harg8 arg9 harg9 arg10 harg10 arg11 harg11 hc0 hc1 x0 x1 x2 x3 xs0 xs1 xs2 xs3).1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 xs0 xs1 xs2 xs3).1 S1x1024x1024.size (by sl_kernel_rfl) y

/-- What key block 1 leaves in the output block. -/
def out1_B_4 (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i)
    (x0 : Vec F S1x1024x1024 .f32) (x1 : Vec F S1024x1024 .bf16) (x2 : Vec F S1x1024x1024 .bf16) (x3 : Vec F S1x1024x1024 .bf16) (xs0 : Vec F S1024x1024 .bf16) (xs1 : Vec F S1024x1 .f32) (xs2 : Vec F S1024x1 .f32) (xs3 : Vec F S1024x1024 .f32) : Vec F S1x1024x1024 .f32 :=
  VO1_4.read (Elt F) (VO1_4.writes (Elt F) VO1_4.junk (kernelRun1_B c i arg3 harg3 arg4 harg4 arg5 harg5 arg6 harg6 arg7 harg7 arg8 harg8 arg9 harg9 arg10 harg10 arg11 harg11 hc0 hc1 x0 x1 x2 x3 xs0 xs1 xs2 xs3).1)

/-- At key block 1 the stores into scratch 1 cover it. -/
theorem scover1_B_1 (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i)
    (x0 : Vec F S1x1024x1024 .f32) (x1 : Vec F S1024x1024 .bf16) (x2 : Vec F S1x1024x1024 .bf16) (x3 : Vec F S1x1024x1024 .bf16) (xs0 : Vec F S1024x1024 .bf16) (xs1 : Vec F S1024x1 .f32) (xs2 : Vec F S1024x1 .f32) (xs3 : Vec F S1024x1024 .f32) (y : S1024x1.Idx) :
    ∃ pc ∈ (kernelRun1_B c i arg3 harg3 arg4 harg4 arg5 harg5 arg6 harg6 arg7 harg7 arg8 harg8 arg9 harg9 arg10 harg10 arg11 harg11 hc0 hc1 x0 x1 x2 x3 xs0 xs1 xs2 xs3).2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 xs0 xs1 xs2 xs3).2.1 S1024x1.size (by sl_kernel_rfl) y

/-- What key block 1 leaves in scratch 1. -/
def sout1_B_1 (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i)
    (x0 : Vec F S1x1024x1024 .f32) (x1 : Vec F S1024x1024 .bf16) (x2 : Vec F S1x1024x1024 .bf16) (x3 : Vec F S1x1024x1024 .bf16) (xs0 : Vec F S1024x1024 .bf16) (xs1 : Vec F S1024x1 .f32) (xs2 : Vec F S1024x1 .f32) (xs3 : Vec F S1024x1024 .f32) : Vec F S1024x1 .f32 :=
  VS1_1.read (Elt F) (VS1_1.writes (Elt F) VS1_1.junk (kernelRun1_B c i arg3 harg3 arg4 harg4 arg5 harg5 arg6 harg6 arg7 harg7 arg8 harg8 arg9 harg9 arg10 harg10 arg11 harg11 hc0 hc1 x0 x1 x2 x3 xs0 xs1 xs2 xs3).2.1)

/-- At key block 1 the stores into scratch 2 cover it. -/
theorem scover1_B_2 (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i)
    (x0 : Vec F S1x1024x1024 .f32) (x1 : Vec F S1024x1024 .bf16) (x2 : Vec F S1x1024x1024 .bf16) (x3 : Vec F S1x1024x1024 .bf16) (xs0 : Vec F S1024x1024 .bf16) (xs1 : Vec F S1024x1 .f32) (xs2 : Vec F S1024x1 .f32) (xs3 : Vec F S1024x1024 .f32) (y : S1024x1.Idx) :
    ∃ pc ∈ (kernelRun1_B c i arg3 harg3 arg4 harg4 arg5 harg5 arg6 harg6 arg7 harg7 arg8 harg8 arg9 harg9 arg10 harg10 arg11 harg11 hc0 hc1 x0 x1 x2 x3 xs0 xs1 xs2 xs3).2.2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 xs0 xs1 xs2 xs3).2.2.1 S1024x1.size (by sl_kernel_rfl) y

/-- What key block 1 leaves in scratch 2. -/
def sout1_B_2 (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i)
    (x0 : Vec F S1x1024x1024 .f32) (x1 : Vec F S1024x1024 .bf16) (x2 : Vec F S1x1024x1024 .bf16) (x3 : Vec F S1x1024x1024 .bf16) (xs0 : Vec F S1024x1024 .bf16) (xs1 : Vec F S1024x1 .f32) (xs2 : Vec F S1024x1 .f32) (xs3 : Vec F S1024x1024 .f32) : Vec F S1024x1 .f32 :=
  VS1_2.read (Elt F) (VS1_2.writes (Elt F) VS1_2.junk (kernelRun1_B c i arg3 harg3 arg4 harg4 arg5 harg5 arg6 harg6 arg7 harg7 arg8 harg8 arg9 harg9 arg10 harg10 arg11 harg11 hc0 hc1 x0 x1 x2 x3 xs0 xs1 xs2 xs3).2.2.1)

/-- At key block 1 the stores into scratch 3 cover it. -/
theorem scover1_B_3 (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i)
    (x0 : Vec F S1x1024x1024 .f32) (x1 : Vec F S1024x1024 .bf16) (x2 : Vec F S1x1024x1024 .bf16) (x3 : Vec F S1x1024x1024 .bf16) (xs0 : Vec F S1024x1024 .bf16) (xs1 : Vec F S1024x1 .f32) (xs2 : Vec F S1024x1 .f32) (xs3 : Vec F S1024x1024 .f32) (y : S1024x1024.Idx) :
    ∃ pc ∈ (kernelRun1_B c i arg3 harg3 arg4 harg4 arg5 harg5 arg6 harg6 arg7 harg7 arg8 harg8 arg9 harg9 arg10 harg10 arg11 harg11 hc0 hc1 x0 x1 x2 x3 xs0 xs1 xs2 xs3).2.2.2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 xs0 xs1 xs2 xs3).2.2.2.1 S1024x1024.size (by sl_kernel_rfl) y

/-- What key block 1 leaves in scratch 3. -/
def sout1_B_3 (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i)
    (x0 : Vec F S1x1024x1024 .f32) (x1 : Vec F S1024x1024 .bf16) (x2 : Vec F S1x1024x1024 .bf16) (x3 : Vec F S1x1024x1024 .bf16) (xs0 : Vec F S1024x1024 .bf16) (xs1 : Vec F S1024x1 .f32) (xs2 : Vec F S1024x1 .f32) (xs3 : Vec F S1024x1024 .f32) : Vec F S1024x1024 .f32 :=
  VS1_3.read (Elt F) (VS1_3.writes (Elt F) VS1_3.junk (kernelRun1_B c i arg3 harg3 arg4 harg4 arg5 harg5 arg6 harg6 arg7 harg7 arg8 harg8 arg9 harg9 arg10 harg10 arg11 harg11 hc0 hc1 x0 x1 x2 x3 xs0 xs1 xs2 xs3).2.2.2.1)

variable (V : (c : Dev nD) → (b : Ref sig .tc) → Buf (Elt F) ((c : Thread nD τ).loc b))

/-! ## What the output block and the scratch hold after each point -/

/-- The output block's staging buffer, then the four scratch buffers. -/
abbrev Outs1 (F : FTy → Type) [FloatOps F] : Type := Vec F S1x1024x1024 .f32 × Vec F S1024x1024 .bf16 × Vec F S1024x1 .f32 × Vec F S1024x1 .f32 × Vec F S1024x1024 .f32

theorem hcA1 (t : Fin cfg1.N) (h0 : t.val % 2 = 0) : ¬cond1_1 (grid1.coords t) := fun h => by have := (hcond1_1 t).mp h; omega
theorem hcB1 (t : Fin cfg1.N) (h0 : ¬t.val % 2 = 0) : cond1_1 (grid1.coords t) := (hcond1_1 t).mpr (by omega)

/-- After a point with key block 0: the scratch as that case leaves it from the point's input blocks; the output block is not stored (a placeholder nothing consults). -/
def outA1 (c : Dev nD) (t : Fin cfg1.N) (h0 : t.val % 2 = 0) : Outs1 F :=
  (VO1_4.read (Elt F) VO1_4.junk,
   sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (hcA1 t h0) (iblk1 V c 0 t) (iblk1 V c 1 t) (iblk1 V c 2 t) (iblk1 V c 3 t),
   sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (hcA1 t h0) (iblk1 V c 0 t) (iblk1 V c 1 t) (iblk1 V c 2 t) (iblk1 V c 3 t),
   sout1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (hcA1 t h0) (iblk1 V c 0 t) (iblk1 V c 1 t) (iblk1 V c 2 t) (iblk1 V c 3 t),
   sout1_A_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (hcA1 t h0) (iblk1 V c 0 t) (iblk1 V c 1 t) (iblk1 V c 2 t) (iblk1 V c 3 t))

/-- After a point with key block 1: the output block and the last three scratch buffers as that case leaves them from the point's input blocks and the scratch the point before left; the cached queries unchanged. -/
def outB1 (c : Dev nD) (t : Fin cfg1.N) (h0 : ¬t.val % 2 = 0) (prev : Outs1 F) : Outs1 F :=
  (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) (hcB1 t h0) (iblk1 V c 0 t) (iblk1 V c 1 t) (iblk1 V c 2 t) (iblk1 V c 3 t) prev.2.1 prev.2.2.1 prev.2.2.2.1 prev.2.2.2.2,
   prev.2.1,
   sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) (hcB1 t h0) (iblk1 V c 0 t) (iblk1 V c 1 t) (iblk1 V c 2 t) (iblk1 V c 3 t) prev.2.1 prev.2.2.1 prev.2.2.2.1 prev.2.2.2.2,
   sout1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) (hcB1 t h0) (iblk1 V c 0 t) (iblk1 V c 1 t) (iblk1 V c 2 t) (iblk1 V c 3 t) prev.2.1 prev.2.2.1 prev.2.2.2.1 prev.2.2.2.2,
   sout1_B_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) (hcB1 t h0) (iblk1 V c 0 t) (iblk1 V c 1 t) (iblk1 V c 2 t) (iblk1 V c 3 t) prev.2.1 prev.2.2.1 prev.2.2.2.1 prev.2.2.2.2)

/-- What the output block's staging buffer and the scratch hold after the body at position n, by recursion on the point. -/
def outsAt1 (c : Dev nD) : (n : ℕ) → n < cfg1.N → Outs1 F
  | 0, hn => outA1 V c ⟨0, hn⟩ (Nat.zero_mod _)
  | n + 1, hn =>
    if h0 : (n + 1) % 2 = 0 then outA1 V c ⟨n + 1, hn⟩ h0
    else outB1 V c ⟨n + 1, hn⟩ h0 (outsAt1 c n (Nat.lt_of_succ_lt hn))

theorem outsAt1_A (c : Dev nD) (t : Fin cfg1.N) (h0 : t.val % 2 = 0) : outsAt1 V c t.val t.isLt = outA1 V c t h0 := by
  obtain ⟨n, hn⟩ := t
  cases n with
  | zero => rfl
  | succ n => exact dif_pos h0

theorem outsAt1_B (c : Dev nD) (t : Fin cfg1.N) (h0 : ¬t.val % 2 = 0) :
    outsAt1 V c t.val t.isLt = outB1 V c t h0 (outsAt1 V c (t.val - 1) (Nat.lt_of_le_of_lt (Nat.sub_le _ _) t.isLt)) := by
  obtain ⟨n, hn⟩ := t
  cases n with
  | zero => exact absurd (Nat.zero_mod _) h0
  | succ n => exact dif_neg h0

/-- The region invariant before position n: before the first point the class's (every scratch buffer at anything); afterwards each scratch buffer at what the point before left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2.1 ∗ owns (c : Thread nD τ) scM1_3 fullShare (outsAt1 V c n hn).2.2.2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2.1 ∗ owns (c : Thread nD τ) scM1_3 fullShare (outsAt1 V c n hn).2.2.2.2) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2.1 ∗ owns (c : Thread nD τ) scM1_3 fullShare (outsAt1 V c (n - 1) (by omega)).2.2.2.2) ∗ (∃ r, prngReg c r)) := by
  cases n with
  | zero => exact absurd rfl hz
  | succ n => rfl

/-! ## The proof data -/

/-- The proof data of region 1 on core c: the arrays as the region finds them; after the body at point t each input's buffer at its block and the output's at what the recursion says; the invariant carrying the scratch; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the point's key block says which case it is in; the invariant hands the body the scratch at what the point before left (at anything at the first point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  by_cases h0 : t.val % 2 = 0
  · -- key block 0
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [Dat.leavesExact_idle (dat1 V c) 4 t (idleAt1_4_A t ((hcond1_0 t).mpr h0) (hcA1 t h0)) (noFlush1_4_A t ((hcond1_0 t).mpr h0) (hcA1 t h0))]
    rw [outsAt1_A V c t h0]
    unfold outA1 sout1_A_0 sout1_A_1 sout1_A_2 sout1_A_3; (try dsimp only)
    by_cases hz : t.val = 0
    · rw [PhiS1_castSucc V c t, PhiS1_zero V c _ _ hz, PhiA1_eq]
      iintro ⟨⟨⟨E1, E2, E3, E4, E5, E6, E7, HS0, HS1, HS2, HS3⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ _ _ _ _ ((hcond1_0 t).mpr h0) (hcA1 t h0) (iblk1 V c 0 t) (iblk1 V c 1 t) (iblk1 V c 2 t) (iblk1 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%es0, HS0⟩, ⟨%es1, HS1⟩, ⟨%es2, HS2⟩, ⟨%es3, HS3⟩⟩
      isplitl [E1 E2 E3 E4 E5 E6 E7 HS0 HS1 HS2 HS3 Hg]
      · isplitl [E1 E2 E3 E4 E5 E6 E7 HS0 HS1 HS2 HS3]
        · isplitl [E1]; · iexact E1
          isplitl [E2]; · iexact E2
          isplitl [E3]; · iexact E3
          isplitl [E4]; · iexact E4
          isplitl [E5]; · iexact E5
          isplitl [E6]; · iexact E6
          isplitl [E7]; · iexact E7
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _ _ _)
          unfold owns; iexists _; isplitr
          swap; · iexact HS3
          ipureintro; exact View.read_writes_of_cover _ _ _ _ _ (scover1_A_3 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨E1, E2, E3, E4, E5, E6, E7, HS0, HS1, HS2, HS3⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ _ _ _ _ ((hcond1_0 t).mpr h0) (hcA1 t h0) (iblk1 V c 0 t) (iblk1 V c 1 t) (iblk1 V c 2 t) (iblk1 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      isplitl [HS3]; · iexists _; iexact HS3
      iintro ⟨H0, H1, H2, H3, H4, ⟨%es0, HS0⟩, ⟨%es1, HS1⟩, ⟨%es2, HS2⟩, ⟨%es3, HS3⟩⟩
      isplitl [E1 E2 E3 E4 E5 E6 E7 HS0 HS1 HS2 HS3 Hg]
      · isplitl [E1 E2 E3 E4 E5 E6 E7 HS0 HS1 HS2 HS3]
        · isplitl [E1]; · iexact E1
          isplitl [E2]; · iexact E2
          isplitl [E3]; · iexact E3
          isplitl [E4]; · iexact E4
          isplitl [E5]; · iexact E5
          isplitl [E6]; · iexact E6
          isplitl [E7]; · iexact E7
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _ _ _)
          unfold owns; iexists _; isplitr
          swap; · iexact HS3
          ipureintro; exact View.read_writes_of_cover _ _ _ _ _ (scover1_A_3 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · -- key block 1
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4_B t (fun h => h0 ((hcond1_0 t).mp h)) (hcB1 t h0)], after1_4]
    rw [outsAt1_B V c t h0]
    unfold outB1 out1_B_4 sout1_B_1 sout1_B_2 sout1_B_3; (try dsimp only)
    have hz : t.val ≠ 0 := fun h => h0 (by rw [h])
    rw [PhiS1_castSucc V c t, PhiS1_pos V c _ _ hz]
    iintro ⟨⟨⟨E1, E2, E3, E4, E5, E6, E7, HS0, HS1, HS2, HS3⟩, Hg⟩, Ho, ⟨%d0, H0⟩, ⟨%d1, H1⟩, ⟨%d2, H2⟩, ⟨%d3, H3⟩, ⟨%d4, H4⟩⟩
    iapply ((kernelRun1_B c (grid1.coords t) _ _ _ _ _ _ _ _ _ _ _ _ _ _ _ _ _ _ (fun h => h0 ((hcond1_0 t).mp h)) (hcB1 t h0) (iblk1 V c 0 t) (iblk1 V c 1 t) (iblk1 V c 2 t) (iblk1 V c 3 t) _ _ _ _).2.2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HS3]; · iexact HS3
    iintro ⟨H0, H1, H2, H3, ⟨%e4, H4⟩, HS0, ⟨%es1, HS1⟩, ⟨%es2, HS2⟩, ⟨%es3, HS3⟩⟩
    isplitl [E1 E2 E3 E4 E5 E6 E7 HS0 HS1 HS2 HS3 Hg]
    · isplitl [E1 E2 E3 E4 E5 E6 E7 HS0 HS1 HS2 HS3]
      · isplitl [E1]; · iexact E1
        isplitl [E2]; · iexact E2
        isplitl [E3]; · iexact E3
        isplitl [E4]; · iexact E4
        isplitl [E5]; · iexact E5
        isplitl [E6]; · iexact E6
        isplitl [E7]; · iexact E7
        isplitl [HS0]; · iexact HS0
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover1_B_2 c _ _ _ _ _ _ _ _ _ _ _ _ _ _ _ _ _ _ _ _ _ _ _ _ _ _ _ _ _)
        unfold owns; iexists _; isplitr
        swap; · iexact HS3
        ipureintro; exact View.read_writes_of_cover _ _ _ _ _ (scover1_B_3 c _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B_4 c _ _ _ _ _ _ _ _ _ _ _ _ _ _ _ _ _ _ _ _ _ _ _ _ _ _ _ _ _)

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch's named contents are forgotten. -/
theorem hout1 (c : Dev nD) : (dat1 V c).Φ (Fin.last cfg1.N) ⊢ (Pipeline.ΦA spec1 c : sProp 𝕄) := by
  have ht : (Fin.last cfg1.N).val ≠ 0 := by rw [Fin.val_last]; have : cfg1.N = 16 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨E1, E2, E3, E4, E5, E6, E7, HS0, HS1, HS2, HS3⟩, Hg⟩
  isplitl [E1 E2 E3 E4 E5 E6 E7 HS0 HS1 HS2 HS3]
  · isplitl [E1]; · iexact E1
    isplitl [E2]; · iexact E2
    isplitl [E3]; · iexact E3
    isplitl [E4]; · iexact E4
    isplitl [E5]; · iexact E5
    isplitl [E6]; · iexact E6
    isplitl [E7]; · iexact E7
    isplitl [HS0]; · iexists _; iexact HS0
    isplitl [HS1]; · iexists _; iexact HS1
    isplitl [HS2]; · iexists _; iexact HS2
    iexists _; iexact HS3
  iexact Hg

end Cert.KernelIdeal.Hand

end
-- ==== Proof.KI.Run.lean ====
/-
  The run of the whole program: twelve host operations (the scaled query weights, and the key and value weights
  side by side), then the projection kernel (region 0), then the attention kernel (region 1), and nothing after.
  Here: the contents of every unscoped buffer at each of the four boundaries, as a fold from the launch memory;
  each argument array read back through the fold to its launch contents; the two regions as segments over the
  thread state "every unscoped buffer at the boundary's contents, the generator register at some state, nothing
  owed"; and the run itself, whose final memory is the last boundary's contents at every unscoped buffer.
-/
import proofs.«101893_j63488206570043_2_alg».proof.Proof.KI.Region0
import proofs.«101893_j63488206570043_2_alg».proof.Proof.KI.Region1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the program -/

/-- Core c's buffers at launch. -/
abbrev W0 : Dev nD → Valuation τ sig (Elt F) := fun c b => (s₀ m ρ).mem ((c : Dev nD), b)
/-- After the host operations (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit (region 1's entry: no host operation between): its arrays at what the pipeline leaves
    (the inputs as entered, each output's write-backs folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (what region 1's proof data take). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit (the end of the program): its arrays at what the pipeline leaves, every other buffer as
    entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: no host operation writes one, region 0 and region 1 read the activations
    through an input window and never touch the weights -/

theorem W1_main_arg0 (c : Dev nD) : W1 m ρ c (Proc.devRef .tc main_arg0) = W0 m ρ c (Proc.devRef .tc main_arg0) :=
  StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W1_main_arg1 (c : Dev nD) : W1 m ρ c (Proc.devRef .tc main_arg1) = W0 m ρ c (Proc.devRef .tc main_arg1) :=
  StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_main_arg0 m ρ c
    _ = m ((c : Thread nD τ).loc main_arg0) := rfl

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (V2 m ρ) c).arrAt_in 0 rfl _).trans (A_eq1 (V2 m ρ) c 0))
    _ = m ((c : Thread nD τ).loc main_arg0) := W2_main_arg0 m ρ c

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_main_arg1 m ρ c
    _ = m ((c : Thread nD τ).loc main_arg1) := rfl

/-! ### What region 1 finds in the arrays it reads -/

/-- The key array is what region 0's write-backs leave in it, -/
theorem V2_v11_0 (c : Dev nD) : V2 m ρ c main_v11_0 = (dat0 (V1 m ρ) c).arrAt 2 cfg0.N := W2_arr m ρ c 2
/-- the value array likewise, -/
theorem V2_v11_1 (c : Dev nD) : V2 m ρ c main_v11_1 = (dat0 (V1 m ρ) c).arrAt 3 cfg0.N := W2_arr m ρ c 3
/-- the activations are as launched, -/
theorem V2_arg0 (c : Dev nD) : V2 m ρ c main_arg0 = m ((c : Thread nD τ).loc main_arg0) := W2_main_arg0 m ρ c
/-- and the scaled query weights are as the host operations left them. -/
theorem V2_v4 (c : Dev nD) : V2 m ρ c main_v4 = V1 m ρ c main_v4 := W2_of_ne m ρ c main_v4 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered from every unscoped buffer at W1, left at W2. Its arrays split out of
    the unscoped buffers and put back at the exit contents; the generator register into the invariant and out;
    nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W2, left at W3, the end of the program.
    Its invariant names what the body has left in the scratch buffers after each point: it is made from the
    generator register and the scoped buffers no window stages at the first point, and gives them back at the last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    refine .trans ?_ (hin1 (V2 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V2 m ρ) c).Φ (Fin.last cfg1.N) from rfl]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's 3 segments in order: the host stretch from the launch contents, then a region per kernel. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- The program is the run of the segments. -/
theorem main_run (c : Dev nD) : main (F := F) c = Pipeline.Seg.run (segs m ρ) := (main_chain c).trans (by chain_rfl)

set_option backward.isDefEq.respectTransparency.types false in
/-- The run: from any memory with zero counters, every weakly fair execution of the program on the TensorCores
    terminates, nothing faulting, and every final memory holds, at every unscoped buffer of every core, the last
    boundary's contents W3. -/
theorem run_full : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: the program runs and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W3_main_arg0 m ρ c),
     (h c _ (mem_uc main_arg1 (by decide))).trans (W3_main_arg1 m ρ c)⟩) (run_full m ρ)

/-- The run with its value: the result array ends holding what region 1's write-backs leave in it, and both argument
    arrays end as launched. -/
theorem run_value : θ_run defs (onTc (τ := τ) (main (F := F))) ⟨m, fun _ => 0, ρ⟩ (fun r => ∀ c : Dev nD,
      r.2.mem ((c.tc : Thread nD τ).loc main_v12) = (dat1 (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v12 (by decide))).trans (W3_arr m ρ c 4),
     (h c _ (mem_uc main_arg0 (by decide))).trans (W3_main_arg0 m ρ c),
     (h c _ (mem_uc main_arg1 (by decide))).trans (W3_main_arg1 m ρ c)⟩) (run_full m ρ)

end Cert.KernelIdeal.Hand

end
-- ==== Proof.KernelPay1.lean ====
/-
  The attention step's arithmetic, read one element at a time over the extended reals.

  Each named payload of the second kernel function is a pure term over the vectors read before it.
  Here every such term is read at an index written by its coordinates: a layout operation reads its
  operand at one index, a pointwise operation acts on the elements, a product of matrices is the sum
  of the products over the contracted coordinate, and a reduction along the lanes is the sum, or the
  maximum, over the lane coordinate.
-/
import proofs.«101893_j63488206570043_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayValue

open Cert.KernelIdeal Cert.KernelIdeal.Gen Idealize.ShloMosaic Idealize.ShloMosaic.ValueIdx

/-! ## Two column layouts read at an index -/

section Column
variable {α : Type}

/-- A vector `[a]` cast to the column `[a, 1]` reads, at `(i, u)`, the operand at `i`: both indices have
row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the lanes to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The payloads that only move or fill values -/

/-- The running maximum starts at the word of `-∞`. -/
theorem pay1_5 (r : Fin 1024) : k1_pay5 (F := Ideal) (ix2 r (0 : Fin 1)) = Ideal.ofBits .f32 0xFF800000#32 := by
  unfold k1_pay5
  rw [shapeCast_self]
  rfl

/-- The running denominator starts at the word of zero. -/
theorem pay1_6 (r : Fin 1024) : k1_pay6 (F := Ideal) (ix2 r (0 : Fin 1)) = Ideal.ofBits .f32 0x00000000#32 := by
  unfold k1_pay6
  rw [shapeCast_self]
  rfl

/-- The accumulator starts at the word of zero. -/
theorem pay1_7 (r e : Fin 1024) : k1_pay7 (F := Ideal) (ix2 r e) = Ideal.ofBits .f32 0x00000000#32 := by
  unfold k1_pay7
  rw [shapeCast_self]
  rfl

/-- The value block `[1, 1024, 1024]` viewed as a matrix. -/
theorem pay1_8 (vb : Vec Ideal S1x1024x1024 .bf16) (k e : Fin 1024) :
    k1_pay8 vb (ix2 k e) = vb (ix3 (0 : Fin 1) k e) := by
  unfold k1_pay8
  exact shapeCast_1ab_ab_apply vb _ k e

/-- The new running maximum is stored as it is. -/
theorem pay1_2 (v : FVec Ideal S1024x1 .f32) (r : Fin 1024) : k1_pay2 v (ix2 r (0 : Fin 1)) = v (ix2 r (0 : Fin 1)) := by
  unfold k1_pay2
  rw [shapeCast_self]

/-- Narrowing the weights to sixteen bits does nothing over the extended reals. -/
theorem pay1_15 (q : Vec Ideal S1024x1024 .bf16) (kb : Vec Ideal S1x1024x1024 .bf16) (mm : Vec Ideal S1024x1 .f32)
    (r k : Fin 1024) : k1_pay15 q kb mm (ix2 r k) = k1_pay12 q kb mm (ix2 r k) := rfl

/-- The old accumulator is scaled, row by row, by the correction factor. -/
theorem pay1_14 (q : Vec Ideal S1024x1024 .bf16) (kb : Vec Ideal S1x1024x1024 .bf16) (mm mm' : Vec Ideal S1024x1 .f32)
    (acc : Vec Ideal S1024x1024 .f32) (r e : Fin 1024) :
    k1_pay14 q kb mm mm' acc (ix2 r e) = k1_pay11 q kb mm mm' (ix2 r (0 : Fin 1)) * acc (ix2 r e) :=
  congrArg (· * acc (ix2 r e)) (broadcastTo_a1_ab_apply (k1_pay11 q kb mm mm') _ r e)

/-- The correction factor: the exponential of the old maximum minus the new one. -/
theorem pay1_11 (q : Vec Ideal S1024x1024 .bf16) (kb : Vec Ideal S1x1024x1024 .bf16) (mm mm' : Vec Ideal S1024x1 .f32)
    (r : Fin 1024) :
    k1_pay11 q kb mm mm' (ix2 r (0 : Fin 1)) = Ideal.exp (mm' (ix2 r (0 : Fin 1)) - k1_pay10 q kb mm (ix2 r (0 : Fin 1))) := rfl

/-- The weights: the exponential of a score minus its row's new maximum. -/
theorem pay1_12 (q : Vec Ideal S1024x1024 .bf16) (kb : Vec Ideal S1x1024x1024 .bf16) (mm : Vec Ideal S1024x1 .f32)
    (r k : Fin 1024) :
    k1_pay12 q kb mm (ix2 r k) = Ideal.exp (k1_pay9 q kb (ix2 r k) - k1_pay10 q kb mm (ix2 r (0 : Fin 1))) :=
  congrArg (fun t => Ideal.exp (k1_pay9 q kb (ix2 r k) - t)) (broadcastTo_a1_ab_apply (k1_pay10 q kb mm) _ r k)

/-- The result: the accumulator divided, row by row, by the denominator. -/
theorem pay1_3 (acc : Vec Ideal S1024x1024 .f32) (l : Vec Ideal S1024x1 .f32) (r e : Fin 1024) :
    k1_pay3 acc l (ix3 (0 : Fin 1) r e) = Ideal.div (acc (ix2 r e)) (l (ix2 r (0 : Fin 1))) := by
  unfold k1_pay3
  refine (shapeCast_ab_1ab_apply _ _ (0 : Fin 1) r e).trans ?_
  exact congrArg (Ideal.div (acc (ix2 r e))) (broadcastTo_a1_ab_apply l _ r e)

/-! ## A product of matrices read at an index

The contraction runs over one axis; its index set is carried to `Fin 1024` and the two operand indices are
read off coordinate by coordinate. -/

/-- Rows times columns: the left operand is contracted along its lanes, the right along its rows. -/
abbrev dotRC := dot_S1024x1024_S1024x1024_S1024x1024_1_0_0_1_n_n
/-- Rows times rows: both operands are contracted along their lanes. -/
abbrev dotRR := dot_S1024x1024_S1024x1024_S1024x1024_1_1_0_0_n_n

theorem dotRC_lhs_0 (i : S1024x1024.Idx) (q : dotRC.contr.Idx) : (dotRC.lhsIdx i q 0).val = (i 0).val := by
  unfold DotDims.lhsIdx
  rw [dif_neg (show ¬(0 : Fin S1024x1024.rank) ∈ dotRC.lhsBatch by decide),
    dif_pos (show (0 : Fin S1024x1024.rank) ∈ dotRC.lhsNonContracting by decide)]
  rfl
theorem dotRC_lhs_1 (i : S1024x1024.Idx) (q : dotRC.contr.Idx) : (dotRC.lhsIdx i q 1).val = (q ⟨0, by decide⟩).val :=
  dotRC.lhsIdx_val_of_single rfl i q
theorem dotRC_rhs_0 (i : S1024x1024.Idx) (q : dotRC.contr.Idx) : (dotRC.rhsIdx i q 0).val = (q ⟨0, by decide⟩).val :=
  dotRC.rhsIdx_val_of_single rfl i q
theorem dotRC_rhs_1 (i : S1024x1024.Idx) (q : dotRC.contr.Idx) : (dotRC.rhsIdx i q 1).val = (i 1).val := by
  unfold DotDims.rhsIdx
  rw [dif_neg (show ¬(1 : Fin S1024x1024.rank) ∈ dotRC.rhsBatch by decide),
    dif_pos (show (1 : Fin S1024x1024.rank) ∈ dotRC.rhsNonContracting by decide)]
  rfl

/-- Entry `(r, e)` of rows times columns, accumulated into zero: `∑ k, lhs (r, k) * rhs (k, e)`. -/
theorem matmulRC_apply (lhs rhs : FVec Ideal S1024x1024 .bf16) (r e : Fin 1024) :
    matmul dotRC none lhs rhs (constant (F := Ideal) S1024x1024 .f32 0x00000000#32) (ix2 r e)
      = ∑ k : Fin 1024, lhs (ix2 r k) * rhs (ix2 k e) := by
  simp only [matmul]
  rw [Ideal.matmul_constant_zero_apply, ← Equiv.sum_comp (contrEquiv1 dotRC 1024 rfl rfl).symm]
  refine Finset.sum_congr rfl fun k _ => ?_
  have hk := contrEquiv1_symm_val dotRC 1024 rfl rfl k
  have el : dotRC.lhsIdx (ix2 r e) ((contrEquiv1 dotRC 1024 rfl rfl).symm k) = ix2 r k := funext fun a => Fin.ext (by
    match a with
    | ⟨0, _⟩ => exact dotRC_lhs_0 _ _
    | ⟨1, _⟩ => exact (dotRC_lhs_1 _ _).trans hk)
  have er : dotRC.rhsIdx (ix2 r e) ((contrEquiv1 dotRC 1024 rfl rfl).symm k) = ix2 k e := funext fun a => Fin.ext (by
    match a with
    | ⟨0, _⟩ => exact (dotRC_rhs_0 _ _).trans hk
    | ⟨1, _⟩ => exact dotRC_rhs_1 _ _)
  rw [el, er]

theorem dotRR_lhs_0 (i : S1024x1024.Idx) (q : dotRR.contr.Idx) : (dotRR.lhsIdx i q 0).val = (i 0).val := by
  unfold DotDims.lhsIdx
  rw [dif_neg (show ¬(0 : Fin S1024x1024.rank) ∈ dotRR.lhsBatch by decide),
    dif_pos (show (0 : Fin S1024x1024.rank) ∈ dotRR.lhsNonContracting by decide)]
  rfl
theorem dotRR_lhs_1 (i : S1024x1024.Idx) (q : dotRR.contr.Idx) : (dotRR.lhsIdx i q 1).val = (q ⟨0, by decide⟩).val :=
  dotRR.lhsIdx_val_of_single rfl i q
theorem dotRR_rhs_0 (i : S1024x1024.Idx) (q : dotRR.contr.Idx) : (dotRR.rhsIdx i q 0).val = (i 1).val := by
  unfold DotDims.rhsIdx
  rw [dif_neg (show ¬(0 : Fin S1024x1024.rank) ∈ dotRR.rhsBatch by decide),
    dif_pos (show (0 : Fin S1024x1024.rank) ∈ dotRR.rhsNonContracting by decide)]
  rfl
theorem dotRR_rhs_1 (i : S1024x1024.Idx) (q : dotRR.contr.Idx) : (dotRR.rhsIdx i q 1).val = (q ⟨0, by decide⟩).val :=
  dotRR.rhsIdx_val_of_single rfl i q

/-- Entry `(r, k)` of rows times rows, accumulated into zero: `∑ e, lhs (r, e) * rhs (k, e)`. -/
theorem matmulRR_apply (lhs rhs : FVec Ideal S1024x1024 .bf16) (r k : Fin 1024) :
    matmul dotRR none lhs rhs (constant (F := Ideal) S1024x1024 .f32 0x00000000#32) (ix2 r k)
      = ∑ e : Fin 1024, lhs (ix2 r e) * rhs (ix2 k e) := by
  simp only [matmul]
  rw [Ideal.matmul_constant_zero_apply, ← Equiv.sum_comp (contrEquiv1 dotRR 1024 rfl rfl).symm]
  refine Finset.sum_congr rfl fun e _ => ?_
  have he := contrEquiv1_symm_val dotRR 1024 rfl rfl e
  have el : dotRR.lhsIdx (ix2 r k) ((contrEquiv1 dotRR 1024 rfl rfl).symm e) = ix2 r e := funext fun a => Fin.ext (by
    match a with
    | ⟨0, _⟩ => exact dotRR_lhs_0 _ _
    | ⟨1, _⟩ => exact (dotRR_lhs_1 _ _).trans he)
  have er : dotRR.rhsIdx (ix2 r k) ((contrEquiv1 dotRR 1024 rfl rfl).symm e) = ix2 k e := funext fun a => Fin.ext (by
    match a with
    | ⟨0, _⟩ => exact dotRR_rhs_0 _ _
    | ⟨1, _⟩ => exact (dotRR_rhs_1 _ _).trans he)
  rw [el, er]

/-! ## The payloads that multiply matrices -/

/-- The scores: each query row against each key row. -/
theorem pay1_9 (q : Vec Ideal S1024x1024 .bf16) (kb : Vec Ideal S1x1024x1024 .bf16) (r k : Fin 1024) :
    k1_pay9 q kb (ix2 r k) = ∑ e : Fin 1024, q (ix2 r e) * kb (ix3 (0 : Fin 1) k e) := by
  unfold k1_pay9
  refine (matmulRR_apply q _ r k).trans ?_
  exact Finset.sum_congr rfl fun e _ => congrArg (q (ix2 r e) * ·) (shapeCast_1ab_ab_apply kb _ k e)

/-- The query block: the input rows times the query weights. -/
theorem pay1_4 (x : Vec Ideal S1x1024x1024 .f32) (wq : Vec Ideal S1024x1024 .bf16) (r e : Fin 1024) :
    k1_pay4 x wq (ix2 r e) = ∑ d : Fin 1024, x (ix3 (0 : Fin 1) r d) * wq (ix2 d e) := by
  unfold k1_pay4
  refine (congrFun (shapeCast_self _ _) (ix2 r e)).trans ?_
  refine (matmulRC_apply _ _ r e).trans ?_
  exact Finset.sum_congr rfl fun d _ =>
    congrArg₂ (· * ·) (shapeCast_1ab_ab_apply x _ r d) (congrFun (shapeCast_self wq _) (ix2 d e))

/-- The new accumulator: the scaled old one plus the weights times the values. -/
theorem pay1_1 (v7 : FVec Ideal S1024x1024 .bf16) (v29 : FVec Ideal S1024x1024 .f32) (v30 : FVec Ideal S1024x1024 .bf16)
    (r e : Fin 1024) :
    k1_pay1 v7 v29 v30 (constant (F := Ideal) S1024x1024 .f32 0x00000000#32) (ix2 r e)
      = v29 (ix2 r e) + ∑ k : Fin 1024, v30 (ix2 r k) * v7 (ix2 k e) := by
  unfold k1_pay1
  refine (congrFun (shapeCast_self _ _) (ix2 r e)).trans ?_
  exact congrArg (v29 (ix2 r e) + ·) (matmulRC_apply v30 v7 r e)

/-! ## A reduction along the lanes read at an index -/

/-- The maximum along the lanes of row `r`, from the word of `-∞`: the fold of `max` over the lane coordinate. -/
theorem rowMax_apply (src : FVec Ideal S1024x1024 .f32) (h : S1024x1024.Reduces [1] S1024) (hφ : FKind.Formats .f32)
    (hacc : (0xFF800000#32 : BitVec 32) = FKind.maximumf.neutral .f32 hφ) (r : Fin 1024) :
    multiReduction (F := Ideal) .maximumf [1] S1024 src 0xFF800000#32 h hφ hacc (ix1 r)
      = (Finset.univ : Finset (Fin 1024)).fold max (Ideal.ofBits .f32 0xFF800000#32) (fun k => src (ix2 r k)) := by
  refine (Ideal.multiReduction_maximumf_single src _ h hφ hacc (ix1 r)).trans ?_
  refine congrArg (fun f => (Finset.univ : Finset (Fin 1024)).fold max (Ideal.ofBits .f32 0xFF800000#32) f)
    (funext fun k => congrArg src (funext fun a => Fin.ext ?_))
  match a with
  | ⟨0, _⟩ => rfl
  | ⟨1, _⟩ => rfl

/-- The sum along the lanes of row `r`, from the word of zero: the sum over the lane coordinate. -/
theorem rowSum_apply (src : FVec Ideal S1024x1024 .f32) (h : S1024x1024.Reduces [1] S1024) (hφ : FKind.Formats .f32)
    (hacc : (0x00000000#32 : BitVec 32) = FKind.add.neutral .f32 hφ) (r : Fin 1024) :
    multiReduction (F := Ideal) .add [1] S1024 src 0x00000000#32 h hφ hacc (ix1 r) = ∑ k : Fin 1024, src (ix2 r k) := by
  refine (Ideal.multiReduction_add_single src _ h hφ hacc (ix1 r)).trans ?_
  refine Finset.sum_congr rfl fun k _ => congrArg src (funext fun a => Fin.ext ?_)
  match a with
  | ⟨0, _⟩ => rfl
  | ⟨1, _⟩ => rfl

/-! ## The payloads that reduce along the lanes -/

/-- The new running maximum: the old one against the largest score of the row. -/
theorem pay1_10 (q : Vec Ideal S1024x1024 .bf16) (kb : Vec Ideal S1x1024x1024 .bf16) (mm : Vec Ideal S1024x1 .f32)
    (r : Fin 1024) :
    k1_pay10 q kb mm (ix2 r (0 : Fin 1))
      = max (mm (ix2 r (0 : Fin 1)))
          ((Finset.univ : Finset (Fin 1024)).fold max (Ideal.ofBits .f32 0xFF800000#32) (fun k => k1_pay9 q kb (ix2 r k))) := by
  unfold k1_pay10
  exact congrArg (max (mm (ix2 r (0 : Fin 1))))
    ((shapeCast_a_a1_apply _ _ r (0 : Fin 1)).trans (rowMax_apply (k1_pay9 q kb) _ _ _ r))

/-- The new running denominator: the corrected old one plus the row's weights. -/
theorem pay1_13 (q : Vec Ideal S1024x1024 .bf16) (kb : Vec Ideal S1x1024x1024 .bf16) (mm mm' l : Vec Ideal S1024x1 .f32)
    (r : Fin 1024) :
    k1_pay13 q kb mm mm' l (ix2 r (0 : Fin 1))
      = k1_pay11 q kb mm mm' (ix2 r (0 : Fin 1)) * l (ix2 r (0 : Fin 1)) + ∑ k : Fin 1024, k1_pay12 q kb mm (ix2 r k) := by
  unfold k1_pay13
  refine (congrFun (shapeCast_self _ _) (ix2 r (0 : Fin 1))).trans ?_
  exact congrArg (k1_pay11 q kb mm mm' (ix2 r (0 : Fin 1)) * l (ix2 r (0 : Fin 1)) + ·)
    ((shapeCast_a_a1_apply _ _ r (0 : Fin 1)).trans (rowSum_apply (k1_pay12 q kb mm) _ _ _ r))

end Cert.KernelIdeal.PayValue

end
-- ==== Proof.AttnSpec.lean ====
/-
  The two attention formulas of this certificate, as functions of the input arrays over the extended reals.

  X b s d is the activations, Wt t d e the three projection weights (t = 0, 1, 2 for queries, keys, values).
  The reference computes q = X·W₀, k = X·W₁, v = X·W₂, the scores q·kᵀ divided by √1024, a row softmax
  (subtract the row maximum, exponentiate, divide by the row sum) and the product with v.
  The kernel scales W₀ by 1/32 first, and walks the 2048 key columns in two blocks of 1024 keeping a running
  maximum m, a running denominator l and a running numerator acc, rescaling the earlier block by exp(m₁ - m₂)
  when the maximum moves; the result is acc / l.
  For finite inputs the two agree: exp(s - m₁)·exp(m₁ - m₂) = exp(s - m₂), the first block's rescaling of the
  empty state multiplies zeros, √1024 = 32, and a common positive denominator moves across the finite sum.
-/
import Idealize.ShloMosaic.PureOps.Ideal
import Idealize.ShloMosaic.PureOps.Ideal.Laws

noncomputable section

open scoped BigOperators

namespace Cert.Attn

open Idealize.ShloMosaic

/-- The f32 word of 1/32, the kernel's scale of the query weights. -/
abbrev wScale : EReal := Ideal.ofBits .f32 0x3D000000#32
/-- The f32 word of 1024, whose square root divides the reference's scores. -/
abbrev wD : EReal := Ideal.ofBits .f32 0x44800000#32
/-- The f32 word of -∞, where both maxima start. -/
abbrev wNegInf : EReal := Ideal.ofBits .f32 0xFF800000#32
/-- The f32 word of zero, where the sums and the kernel's accumulators start. -/
abbrev wZero : EReal := Ideal.ofBits .f32 0x00000000#32

variable (X : Fin 4 → Fin 2048 → Fin 1024 → EReal) (Wt : Fin 3 → Fin 1024 → Fin 1024 → EReal)

/-- Queries, keys, values: row s of batch b times column e of the weight. -/
def projQ (b : Fin 4) (s : Fin 2048) (e : Fin 1024) : EReal := ∑ d : Fin 1024, X b s d * Wt 0 d e
def projK (b : Fin 4) (s : Fin 2048) (e : Fin 1024) : EReal := ∑ d : Fin 1024, X b s d * Wt 1 d e
def projV (b : Fin 4) (s : Fin 2048) (e : Fin 1024) : EReal := ∑ d : Fin 1024, X b s d * Wt 2 d e
/-- The kernel's queries: the weight scaled by 1/32 before the product. -/
def projQs (b : Fin 4) (s : Fin 2048) (e : Fin 1024) : EReal := ∑ d : Fin 1024, X b s d * (Wt 0 d e * wScale)

/-! ## The reference: softmax(q kᵀ / √1024) v -/

def refScore (b : Fin 4) (i j : Fin 2048) : EReal :=
  Ideal.div (∑ e : Fin 1024, projQ X Wt b i e * projK X Wt b j e) (Ideal.sqrt wD)
def refMax (b : Fin 4) (i : Fin 2048) : EReal :=
  max wNegInf ((Finset.univ : Finset (Fin 2048)).fold max wNegInf (fun j => refScore X Wt b i j))
def refExp (b : Fin 4) (i j : Fin 2048) : EReal := Ideal.exp (refScore X Wt b i j - refMax X Wt b i)
def refSum (b : Fin 4) (i : Fin 2048) : EReal := wZero + ∑ j : Fin 2048, refExp X Wt b i j
def refOut (b : Fin 4) (i : Fin 2048) (e : Fin 1024) : EReal :=
  ∑ j : Fin 2048, Ideal.div (refExp X Wt b i j) (refSum X Wt b i) * projV X Wt b j e

/-! ## The kernel: two key blocks, running maximum, denominator and numerator -/

/-- Key column k of block g. -/
def col (g : Fin 2) (k : Fin 1024) : Fin 2048 := ⟨g.val * 1024 + k.val, by omega⟩
def kScore (b : Fin 4) (i j : Fin 2048) : EReal := ∑ e : Fin 1024, projQs X Wt b i e * projK X Wt b j e
/-- The maximum of row i's scores over block g, from -∞. -/
def blkMax (b : Fin 4) (i : Fin 2048) (g : Fin 2) : EReal :=
  (Finset.univ : Finset (Fin 1024)).fold max wNegInf (fun k => kScore X Wt b i (col g k))
def m1 (b : Fin 4) (i : Fin 2048) : EReal := max wNegInf (blkMax X Wt b i 0)
def a1 (b : Fin 4) (i : Fin 2048) : EReal := Ideal.exp (wNegInf - m1 X Wt b i)
def p1 (b : Fin 4) (i : Fin 2048) (k : Fin 1024) : EReal := Ideal.exp (kScore X Wt b i (col 0 k) - m1 X Wt b i)
def l1 (b : Fin 4) (i : Fin 2048) : EReal := a1 X Wt b i * wZero + ∑ k : Fin 1024, p1 X Wt b i k
def acc1 (b : Fin 4) (i : Fin 2048) (e : Fin 1024) : EReal :=
  a1 X Wt b i * wZero + ∑ k : Fin 1024, p1 X Wt b i k * projV X Wt b (col 0 k) e
def m2 (b : Fin 4) (i : Fin 2048) : EReal := max (m1 X Wt b i) (blkMax X Wt b i 1)
def a2 (b : Fin 4) (i : Fin 2048) : EReal := Ideal.exp (m1 X Wt b i - m2 X Wt b i)
def p2 (b : Fin 4) (i : Fin 2048) (k : Fin 1024) : EReal := Ideal.exp (kScore X Wt b i (col 1 k) - m2 X Wt b i)
def l2 (b : Fin 4) (i : Fin 2048) : EReal := a2 X Wt b i * l1 X Wt b i + ∑ k : Fin 1024, p2 X Wt b i k
def acc2 (b : Fin 4) (i : Fin 2048) (e : Fin 1024) : EReal :=
  a2 X Wt b i * acc1 X Wt b i e + ∑ k : Fin 1024, p2 X Wt b i k * projV X Wt b (col 1 k) e
def kerOut (b : Fin 4) (i : Fin 2048) (e : Fin 1024) : EReal := Ideal.div (acc2 X Wt b i e) (l2 X Wt b i)

end Cert.Attn

end
-- ==== Proof.KI.Online1.lean ====
/-
  The attention kernel's two grid points of one (batch, query block), read at an index. After the point with key block 0
  the scratch holds the queries q = x·(W₀/32), the block maximum m₁, the denominator l₁ = Σ exp(s - m₁) and the numerator
  acc₁ = Σ exp(s - m₁)·v (the empty state's rescaling multiplies zeros); the point with key block 1 updates them to m₂, l₂,
  acc₂ with the rescaling exp(m₁ - m₂) and stores acc₂ / l₂. Each is the specification's term of the same name, once the
  six blocks the body loads are known to be the rows of X, the scaled weight, and the key and value projections.
-/
import proofs.«101893_j63488206570043_2_alg».proof.Proof.KernelPay1
import proofs.«101893_j63488206570043_2_alg».proof.Proof.AttnSpec

noncomputable section

namespace Cert.KernelIdeal.Online

open Cert.KernelIdeal Cert.KernelIdeal.Gen Cert.KernelIdeal.PayValue Idealize.ShloMosaic Idealize.ShloMosaic.ValueIdx Cert.Attn

variable (X : Fin 4 → Fin 2048 → Fin 1024 → EReal) (Wt : Fin 3 → Fin 1024 → Fin 1024 → EReal)
variable (b : Fin 4) (qi : Fin 2)
variable (x0 : Vec Ideal S1x1024x1024 .f32) (wq : Vec Ideal S1024x1024 .bf16) (kb0 vb0 kb1 vb1 : Vec Ideal S1x1024x1024 .bf16)

/-- The scratch after the point with key block 0: queries, maximum, denominator, numerator. -/
abbrev qS : FVec Ideal S1024x1024 .bf16 := k1_pay4 x0 wq
abbrev mS1 : FVec Ideal S1024x1 .f32 := k1_pay2 (k1_pay10 (qS x0 wq) kb0 (k1_pay5 (F := Ideal)))
abbrev lS1 : FVec Ideal S1024x1 .f32 := k1_pay13 (qS x0 wq) kb0 (k1_pay5 (F := Ideal)) (k1_pay5 (F := Ideal)) (k1_pay6 (F := Ideal))
abbrev accS1 : FVec Ideal S1024x1024 .f32 :=
  k1_pay1 (k1_pay8 vb0) (k1_pay14 (qS x0 wq) kb0 (k1_pay5 (F := Ideal)) (k1_pay5 (F := Ideal)) (k1_pay7 (F := Ideal))) (k1_pay15 (qS x0 wq) kb0 (k1_pay5 (F := Ideal))) (constant (F := Ideal) S1024x1024 .f32 0x00000000#32)
/-- The scratch after the point with key block 1, and the stored output block. -/
abbrev lS2 : FVec Ideal S1024x1 .f32 := k1_pay13 (qS x0 wq) kb1 (mS1 x0 wq kb0) (mS1 x0 wq kb0) (lS1 x0 wq kb0)
abbrev accS2 : FVec Ideal S1024x1024 .f32 :=
  k1_pay1 (k1_pay8 vb1) (k1_pay14 (qS x0 wq) kb1 (mS1 x0 wq kb0) (mS1 x0 wq kb0) (accS1 x0 wq kb0 vb0)) (k1_pay15 (qS x0 wq) kb1 (mS1 x0 wq kb0)) (constant (F := Ideal) S1024x1024 .f32 0x00000000#32)
abbrev outS : FVec Ideal S1x1024x1024 .f32 := k1_pay3 (accS2 x0 wq kb0 vb0 kb1 vb1) (lS2 x0 wq kb0 kb1)

variable (hx : ∀ (r : Fin 1024) (d : Fin 1024), x0 (ix3 (0 : Fin 1) r d) = X b (col qi r) d)
variable (hw : ∀ (d e : Fin 1024), wq (ix2 d e) = Wt 0 d e * wScale)
variable (hk0 : ∀ (k e : Fin 1024), kb0 (ix3 (0 : Fin 1) k e) = projK X Wt b (col 0 k) e)
variable (hk1 : ∀ (k e : Fin 1024), kb1 (ix3 (0 : Fin 1) k e) = projK X Wt b (col 1 k) e)
variable (hv0 : ∀ (k e : Fin 1024), vb0 (ix3 (0 : Fin 1) k e) = projV X Wt b (col 0 k) e)
variable (hv1 : ∀ (k e : Fin 1024), vb1 (ix3 (0 : Fin 1) k e) = projV X Wt b (col 1 k) e)

include hx hw in
/-- The cached queries are the scaled projection of the block's rows. -/
theorem q_at (r e : Fin 1024) : qS x0 wq (ix2 r e) = projQs X Wt b (col qi r) e := by
  unfold qS; rw [pay1_4]; unfold projQs; simp only [hx, hw]

include hx hw hk0 in
theorem s0_at (r k : Fin 1024) : k1_pay9 (qS x0 wq) kb0 (ix2 r k) = kScore X Wt b (col qi r) (col 0 k) := by
  rw [pay1_9]; unfold kScore; simp only [q_at X Wt b qi x0 wq hx hw, hk0]

include hx hw hk1 in
theorem s1_at (r k : Fin 1024) : k1_pay9 (qS x0 wq) kb1 (ix2 r k) = kScore X Wt b (col qi r) (col 1 k) := by
  rw [pay1_9]; unfold kScore; simp only [q_at X Wt b qi x0 wq hx hw, hk1]

include hx hw hk0 in
theorem max1_at (r : Fin 1024) : k1_pay10 (qS x0 wq) kb0 (k1_pay5 (F := Ideal)) (ix2 r (0 : Fin 1)) = m1 X Wt b (col qi r) := by
  rw [pay1_10, pay1_5]; unfold m1 blkMax; simp only [s0_at X Wt b qi x0 wq kb0 hx hw hk0]

include hx hw hk0 in
theorem m1_at (r : Fin 1024) : mS1 x0 wq kb0 (ix2 r (0 : Fin 1)) = m1 X Wt b (col qi r) := by
  unfold mS1; rw [pay1_2]; exact max1_at X Wt b qi x0 wq kb0 hx hw hk0 r

include hx hw hk0 in
theorem a1_at (r : Fin 1024) : k1_pay11 (qS x0 wq) kb0 (k1_pay5 (F := Ideal)) (k1_pay5 (F := Ideal)) (ix2 r (0 : Fin 1)) = a1 X Wt b (col qi r) := by
  rw [pay1_11, pay1_5, max1_at X Wt b qi x0 wq kb0 hx hw hk0]; rfl

include hx hw hk0 in
theorem p1_at (r k : Fin 1024) : k1_pay12 (qS x0 wq) kb0 (k1_pay5 (F := Ideal)) (ix2 r k) = p1 X Wt b (col qi r) k := by
  rw [pay1_12, max1_at X Wt b qi x0 wq kb0 hx hw hk0, s0_at X Wt b qi x0 wq kb0 hx hw hk0]; rfl

include hx hw hk0 in
theorem l1_at (r : Fin 1024) : lS1 x0 wq kb0 (ix2 r (0 : Fin 1)) = l1 X Wt b (col qi r) := by
  unfold lS1; rw [pay1_13, pay1_6, a1_at X Wt b qi x0 wq kb0 hx hw hk0]; unfold l1; simp only [p1_at X Wt b qi x0 wq kb0 hx hw hk0]

include hx hw hk0 hv0 in
theorem acc1_at (r e : Fin 1024) : accS1 x0 wq kb0 vb0 (ix2 r e) = acc1 X Wt b (col qi r) e := by
  unfold accS1; rw [pay1_1, pay1_14, pay1_7, a1_at X Wt b qi x0 wq kb0 hx hw hk0]; unfold acc1
  simp only [pay1_15, pay1_8, p1_at X Wt b qi x0 wq kb0 hx hw hk0, hv0]

include hx hw hk0 hk1 in
theorem max2_at (r : Fin 1024) : k1_pay10 (qS x0 wq) kb1 (mS1 x0 wq kb0) (ix2 r (0 : Fin 1)) = m2 X Wt b (col qi r) := by
  rw [pay1_10, m1_at X Wt b qi x0 wq kb0 hx hw hk0]; unfold m2 blkMax; simp only [s1_at X Wt b qi x0 wq kb1 hx hw hk1]

include hx hw hk0 hk1 in
theorem a2_at (r : Fin 1024) : k1_pay11 (qS x0 wq) kb1 (mS1 x0 wq kb0) (mS1 x0 wq kb0) (ix2 r (0 : Fin 1)) = a2 X Wt b (col qi r) := by
  rw [pay1_11, m1_at X Wt b qi x0 wq kb0 hx hw hk0, max2_at X Wt b qi x0 wq kb0 kb1 hx hw hk0 hk1]; rfl

include hx hw hk0 hk1 in
theorem p2_at (r k : Fin 1024) : k1_pay12 (qS x0 wq) kb1 (mS1 x0 wq kb0) (ix2 r k) = p2 X Wt b (col qi r) k := by
  rw [pay1_12, max2_at X Wt b qi x0 wq kb0 kb1 hx hw hk0 hk1, s1_at X Wt b qi x0 wq kb1 hx hw hk1]; rfl

include hx hw hk0 hk1 in
theorem l2_at (r : Fin 1024) : lS2 x0 wq kb0 kb1 (ix2 r (0 : Fin 1)) = l2 X Wt b (col qi r) := by
  unfold lS2; rw [pay1_13, a2_at X Wt b qi x0 wq kb0 kb1 hx hw hk0 hk1, l1_at X Wt b qi x0 wq kb0 hx hw hk0]; unfold l2
  simp only [p2_at X Wt b qi x0 wq kb0 kb1 hx hw hk0 hk1]

include hx hw hk0 hk1 hv0 hv1 in
theorem acc2_at (r e : Fin 1024) : accS2 x0 wq kb0 vb0 kb1 vb1 (ix2 r e) = acc2 X Wt b (col qi r) e := by
  unfold accS2; rw [pay1_1, pay1_14, a2_at X Wt b qi x0 wq kb0 kb1 hx hw hk0 hk1, acc1_at X Wt b qi x0 wq kb0 vb0 hx hw hk0 hv0]; unfold acc2
  simp only [pay1_15, pay1_8, p2_at X Wt b qi x0 wq kb0 kb1 hx hw hk0 hk1, hv1]

include hx hw hk0 hk1 hv0 hv1 in
/-- The stored output block at (r, e) is the specification's kernel formula at row r of the query block. -/
theorem out_at (r e : Fin 1024) : outS x0 wq kb0 vb0 kb1 vb1 (ix3 (0 : Fin 1) r e) = kerOut X Wt b (col qi r) e := by
  unfold outS; rw [pay1_3, acc2_at X Wt b qi x0 wq kb0 vb0 kb1 vb1 hx hw hk0 hk1 hv0 hv1, l2_at X Wt b qi x0 wq kb0 kb1 hx hw hk0 hk1]; rfl

end Cert.KernelIdeal.Online

end
-- ==== Proof.KI.Pieces1.lean ====
/-
  Region 1's pieces as payloads. What each control case of the attention kernel leaves in a buffer is the last
  store's payload there, every store covering its whole buffer; a load that follows a store into the same buffer
  reads that store's payload back, and a load of an input block reads the block. So each buffer ends at a named
  payload of the blocks the case was given (and, at key block 1, of the scratch the point before left).
-/
import proofs.«101893_j63488206570043_2_alg».proof.Proof.KI.Region1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The offsets of a whole matrix: zero on both axes. -/
private theorem zeroOff2 : (![0, 0] : Fin 2 → Nat) = fun _ => 0 := funext fun a => by fin_cases a <;> rfl
/-- The offsets of a whole block: zero on the three axes. -/
private theorem zeroOff3 : (![0, 0, 0] : Fin 3 → Nat) = fun _ => 0 := funext fun a => by fin_cases a <;> rfl

/-! ## Key block 0: the scratch is reset, then the first key block is absorbed -/

/-- The cached queries: the input rows times the query weights. -/
theorem piece1_A_0 (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i)
    (x0 : Vec F S1x1024x1024 .f32) (x1 : Vec F S1024x1024 .bf16) (x2 : Vec F S1x1024x1024 .bf16) (x3 : Vec F S1x1024x1024 .bf16) :
    sout1_A_0 c i arg3 harg3 arg4 harg4 arg5 harg5 arg6 harg6 arg7 harg7 arg8 harg8 arg9 harg9 arg10 harg10 arg11 harg11 hc0 hc1 x0 x1 x2 x3 = k1_pay4 x0 x1 := by
  unfold sout1_A_0
  rw [View.read_writes_eq_canon _ _ _ (scover1_A_0 c i arg3 harg3 arg4 harg4 arg5 harg5 arg6 harg6 arg7 harg7 arg8 harg8 arg9 harg9 arg10 harg10 arg11 harg11 hc0 hc1 x0 x1 x2 x3)]
  unfold kernelRun1_A
  dsimp only
  sl_unfold_words
  rw [View.canon_unit_zero (S := S1024x1024) zeroOff2]
  simp only [View.readAt_eq_ld, harg3.read_unread, harg4.read_unread, harg5.read_unread, harg6.read_unread,
    View.ld_unit_zero (S := S1x1024x1024) zeroOff3, View.ld_unit_zero (S := S1024x1024) zeroOff2]

/-- The running maximum: the reset value `-∞` against the first key block's scores. -/
theorem piece1_A_1 (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i)
    (x0 : Vec F S1x1024x1024 .f32) (x1 : Vec F S1024x1024 .bf16) (x2 : Vec F S1x1024x1024 .bf16) (x3 : Vec F S1x1024x1024 .bf16) :
    sout1_A_1 c i arg3 harg3 arg4 harg4 arg5 harg5 arg6 harg6 arg7 harg7 arg8 harg8 arg9 harg9 arg10 harg10 arg11 harg11 hc0 hc1 x0 x1 x2 x3 = k1_pay2 (k1_pay10 (k1_pay4 x0 x1) x2 (k1_pay5 (F := F))) := by
  unfold sout1_A_1
  rw [View.read_writes_eq_canon _ _ _ (scover1_A_1 c i arg3 harg3 arg4 harg4 arg5 harg5 arg6 harg6 arg7 harg7 arg8 harg8 arg9 harg9 arg10 harg10 arg11 harg11 hc0 hc1 x0 x1 x2 x3)]
  unfold kernelRun1_A
  dsimp only
  sl_unfold_words
  rw [View.canon_cons_unit_zero (S := S1024x1) zeroOff2, View.readCov_unit_zero (S := S1024x1024) _ zeroOff2,
    View.readCov_unit_zero (S := S1024x1) _ zeroOff2]
  simp only [View.readAt_eq_ld, harg3.read_unread, harg4.read_unread, harg5.read_unread, harg6.read_unread,
    View.ld_unit_zero (S := S1x1024x1024) zeroOff3, View.ld_unit_zero (S := S1024x1024) zeroOff2]

/-- The running denominator: the reset value zero, corrected, plus the first key block's weights. -/
theorem piece1_A_2 (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i)
    (x0 : Vec F S1x1024x1024 .f32) (x1 : Vec F S1024x1024 .bf16) (x2 : Vec F S1x1024x1024 .bf16) (x3 : Vec F S1x1024x1024 .bf16) :
    sout1_A_2 c i arg3 harg3 arg4 harg4 arg5 harg5 arg6 harg6 arg7 harg7 arg8 harg8 arg9 harg9 arg10 harg10 arg11 harg11 hc0 hc1 x0 x1 x2 x3 = k1_pay13 (k1_pay4 x0 x1) x2 (k1_pay5 (F := F)) (k1_pay5 (F := F)) (k1_pay6 (F := F)) := by
  unfold sout1_A_2
  rw [View.read_writes_eq_canon _ _ _ (scover1_A_2 c i arg3 harg3 arg4 harg4 arg5 harg5 arg6 harg6 arg7 harg7 arg8 harg8 arg9 harg9 arg10 harg10 arg11 harg11 hc0 hc1 x0 x1 x2 x3)]
  unfold kernelRun1_A
  dsimp only
  sl_unfold_words
  rw [View.canon_cons_unit_zero (S := S1024x1) zeroOff2, View.readCov_unit_zero (S := S1024x1024) _ zeroOff2,
    View.readCov_unit_zero (S := S1024x1) _ zeroOff2, View.readCov_unit_zero (S := S1024x1) _ zeroOff2]
  simp only [View.readAt_eq_ld, harg3.read_unread, harg4.read_unread, harg5.read_unread, harg6.read_unread,
    View.ld_unit_zero (S := S1x1024x1024) zeroOff3, View.ld_unit_zero (S := S1024x1024) zeroOff2]

/-- The running numerator: the reset value zero, corrected, plus the first key block's weights times its values. -/
theorem piece1_A_3 (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i)
    (x0 : Vec F S1x1024x1024 .f32) (x1 : Vec F S1024x1024 .bf16) (x2 : Vec F S1x1024x1024 .bf16) (x3 : Vec F S1x1024x1024 .bf16) :
    sout1_A_3 c i arg3 harg3 arg4 harg4 arg5 harg5 arg6 harg6 arg7 harg7 arg8 harg8 arg9 harg9 arg10 harg10 arg11 harg11 hc0 hc1 x0 x1 x2 x3 = k1_pay1 (k1_pay8 x3) (k1_pay14 (k1_pay4 x0 x1) x2 (k1_pay5 (F := F)) (k1_pay5 (F := F)) (k1_pay7 (F := F))) (k1_pay15 (k1_pay4 x0 x1) x2 (k1_pay5 (F := F))) (constant S1024x1024 .f32 0x00000000#32) := by
  unfold sout1_A_3
  rw [View.read_writes_eq_canon _ _ _ (scover1_A_3 c i arg3 harg3 arg4 harg4 arg5 harg5 arg6 harg6 arg7 harg7 arg8 harg8 arg9 harg9 arg10 harg10 arg11 harg11 hc0 hc1 x0 x1 x2 x3)]
  unfold kernelRun1_A
  dsimp only
  sl_unfold_words
  rw [View.canon_cons_unit_zero (S := S1024x1024) zeroOff2, View.readCov_unit_zero (S := S1024x1024) _ zeroOff2,
    View.readCov_unit_zero (S := S1024x1) _ zeroOff2, View.readCov_unit_zero (S := S1024x1024) _ zeroOff2]
  simp only [View.readAt_eq_ld, harg3.read_unread, harg4.read_unread, harg5.read_unread, harg6.read_unread,
    View.ld_unit_zero (S := S1x1024x1024) zeroOff3, View.ld_unit_zero (S := S1024x1024) zeroOff2]

/-! ## Key block 1: the second key block is absorbed into what the point before left, and the quotient is stored -/

/-- The running maximum: what the point before left against the second key block's scores. -/
theorem piece1_B_1 (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i)
    (x0 : Vec F S1x1024x1024 .f32) (x1 : Vec F S1024x1024 .bf16) (x2 : Vec F S1x1024x1024 .bf16) (x3 : Vec F S1x1024x1024 .bf16) (xs0 : Vec F S1024x1024 .bf16) (xs1 : Vec F S1024x1 .f32) (xs2 : Vec F S1024x1 .f32) (xs3 : Vec F S1024x1024 .f32) :
    sout1_B_1 c i arg3 harg3 arg4 harg4 arg5 harg5 arg6 harg6 arg7 harg7 arg8 harg8 arg9 harg9 arg10 harg10 arg11 harg11 hc0 hc1 x0 x1 x2 x3 xs0 xs1 xs2 xs3 = k1_pay2 (k1_pay10 xs0 x2 xs1) := by
  unfold sout1_B_1
  rw [View.read_writes_eq_canon _ _ _ (scover1_B_1 c i arg3 harg3 arg4 harg4 arg5 harg5 arg6 harg6 arg7 harg7 arg8 harg8 arg9 harg9 arg10 harg10 arg11 harg11 hc0 hc1 x0 x1 x2 x3 xs0 xs1 xs2 xs3)]
  unfold kernelRun1_B
  dsimp only
  sl_unfold_words
  rw [View.canon_unit_zero (S := S1024x1) zeroOff2]
  simp only [View.readAt_eq_ld, harg5.read_unread, harg6.read_unread, harg8.read_unread, harg9.read_unread,
    harg10.read_unread, harg11.read_unread, View.ld_unit_zero (S := S1x1024x1024) zeroOff3,
    View.ld_unit_zero (S := S1024x1024) zeroOff2, View.ld_unit_zero (S := S1024x1) zeroOff2]

/-- The running denominator: what the point before left, corrected, plus the second key block's weights. -/
theorem piece1_B_2 (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i)
    (x0 : Vec F S1x1024x1024 .f32) (x1 : Vec F S1024x1024 .bf16) (x2 : Vec F S1x1024x1024 .bf16) (x3 : Vec F S1x1024x1024 .bf16) (xs0 : Vec F S1024x1024 .bf16) (xs1 : Vec F S1024x1 .f32) (xs2 : Vec F S1024x1 .f32) (xs3 : Vec F S1024x1024 .f32) :
    sout1_B_2 c i arg3 harg3 arg4 harg4 arg5 harg5 arg6 harg6 arg7 harg7 arg8 harg8 arg9 harg9 arg10 harg10 arg11 harg11 hc0 hc1 x0 x1 x2 x3 xs0 xs1 xs2 xs3 = k1_pay13 xs0 x2 xs1 xs1 xs2 := by
  unfold sout1_B_2
  rw [View.read_writes_eq_canon _ _ _ (scover1_B_2 c i arg3 harg3 arg4 harg4 arg5 harg5 arg6 harg6 arg7 harg7 arg8 harg8 arg9 harg9 arg10 harg10 arg11 harg11 hc0 hc1 x0 x1 x2 x3 xs0 xs1 xs2 xs3)]
  unfold kernelRun1_B
  dsimp only
  sl_unfold_words
  rw [View.canon_unit_zero (S := S1024x1) zeroOff2]
  simp only [View.readAt_eq_ld, harg5.read_unread, harg6.read_unread, harg8.read_unread, harg9.read_unread,
    harg10.read_unread, harg11.read_unread, View.ld_unit_zero (S := S1x1024x1024) zeroOff3,
    View.ld_unit_zero (S := S1024x1024) zeroOff2, View.ld_unit_zero (S := S1024x1) zeroOff2]

/-- The running numerator: what the point before left, corrected, plus the second key block's weights times its values. -/
theorem piece1_B_3 (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i)
    (x0 : Vec F S1x1024x1024 .f32) (x1 : Vec F S1024x1024 .bf16) (x2 : Vec F S1x1024x1024 .bf16) (x3 : Vec F S1x1024x1024 .bf16) (xs0 : Vec F S1024x1024 .bf16) (xs1 : Vec F S1024x1 .f32) (xs2 : Vec F S1024x1 .f32) (xs3 : Vec F S1024x1024 .f32) :
    sout1_B_3 c i arg3 harg3 arg4 harg4 arg5 harg5 arg6 harg6 arg7 harg7 arg8 harg8 arg9 harg9 arg10 harg10 arg11 harg11 hc0 hc1 x0 x1 x2 x3 xs0 xs1 xs2 xs3 = k1_pay1 (k1_pay8 x3) (k1_pay14 xs0 x2 xs1 xs1 xs3) (k1_pay15 xs0 x2 xs1) (constant S1024x1024 .f32 0x00000000#32) := by
  unfold sout1_B_3
  rw [View.read_writes_eq_canon _ _ _ (scover1_B_3 c i arg3 harg3 arg4 harg4 arg5 harg5 arg6 harg6 arg7 harg7 arg8 harg8 arg9 harg9 arg10 harg10 arg11 harg11 hc0 hc1 x0 x1 x2 x3 xs0 xs1 xs2 xs3)]
  unfold kernelRun1_B
  dsimp only
  sl_unfold_words
  rw [View.canon_unit_zero (S := S1024x1024) zeroOff2]
  simp only [View.readAt_eq_ld, harg5.read_unread, harg6.read_unread, harg8.read_unread, harg9.read_unread,
    harg10.read_unread, harg11.read_unread, View.ld_unit_zero (S := S1x1024x1024) zeroOff3,
    View.ld_unit_zero (S := S1024x1024) zeroOff2, View.ld_unit_zero (S := S1024x1) zeroOff2]

/-- The output block: the new numerator divided, row by row, by the new denominator. -/
theorem piece1_B_4 (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i)
    (x0 : Vec F S1x1024x1024 .f32) (x1 : Vec F S1024x1024 .bf16) (x2 : Vec F S1x1024x1024 .bf16) (x3 : Vec F S1x1024x1024 .bf16) (xs0 : Vec F S1024x1024 .bf16) (xs1 : Vec F S1024x1 .f32) (xs2 : Vec F S1024x1 .f32) (xs3 : Vec F S1024x1024 .f32) :
    out1_B_4 c i arg3 harg3 arg4 harg4 arg5 harg5 arg6 harg6 arg7 harg7 arg8 harg8 arg9 harg9 arg10 harg10 arg11 harg11 hc0 hc1 x0 x1 x2 x3 xs0 xs1 xs2 xs3 = k1_pay3 (k1_pay1 (k1_pay8 x3) (k1_pay14 xs0 x2 xs1 xs1 xs3) (k1_pay15 xs0 x2 xs1) (constant S1024x1024 .f32 0x00000000#32)) (k1_pay13 xs0 x2 xs1 xs1 xs2) := by
  unfold out1_B_4
  rw [View.read_writes_eq_canon _ _ _ (cover1_B_4 c i arg3 harg3 arg4 harg4 arg5 harg5 arg6 harg6 arg7 harg7 arg8 harg8 arg9 harg9 arg10 harg10 arg11 harg11 hc0 hc1 x0 x1 x2 x3 xs0 xs1 xs2 xs3)]
  unfold kernelRun1_B
  dsimp only
  sl_unfold_words
  rw [View.canon_unit_zero (S := S1x1024x1024) zeroOff3, View.readCov_unit_zero (S := S1024x1024) _ zeroOff2,
    View.readCov_unit_zero (S := S1024x1) _ zeroOff2]
  simp only [View.readAt_eq_ld, harg5.read_unread, harg6.read_unread, harg8.read_unread, harg9.read_unread,
    harg10.read_unread, harg11.read_unread, View.ld_unit_zero (S := S1x1024x1024) zeroOff3,
    View.ld_unit_zero (S := S1024x1024) zeroOff2, View.ld_unit_zero (S := S1024x1) zeroOff2]

end Cert.KernelIdeal.Hand

end
-- ==== Proof.KernelPay0.lean ====
/-
  The projection step's arithmetic, read one element at a time over the extended reals.

  The first kernel function multiplies a block of input rows by the key and value weights laid side by
  side, and stores the left half of the product as the keys and the right half as the values. Here the
  product and its two halves are read at an index written by its coordinates.
-/
import proofs.«101893_j63488206570043_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayValue

open Cert.KernelIdeal Cert.KernelIdeal.Gen Idealize.ShloMosaic Idealize.ShloMosaic.ValueIdx

/-! ## The wide product read at an index -/

/-- Rows times columns into a result twice as wide: the left operand is contracted along its lanes, the
right along its rows. -/
abbrev dotWide := dot_S1024x1024_S1024x2048_S1024x2048_1_0_0_1_n_n

theorem dotWide_lhs_0 (i : S1024x2048.Idx) (q : dotWide.contr.Idx) : (dotWide.lhsIdx i q 0).val = (i 0).val := by
  unfold DotDims.lhsIdx
  rw [dif_neg (show ¬(0 : Fin S1024x1024.rank) ∈ dotWide.lhsBatch by decide),
    dif_pos (show (0 : Fin S1024x1024.rank) ∈ dotWide.lhsNonContracting by decide)]
  rfl
theorem dotWide_lhs_1 (i : S1024x2048.Idx) (q : dotWide.contr.Idx) : (dotWide.lhsIdx i q 1).val = (q ⟨0, by decide⟩).val :=
  dotWide.lhsIdx_val_of_single rfl i q
theorem dotWide_rhs_0 (i : S1024x2048.Idx) (q : dotWide.contr.Idx) : (dotWide.rhsIdx i q 0).val = (q ⟨0, by decide⟩).val :=
  dotWide.rhsIdx_val_of_single rfl i q
theorem dotWide_rhs_1 (i : S1024x2048.Idx) (q : dotWide.contr.Idx) : (dotWide.rhsIdx i q 1).val = (i 1).val := by
  unfold DotDims.rhsIdx
  rw [dif_neg (show ¬(1 : Fin S1024x2048.rank) ∈ dotWide.rhsBatch by decide),
    dif_pos (show (1 : Fin S1024x2048.rank) ∈ dotWide.rhsNonContracting by decide)]
  rfl

/-- Entry `(r, c)` of the wide product, accumulated into zero: `∑ k, lhs (r, k) * rhs (k, c)`. -/
theorem matmulWide_apply (lhs : FVec Ideal S1024x1024 .bf16) (rhs : FVec Ideal S1024x2048 .bf16) (r : Fin 1024) (c : Fin 2048) :
    matmul dotWide none lhs rhs (constant (F := Ideal) S1024x2048 .f32 0x00000000#32) (ix2 r c)
      = ∑ k : Fin 1024, lhs (ix2 r k) * rhs (ix2 k c) := by
  simp only [matmul]
  rw [Ideal.matmul_constant_zero_apply, ← Equiv.sum_comp (contrEquiv1 dotWide 1024 rfl rfl).symm]
  refine Finset.sum_congr rfl fun k _ => ?_
  have hk := contrEquiv1_symm_val dotWide 1024 rfl rfl k
  have el : dotWide.lhsIdx (ix2 r c) ((contrEquiv1 dotWide 1024 rfl rfl).symm k) = ix2 r k := funext fun a => Fin.ext (by
    match a with
    | ⟨0, _⟩ => exact dotWide_lhs_0 _ _
    | ⟨1, _⟩ => exact (dotWide_lhs_1 _ _).trans hk)
  have er : dotWide.rhsIdx (ix2 r c) ((contrEquiv1 dotWide 1024 rfl rfl).symm k) = ix2 k c := funext fun a => Fin.ext (by
    match a with
    | ⟨0, _⟩ => exact (dotWide_rhs_0 _ _).trans hk
    | ⟨1, _⟩ => exact dotWide_rhs_1 _ _)
  rw [el, er]

/-- The input rows times the two weight matrices side by side. -/
theorem pay0_1 (x : Vec Ideal S1x1024x1024 .f32) (w : Vec Ideal S1024x2048 .bf16) (r : Fin 1024) (c : Fin 2048) :
    k0_pay1 x w (ix2 r c) = ∑ d : Fin 1024, x (ix3 (0 : Fin 1) r d) * w (ix2 d c) := by
  unfold k0_pay1
  refine (matmulWide_apply _ _ r c).trans ?_
  exact Finset.sum_congr rfl fun d _ =>
    congrArg₂ (· * ·) (shapeCast_1ab_ab_apply x _ r d) (congrFun (shapeCast_self w _) (ix2 d c))

/-! ## Its two halves -/

/-- The keys: the left half of the wide product. -/
theorem pay0_2 (x : Vec Ideal S1x1024x1024 .f32) (w : Vec Ideal S1024x2048 .bf16) (r e : Fin 1024) :
    k0_pay2 x w (ix3 (0 : Fin 1) r e) = ∑ d : Fin 1024, x (ix3 (0 : Fin 1) r d) * w (ix2 d ⟨e.val, by omega⟩) := by
  unfold k0_pay2
  refine (shapeCast_ab_1ab_apply _ _ (0 : Fin 1) r e).trans ?_
  show extractStridedSlice S1024x1024 ![0, 0] (k0_pay1 x w) slices_S1024x2048_o0_0_S1024x1024 (ix2 r e) = _
  refine (slice2_axis1_apply 0 (k0_pay1 x w) slices_S1024x2048_o0_0_S1024x1024 r e ⟨e.val, by omega⟩
    (Nat.zero_add _).symm).trans ?_
  exact pay0_1 x w r _

/-- The values: the right half of the wide product. -/
theorem pay0_3 (x : Vec Ideal S1x1024x1024 .f32) (w : Vec Ideal S1024x2048 .bf16) (r e : Fin 1024) :
    k0_pay3 x w (ix3 (0 : Fin 1) r e) = ∑ d : Fin 1024, x (ix3 (0 : Fin 1) r d) * w (ix2 d ⟨1024 + e.val, by omega⟩) := by
  unfold k0_pay3
  refine (shapeCast_ab_1ab_apply _ _ (0 : Fin 1) r e).trans ?_
  show extractStridedSlice S1024x1024 ![0, 1024] (k0_pay1 x w) slices_S1024x2048_o0_1024_S1024x1024 (ix2 r e) = _
  refine (slice2_axis1_apply 1024 (k0_pay1 x w) slices_S1024x2048_o0_1024_S1024x1024 r e ⟨1024 + e.val, by omega⟩
    rfl).trans ?_
  exact pay0_1 x w r _

end Cert.KernelIdeal.PayValue

end
-- ==== Proof.KI.Value0.lean ====
/-
  Region 0's value: what the projection kernel leaves in the key and value arrays, and the two weight arrays the host
  operations compute before it, each read one element at a time over the extended reals.

  The host scales the query weights by the word of 1/32 and lays the key and value weights side by side as one
  1024 x 2048 matrix, keys in columns [0, 1024), values in columns [1024, 2048). The kernel's grid is 4 x 2: point t is
  batch t / 2 and row block t % 2; it multiplies rows [1024 (t % 2), 1024 (t % 2) + 1024) of that batch's activations by
  the wide matrix and writes the left half of the product to the same rows of the key array and the right half to the
  same rows of the value array. Every block a point writes is a block of one whole-array function, and the eight
  blocks cover each array, so the arrays end holding the key and value projections of the specification.
-/
import proofs.«101893_j63488206570043_2_alg».proof.Proof.KI.Run
import proofs.«101893_j63488206570043_2_alg».proof.Proof.KernelPay0
import proofs.«101893_j63488206570043_2_alg».proof.Proof.AttnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Cert.KernelIdeal.PayValue

/-! ## The host operations' two weight arrays, from any contents of the stacked weights -/

section Host

variable (W : Valuation τ sig (Elt Ideal))

/-- Slice t of the stacked weights with its unit axis dropped, at (d, e). -/
theorem wslice_at (x1 : S3x1024x1024.Idx → EReal) (o : Nat) (t : Fin 3) (ht : t.val = o)
    (h : S3x1024x1024.Slices ![o, 0, 0] S1x1024x1024) (d e : Fin 1024) :
    shapeCast S1024x1024 (extractStridedSlice S1x1024x1024 ![o, 0, 0] x1 h) shapeCasts_S1x1024x1024_S1024x1024 (ix2 d e)
      = x1 (ix3 t d e) :=
  (shapeCast_1ab_ab_apply _ _ d e).trans (extractStridedSlice_apply _ x1 h _ _ (fun a => by
    match a with
    | ⟨0, _⟩ => show t.val = o + 0; omega
    | ⟨1, _⟩ => show d.val = 0 + d.val; omega
    | ⟨2, _⟩ => show e.val = 0 + e.val; omega))

/-- The stacked weights of a valuation as a function of (which of the three, input feature, output feature). -/
abbrev wtsOf : Fin 3 → Fin 1024 → Fin 1024 → EReal := fun t d e => W (Proc.devRef .tc main_arg1) (ix3 t d e)

theorem hostV4_generic (d e : Fin 1024) :
    (StableHlo.after hostOps0 W (Proc.devRef .tc main_v4)) (ix2 d e) = wtsOf W 0 d e * Cert.Attn.wScale := by
  after_results
  refine (truncf_apply (s := S1024x1024) (φ := .f32) (ψ := .bf16) _ bitsLt_bf16_f32 _).trans ?_
  refine (mulf_apply _ _ _).trans ?_
  refine congrArg₂ (· * ·) ?_ ?_
  · exact wslice_at (W (Proc.devRef .tc main_arg1)) 0 0 rfl _ d e
  · exact broadcastInDim_apply _ bcast_S_S1024x1024 _ (ix2 d e) ix0 (fun a => a.elim0)

theorem hostV10_left (d e : Fin 1024) :
    (StableHlo.after hostOps0 W (Proc.devRef .tc main_v10)) (ix2 d (⟨e.val, by omega⟩ : Fin 2048)) = wtsOf W 1 d e := by
  after_results
  refine (truncf_apply (s := S1024x2048) (φ := .f32) (ψ := .bf16) _ bitsLt_bf16_f32 _).trans ?_
  refine (concatenate_pair_apply_left (t := S1024x2048) (s₁ := S1024x1024) (s₂ := S1024x1024) (1 : Fin 2) _ _ concatenates_S1024x1024_S1024x1024_S1024x2048_d1 _ rfl (ix2 d e)
    (fun b => by match b with | ⟨0, _⟩ => rfl | ⟨1, _⟩ => rfl)).trans ?_
  exact wslice_at (W (Proc.devRef .tc main_arg1)) 1 1 rfl _ d e

theorem hostV10_right (d e : Fin 1024) :
    (StableHlo.after hostOps0 W (Proc.devRef .tc main_v10)) (ix2 d (⟨1024 + e.val, by omega⟩ : Fin 2048)) = wtsOf W 2 d e := by
  after_results
  refine (truncf_apply (s := S1024x2048) (φ := .f32) (ψ := .bf16) _ bitsLt_bf16_f32 _).trans ?_
  refine (concatenate_pair_apply_right (t := S1024x2048) (s₁ := S1024x1024) (s₂ := S1024x1024) (1 : Fin 2) _ _ concatenates_S1024x1024_S1024x1024_S1024x2048_d1 _ rfl rfl (ix2 d e)
    (fun b hb => by match b with | ⟨0, _⟩ => rfl | ⟨1, _⟩ => exact absurd rfl hb)
    (by show e.val + 1024 = 1024 + e.val; omega)).trans ?_
  exact wslice_at (W (Proc.devRef .tc main_arg1)) 2 2 rfl _ d e

end Host

/-! ## The kernel's two output arrays, from any contents of its input arrays at the region's entry -/

section Blocks

variable (V : (c : Dev nD) → (b : Ref sig .tc) → Buf (Elt Ideal) ((c : Thread nD τ).loc b)) (c : Dev nD)

private theorem zeroOff3 : (![0, 0, 0] : Fin 3 → Nat) = fun _ => 0 := funext fun a => by fin_cases a <;> rfl
private theorem zeroOff2 : (![0, 0] : Fin 2 → Nat) = fun _ => 0 := funext fun a => by fin_cases a <;> rfl

/-- The column of the wide weight matrix that feeds key (value) feature e: the left (right) half. -/
abbrev colK (e : Fin 1024) : Fin 2048 := ⟨e.val, by omega⟩
abbrev colV (e : Fin 1024) : Fin 2048 := ⟨1024 + e.val, by omega⟩

/-- Rows of the activations times the chosen half of the wide weight matrix, as one array over (batch, row, feature). -/
def projArr (col : Fin 1024 → Fin 2048) (x : S4x2048x1024.Idx → EReal) (w : S1024x2048.Idx → EReal) : S4x2048x1024.Idx → EReal :=
  fun i => ∑ d : Fin 1024, x (ix3 (⟨(i 0).val, (i 0).isLt⟩ : Fin 4) (⟨(i 1).val, (i 1).isLt⟩ : Fin 2048) d)
    * w (ix2 d (col ⟨(i 2).val, (i 2).isLt⟩))

/-- Read at (b, s, e), from arrays known by their coordinates: row s of batch b times the chosen column. -/
theorem projArr_at (col : Fin 1024 → Fin 2048) (x : S4x2048x1024.Idx → EReal) (w : S1024x2048.Idx → EReal)
    (X : Fin 4 → Fin 2048 → Fin 1024 → EReal) (Wt : Fin 1024 → Fin 1024 → EReal)
    (hx : ∀ b s d, x (ix3 b s d) = X b s d) (hw : ∀ d e, w (ix2 d (col e)) = Wt d e)
    (b : Fin 4) (s : Fin 2048) (e : Fin 1024) :
    projArr col x w (ix3 b s e) = ∑ d : Fin 1024, X b s d * Wt d e := by
  unfold projArr
  exact Finset.sum_congr rfl fun d _ => congrArg₂ (· * ·) (hx b s d) (hw d e)

/-- The index maps over the 4 x 2 grid: point t is batch t / 2 and row block t % 2; the activations' window and both
    output windows move together, one batch and 1024 rows at a time over all features; the weights' window stays. -/
theorem idx_facts0 : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_0.index t (0 : Fin 3) = win0_3.index t (0 : Fin 3) ∧ win0_0.index t (1 : Fin 3) = win0_3.index t (1 : Fin 3)
    ∧ win0_3.index t (2 : Fin 3) = 0 ∧ win0_2.index t (2 : Fin 3) = 0
    ∧ win0_1.index t (0 : Fin 2) = 0 ∧ win0_1.index t (1 : Fin 2) = 0
    ∧ win0_0.index t (0 : Fin 3) = t.val / 2 ∧ win0_0.index t (1 : Fin 3) = t.val % 2 :=
  (by decide +kernel : ∀ t : Fin grid0.N, _)

/-- What point t writes back through the key window is block t of the one array. -/
theorem flushedK (t : Fin cfg0.N) :
    (dat0 V c).flushed 2 t = ((cfg0.win 2).blk t).view.read (Elt Ideal) (projArr colK (V c main_arg0) (V c main_v10)) := by
  show (cfg0.win 2).cut (grid0.coords t) ((dat0 V c).after 2 t) = _
  rw [after0_2]
  unfold out0_2
  rw [View.canon_unit_zero zeroOff3]
  simp only [View.ld_unit_zero (S := S1x1024x1024) zeroOff3, View.ld_unit_zero (S := S1024x2048) zeroOff2]
  obtain ⟨e00, e01, e02, e30, e31, e32, e22, e10, e11, -, -⟩ := idx_facts0 t
  funext j
  have hj0 : (j 0).val < 1 := (j 0).isLt
  have hj1 : (j 1).val < 1024 := (j 1).isLt
  have hj2 : (j 2).val < 1024 := (j 2).isLt
  have hjeq : j = ix3 (0 : Fin 1) (⟨(j 1).val, hj1⟩ : Fin 1024) (⟨(j 2).val, hj2⟩ : Fin 1024) :=
    funext fun a => Fin.ext (by match a with | ⟨0, _⟩ => show (j 0).val = 0; omega | ⟨1, _⟩ => rfl | ⟨2, _⟩ => rfl)
  show k0_pay2 (iblk0 V c 0 t) (iblk0 V c 1 t) j
    = projArr colK (V c main_arg0) (V c main_v10) (((cfg0.win 2).blk t).view.emb j)
  refine ((congrArg (k0_pay2 (iblk0 V c 0 t) (iblk0 V c 1 t)) hjeq).trans
    (pay0_2 (iblk0 V c 0 t) (iblk0 V c 1 t) ⟨(j 1).val, hj1⟩ ⟨(j 2).val, hj2⟩)).trans ?_
  unfold projArr
  refine Finset.sum_congr rfl fun d _ => congrArg₂ (· * ·) ?_ ?_
  · show V c main_arg0 (((cfg0.win 0).blk t).view.emb (ix3 (0 : Fin 1) (⟨(j 1).val, hj1⟩ : Fin 1024) d)) = V c main_arg0 _
    refine congrArg (V c main_arg0) (funext fun a => Fin.ext ?_)
    match a with
    | ⟨0, _⟩ => show win0_0.index t (0 : Fin 3) * 1 + 1 * 0 = win0_2.index t (0 : Fin 3) * 1 + 1 * (j 0).val; omega
    | ⟨1, _⟩ => show win0_0.index t (1 : Fin 3) * 1024 + 1 * (j 1).val = win0_2.index t (1 : Fin 3) * 1024 + 1 * (j 1).val; omega
    | ⟨2, _⟩ => show win0_0.index t (2 : Fin 3) * 1024 + 1 * d.val = d.val; omega
  · show V c main_v10 (((cfg0.win 1).blk t).view.emb (ix2 d (colK ⟨(j 2).val, hj2⟩))) = V c main_v10 _
    refine congrArg (V c main_v10) (funext fun a => Fin.ext ?_)
    match a with
    | ⟨0, _⟩ => show win0_1.index t (0 : Fin 2) * 1024 + 1 * d.val = d.val; omega
    | ⟨1, _⟩ => show win0_1.index t (1 : Fin 2) * 2048 + 1 * (colK ⟨(j 2).val, hj2⟩).val = (colK ⟨win0_2.index t (2 : Fin 3) * 1024 + 1 * (j 2).val, _⟩).val; show _ + 1 * (j 2).val = _ * 1024 + 1 * (j 2).val; omega

/-- An index of the array is in point t's block iff each coordinate is in the block's range on its axis. -/
theorem mem_blkK (t : Fin cfg0.N) (i : S4x2048x1024.Idx) :
    i ∈ ((cfg0.win 2).blk t).view.set ↔ ∀ a : Fin 3, win0_2.index t a * S1x1024x1024.size a ≤ (i a).val
      ∧ (i a).val < win0_2.index t a * S1x1024x1024.size a + S1x1024x1024.size a := by
  show i ∈ ((View.whole main_v11_0).slice (win0_2.rect t)).set ↔ _
  rw [View.set_slice_whole, Rect.mem_set_unit]
  exact Iff.rfl

/-- Row s of batch b lies in the block of point 2 b + s / 1024: the blocks cover the array. -/
theorem coverK (i : S4x2048x1024.Idx) :
    ∃ t : Fin cfg0.N, (cfg0.win 2).flush t = true ∧ i ∈ ((cfg0.win 2).blk t).view.set := by
  have hi0 : (i 0).val < 4 := (i 0).isLt
  have hi1 : (i 1).val < 2048 := (i 1).isLt
  have hi2 : (i 2).val < 1024 := (i 2).isLt
  have hN : cfg0.N = 8 := N_0
  have ht : (i 0).val * 2 + (i 1).val / 1024 < cfg0.N := by rw [hN]; omega
  obtain ⟨e00, e01, e02, e30, e31, e32, e22, e10, e11, q0, q1⟩ := idx_facts0 ⟨(i 0).val * 2 + (i 1).val / 1024, ht⟩
  have q0' : win0_0.index ⟨(i 0).val * 2 + (i 1).val / 1024, ht⟩ (0 : Fin 3) = ((i 0).val * 2 + (i 1).val / 1024) / 2 := q0
  have q1' : win0_0.index ⟨(i 0).val * 2 + (i 1).val / 1024, ht⟩ (1 : Fin 3) = ((i 0).val * 2 + (i 1).val / 1024) % 2 := q1
  refine ⟨⟨(i 0).val * 2 + (i 1).val / 1024, ht⟩, flush0_2 _, ?_⟩
  rw [mem_blkK]
  intro a
  match a with
  | ⟨0, _⟩ => show win0_2.index _ (0 : Fin 3) * 1 ≤ (i 0).val ∧ (i 0).val < win0_2.index _ (0 : Fin 3) * 1 + 1; omega
  | ⟨1, _⟩ => show win0_2.index _ (1 : Fin 3) * 1024 ≤ (i 1).val ∧ (i 1).val < win0_2.index _ (1 : Fin 3) * 1024 + 1024; omega
  | ⟨2, _⟩ => show win0_2.index _ (2 : Fin 3) * 1024 ≤ (i 2).val ∧ (i 2).val < win0_2.index _ (2 : Fin 3) * 1024 + 1024; omega

/-- The key array after the region: every row of the activations times the left half of the wide weight matrix. -/
theorem arrK : (dat0 V c).arrAt 2 cfg0.N = projArr colK (V c main_arg0) (V c main_v10) :=
  (dat0 V c).arrAt_eq_of_cover 2 (projArr colK (V c main_arg0) (V c main_v10)) (fun t _ => flushedK V c t) coverK

/-- What point t writes back through the value window is block t of the other array. -/
theorem flushedV (t : Fin cfg0.N) :
    (dat0 V c).flushed 3 t = ((cfg0.win 3).blk t).view.read (Elt Ideal) (projArr colV (V c main_arg0) (V c main_v10)) := by
  show (cfg0.win 3).cut (grid0.coords t) ((dat0 V c).after 3 t) = _
  rw [after0_3]
  unfold out0_3
  rw [View.canon_unit_zero zeroOff3]
  simp only [View.ld_unit_zero (S := S1x1024x1024) zeroOff3, View.ld_unit_zero (S := S1024x2048) zeroOff2]
  obtain ⟨e00, e01, e02, e30, e31, e32, e22, e10, e11, -, -⟩ := idx_facts0 t
  funext j
  have hj0 : (j 0).val < 1 := (j 0).isLt
  have hj1 : (j 1).val < 1024 := (j 1).isLt
  have hj2 : (j 2).val < 1024 := (j 2).isLt
  have hjeq : j = ix3 (0 : Fin 1) (⟨(j 1).val, hj1⟩ : Fin 1024) (⟨(j 2).val, hj2⟩ : Fin 1024) :=
    funext fun a => Fin.ext (by match a with | ⟨0, _⟩ => show (j 0).val = 0; omega | ⟨1, _⟩ => rfl | ⟨2, _⟩ => rfl)
  show k0_pay3 (iblk0 V c 0 t) (iblk0 V c 1 t) j
    = projArr colV (V c main_arg0) (V c main_v10) (((cfg0.win 3).blk t).view.emb j)
  refine ((congrArg (k0_pay3 (iblk0 V c 0 t) (iblk0 V c 1 t)) hjeq).trans
    (pay0_3 (iblk0 V c 0 t) (iblk0 V c 1 t) ⟨(j 1).val, hj1⟩ ⟨(j 2).val, hj2⟩)).trans ?_
  unfold projArr
  refine Finset.sum_congr rfl fun d _ => congrArg₂ (· * ·) ?_ ?_
  · show V c main_arg0 (((cfg0.win 0).blk t).view.emb (ix3 (0 : Fin 1) (⟨(j 1).val, hj1⟩ : Fin 1024) d)) = V c main_arg0 _
    refine congrArg (V c main_arg0) (funext fun a => Fin.ext ?_)
    match a with
    | ⟨0, _⟩ => show win0_0.index t (0 : Fin 3) * 1 + 1 * 0 = win0_3.index t (0 : Fin 3) * 1 + 1 * (j 0).val; omega
    | ⟨1, _⟩ => show win0_0.index t (1 : Fin 3) * 1024 + 1 * (j 1).val = win0_3.index t (1 : Fin 3) * 1024 + 1 * (j 1).val; omega
    | ⟨2, _⟩ => show win0_0.index t (2 : Fin 3) * 1024 + 1 * d.val = d.val; omega
  · show V c main_v10 (((cfg0.win 1).blk t).view.emb (ix2 d (colV ⟨(j 2).val, hj2⟩))) = V c main_v10 _
    refine congrArg (V c main_v10) (funext fun a => Fin.ext ?_)
    match a with
    | ⟨0, _⟩ => show win0_1.index t (0 : Fin 2) * 1024 + 1 * d.val = d.val; omega
    | ⟨1, _⟩ => show win0_1.index t (1 : Fin 2) * 2048 + 1 * (colV ⟨(j 2).val, hj2⟩).val = (colV ⟨win0_3.index t (2 : Fin 3) * 1024 + 1 * (j 2).val, _⟩).val; show _ + 1 * (1024 + (j 2).val) = 1024 + (_ * 1024 + 1 * (j 2).val); omega

/-- An index of the array is in point t's block iff each coordinate is in the block's range on its axis. -/
theorem mem_blkV (t : Fin cfg0.N) (i : S4x2048x1024.Idx) :
    i ∈ ((cfg0.win 3).blk t).view.set ↔ ∀ a : Fin 3, win0_3.index t a * S1x1024x1024.size a ≤ (i a).val
      ∧ (i a).val < win0_3.index t a * S1x1024x1024.size a + S1x1024x1024.size a := by
  show i ∈ ((View.whole main_v11_1).slice (win0_3.rect t)).set ↔ _
  rw [View.set_slice_whole, Rect.mem_set_unit]
  exact Iff.rfl

/-- Row s of batch b lies in the block of point 2 b + s / 1024: the blocks cover the array. -/
theorem coverV (i : S4x2048x1024.Idx) :
    ∃ t : Fin cfg0.N, (cfg0.win 3).flush t = true ∧ i ∈ ((cfg0.win 3).blk t).view.set := by
  have hi0 : (i 0).val < 4 := (i 0).isLt
  have hi1 : (i 1).val < 2048 := (i 1).isLt
  have hi2 : (i 2).val < 1024 := (i 2).isLt
  have hN : cfg0.N = 8 := N_0
  have ht : (i 0).val * 2 + (i 1).val / 1024 < cfg0.N := by rw [hN]; omega
  obtain ⟨e00, e01, e02, e30, e31, e32, e22, e10, e11, q0, q1⟩ := idx_facts0 ⟨(i 0).val * 2 + (i 1).val / 1024, ht⟩
  have q0' : win0_0.index ⟨(i 0).val * 2 + (i 1).val / 1024, ht⟩ (0 : Fin 3) = ((i 0).val * 2 + (i 1).val / 1024) / 2 := q0
  have q1' : win0_0.index ⟨(i 0).val * 2 + (i 1).val / 1024, ht⟩ (1 : Fin 3) = ((i 0).val * 2 + (i 1).val / 1024) % 2 := q1
  refine ⟨⟨(i 0).val * 2 + (i 1).val / 1024, ht⟩, flush0_3 _, ?_⟩
  rw [mem_blkV]
  intro a
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 1024 ≤ (i 1).val ∧ (i 1).val < win0_3.index _ (1 : Fin 3) * 1024 + 1024; omega
  | ⟨2, _⟩ => show win0_3.index _ (2 : Fin 3) * 1024 ≤ (i 2).val ∧ (i 2).val < win0_3.index _ (2 : Fin 3) * 1024 + 1024; omega

/-- The value array after the region: every row of the activations times the right half of the wide weight matrix. -/
theorem arrV : (dat0 V c).arrAt 3 cfg0.N = projArr colV (V c main_arg0) (V c main_v10) :=
  (dat0 V c).arrAt_eq_of_cover 3 (projArr colV (V c main_arg0) (V c main_v10)) (fun t _ => flushedV V c t) coverV

end Blocks

/-! ## At the launch memory -/

section Launch

variable (m : (ℓ : Loc nD τ sig) → Buf (Elt Ideal) ℓ) (ρ : Dev nD → PrngReg) (c : Dev nD)

/-- The activations at launch as a function of (batch, row, feature). -/
abbrev Xof : Fin 4 → Fin 2048 → Fin 1024 → EReal := fun b s d => m ((c : Thread nD τ).loc main_arg0) (ix3 b s d)
/-- The stacked weights at launch as a function of (which of the three, input feature, output feature). -/
abbrev Wof : Fin 3 → Fin 1024 → Fin 1024 → EReal := fun t d e => m ((c : Thread nD τ).loc main_arg1) (ix3 t d e)

/-- The scaled query weights: the first weight matrix times the word of 1/32. -/
theorem host_v4_at (d e : Fin 1024) : (V1 m ρ c main_v4) (ix2 d e) = Wof m c 0 d e * Cert.Attn.wScale :=
  hostV4_generic (W0 m ρ c) d e

/-- The wide weight matrix: the key weights in its left half, the value weights in its right half. -/
theorem host_v10_at (d : Fin 1024) (e : Fin 1024) :
    (V1 m ρ c main_v10) (ix2 d ⟨e.val, by omega⟩) = Wof m c 1 d e
      ∧ (V1 m ρ c main_v10) (ix2 d ⟨1024 + e.val, by omega⟩) = Wof m c 2 d e :=
  ⟨hostV10_left (W0 m ρ c) d e, hostV10_right (W0 m ρ c) d e⟩

/-- The activations enter region 0 as launched: no host operation writes them. -/
theorem V1_arg0_at (b : Fin 4) (s : Fin 2048) (d : Fin 1024) : (V1 m ρ c main_arg0) (ix3 b s d) = Xof m c b s d :=
  congrFun (W1_main_arg0 m ρ c) (ix3 b s d)

/-- The key array after region 0 is the specification's key projection. -/
theorem K_at (b : Fin 4) (s : Fin 2048) (e : Fin 1024) :
    (dat0 (V1 m ρ) c).arrAt 2 cfg0.N (ix3 b s e) = Cert.Attn.projK (Xof m c) (Wof m c) b s e := by
  refine (congrFun (arrK (V1 m ρ) c) (ix3 b s e)).trans ?_
  exact projArr_at colK (V1 m ρ c main_arg0) (V1 m ρ c main_v10) (Xof m c) (Wof m c 1) (V1_arg0_at m ρ c)
    (fun d e => (host_v10_at m ρ c d e).1) b s e

/-- The value array after region 0 is the specification's value projection. -/
theorem V_at (b : Fin 4) (s : Fin 2048) (e : Fin 1024) :
    (dat0 (V1 m ρ) c).arrAt 3 cfg0.N (ix3 b s e) = Cert.Attn.projV (Xof m c) (Wof m c) b s e := by
  refine (congrFun (arrV (V1 m ρ) c) (ix3 b s e)).trans ?_
  exact projArr_at colV (V1 m ρ c main_arg0) (V1 m ρ c main_v10) (Xof m c) (Wof m c 2) (V1_arg0_at m ρ c)
    (fun d e => (host_v10_at m ρ c d e).2) b s e

end Launch

end Cert.KernelIdeal.Hand

end
-- ==== Proof.KI.Cover1.lean ====
/-
  The cover of region 1's result array. The output window's block at grid point t is the 1024 rows from
  ((t / 2) % 2) * 1024 of batch t / 4, all 1024 columns; it is written back at the points with key block 1 (odd t)
  and not at the others. Those eight blocks tile the [4, 2048, 1024] array, so if each of them is written back as
  the restriction of one function of the array's index, the array ends holding that function.
-/
import proofs.«101893_j63488206570043_2_alg».proof.Proof.KI.Region1
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

open Idealize.ShloMosaic.ValueIdx

variable (V : (c : Dev nD) → (b : Ref sig .tc) → Buf (Elt F) ((c : Thread nD τ).loc b))

/-! ## The grid and the output window's blocks -/

/-- Region 1 runs over sixteen points. -/
theorem N1_eq : cfg1.N = 16 := N_1

/-- The output window's block indices, decided once over the grid: at point `t` the block is batch `t / 4`, query block
`(t / 2) % 2`, and the whole width. -/
theorem idx4_facts : ∀ t : Fin cfg1.N, win1_4.index t (0 : Fin 3) = t.val / 4 ∧ win1_4.index t (1 : Fin 3) = (t.val / 2) % 2
    ∧ win1_4.index t (2 : Fin 3) = 0 :=
  (by decide +kernel : ∀ t : Fin grid1.N, _)

/-- An index of the result array is in point `t`'s block iff each coordinate is in the block's range on its axis. -/
theorem mem_blk4 (t : Fin cfg1.N) (i : S4x2048x1024.Idx) :
    i ∈ ((cfg1.win 4).blk t).view.set ↔ ∀ a : Fin 3, win1_4.index t a * S1x1024x1024.size a ≤ (i a).val ∧ (i a).val < win1_4.index t a * S1x1024x1024.size a + S1x1024x1024.size a := by
  show i ∈ ((View.whole main_v12).slice (win1_4.rect t)).set ↔ _
  rw [View.set_slice_whole, Rect.mem_set_unit]
  exact Iff.rfl

/-! ## A block of a whole-array function, read at an index -/

/-- Point `t`'s block of a function `G` of the result array's index, at row `r` and column `e` of the block: `G` at
batch `t / 4`, row `((t / 2) % 2) * 1024 + r`, column `e` — on each axis the block index times the block's size plus the
coordinate inside the block. -/
theorem blk4_read_apply (G : S4x2048x1024.Idx → Elt F .f32) (t : Fin cfg1.N) (r e : Fin 1024) :
    ((cfg1.win 4).blk t).view.read (Elt F) G (ix3 (0 : Fin 1) r e)
      = G (ix3 (⟨t.val / 4, by have := t.isLt; have := N1_eq; omega⟩ : Fin 4)
            (⟨((t.val / 2) % 2) * 1024 + r.val, by have := r.isLt; omega⟩ : Fin 2048) e) := by
  obtain ⟨e0, e1, e2⟩ := idx4_facts t
  show G (((cfg1.win 4).blk t).view.emb (ix3 (0 : Fin 1) r e)) = _
  refine congrArg G (funext fun a => Fin.ext ?_)
  match a with
  | ⟨0, _⟩ => show win1_4.index t (0 : Fin 3) * 1 + 1 * 0 = t.val / 4; omega
  | ⟨1, _⟩ => show win1_4.index t (1 : Fin 3) * 1024 + 1 * r.val = ((t.val / 2) % 2) * 1024 + r.val; omega
  | ⟨2, _⟩ => show win1_4.index t (2 : Fin 3) * 1024 + 1 * e.val = e.val; omega

/-- The converse reading: entry `(b, i, e)` of `G` is row `i % 1024`, column `e` of the block of the point with batch `b`,
query block `i / 1024` and key block 1. -/
theorem blk4_read_of_entry (G : S4x2048x1024.Idx → Elt F .f32) (b : Fin 4) (i : Fin 2048) (e : Fin 1024) :
    ((cfg1.win 4).blk ⟨b.val * 4 + (i.val / 1024) * 2 + 1, by have h : cfg1.grid.N = 16 := N_1; omega⟩).view.read (Elt F) G
        (ix3 (0 : Fin 1) (⟨i.val % 1024, Nat.mod_lt _ (by decide)⟩ : Fin 1024) e)
      = G (ix3 b i e) := by
  refine (blk4_read_apply G _ _ e).trans (congrArg G ?_)
  have hb : (b.val * 4 + (i.val / 1024) * 2 + 1) / 4 = b.val := by omega
  have hi : (((b.val * 4 + (i.val / 1024) * 2 + 1) / 2) % 2) * 1024 + i.val % 1024 = i.val := by omega
  funext a
  match a with
  | ⟨0, _⟩ => exact Fin.ext hb
  | ⟨1, _⟩ => exact Fin.ext hi
  | ⟨2, _⟩ => rfl

/-! ## The blocks written back cover the result array -/

/-- Every entry of the result array is in the block of a point that writes back: entry `(b, i, e)` in that of the point
with batch `b`, query block `i / 1024` and key block 1. -/
theorem cover4 (i : S4x2048x1024.Idx) :
    ∃ t : Fin cfg1.N, (cfg1.win 4).flush t = true ∧ i ∈ ((cfg1.win 4).blk t).view.set := by
  have hN := N1_eq
  have h0 : (i 0).val < 4 := (i 0).isLt
  have h1 : (i 1).val < 2048 := (i 1).isLt
  have h2 : (i 2).val < 1024 := (i 2).isLt
  obtain ⟨t, ht⟩ : ∃ t : Fin cfg1.N, t.val = (i 0).val * 4 + ((i 1).val / 1024) * 2 + 1 := ⟨⟨_, by omega⟩, rfl⟩
  obtain ⟨e0, e1, e2⟩ := idx4_facts t
  refine ⟨t, (flush1_4 t).mpr (by omega), ?_⟩
  rw [mem_blk4]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 1024 ≤ (i 1).val ∧ (i 1).val < win1_4.index t (1 : Fin 3) * 1024 + 1024; omega
  | ⟨2, _⟩ => show win1_4.index t (2 : Fin 3) * 1024 ≤ (i 2).val ∧ (i 2).val < win1_4.index t (2 : Fin 3) * 1024 + 1024; omega

/-- THE RESULT ARRAY. If what every point with key block 1 writes back is its block of one function `G` of the array's
index, the array ends holding `G`: those points' blocks cover it, and the other points write nothing back. -/
theorem arrAt4_of_flushed (c : Dev nD) (G : S4x2048x1024.Idx → Elt F .f32)
    (hfl : ∀ t : Fin cfg1.N, t.val % 2 = 1 → (dat1 V c).flushed 4 t = ((cfg1.win 4).blk t).view.read (Elt F) G) :
    (dat1 V c).arrAt 4 cfg1.N = G :=
  (dat1 V c).arrAt_eq_of_cover 4 G (fun t hf => hfl t ((flush1_4 t).mp hf)) cover4

end Cert.KernelIdeal.Hand

end
-- ==== Proof.KI.Value1.lean ====
/-
  Region 1's blocks, assembled into the result array: entry (b, i, e) of the array the attention kernel writes is the
  specification's two-block online softmax formula at batch b, query row i and output column e, as a function of the
  activations and the weights the program was launched with.

  The grid is (batch, query block, key block) = 4 x 2 x 2 with the key block fastest, so point t has batch t / 4, query
  block (t / 2) mod 2 and key block t mod 2.  The printed index maps, decided once over the sixteen points, say which
  block of its array each window holds at t; a block's coordinate in the array is always (block index) x (block size) +
  (coordinate inside the block), so each loaded block, read at an index, is a row range of the activations, the scaled
  query weight, or the key or value projection region 0 left.  The output block is written back exactly at the odd
  points (key block 1).  What such a point leaves in the output block is the case-B piece applied to the scratch the
  point before it (key block 0, same batch and query block) left, which is the case-A pieces of that point's blocks:
  together, the online formula of six blocks.  Read at an index this is the specification's formula at row
  (query block) x 1024 + r, and the odd points' blocks cover the array.
-/
import proofs.«101893_j63488206570043_2_alg».proof.Proof.KI.Run
import proofs.«101893_j63488206570043_2_alg».proof.Proof.KI.Online1
import proofs.«101893_j63488206570043_2_alg».proof.Proof.KI.Pieces1
import proofs.«101893_j63488206570043_2_alg».proof.Proof.KI.Value0
import proofs.«101893_j63488206570043_2_alg».proof.Proof.KI.Cover1
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen

variable (m : (ℓ : Loc nD τ sig) → Buf (Elt Ideal) ℓ) (ρ : Dev nD → PrngReg) (c : Dev nD)

/-! ## The printed index maps, decided once over the grid -/

/-- Window 0 (the query rows) sits at block (batch, query block, 0); windows 2 and 3 (the keys and the values) at block
    (batch, key block, 0); window 1 (the scaled query weight) at block (0, 0). -/
theorem idx1 : ∀ t : Fin cfg1.N,
    win1_0.index t (0 : Fin 3) = t.val / 4 ∧ win1_0.index t (1 : Fin 3) = (t.val / 2) % 2 ∧ win1_0.index t (2 : Fin 3) = 0
    ∧ win1_1.index t (0 : Fin 2) = 0 ∧ win1_1.index t (1 : Fin 2) = 0
    ∧ win1_2.index t (0 : Fin 3) = t.val / 4 ∧ win1_2.index t (1 : Fin 3) = t.val % 2 ∧ win1_2.index t (2 : Fin 3) = 0
    ∧ win1_3.index t (0 : Fin 3) = t.val / 4 ∧ win1_3.index t (1 : Fin 3) = t.val % 2 ∧ win1_3.index t (2 : Fin 3) = 0 :=
  (by decide +kernel : ∀ t : Fin grid1.N, _)

/-! ## Each input block, read at an index -/

/-- The query-row block at point t is rows (query block)·1024 + r of batch t / 4 of the activations. -/
theorem x_block_at (t : Fin cfg1.N) (b : Fin 4) (qi : Fin 2) (hb : b.val = t.val / 4) (hq : qi.val = (t.val / 2) % 2)
    (r d : Fin 1024) : iblk1 (V2 m ρ) c 0 t (ix3 (0 : Fin 1) r d) = Xof m c b (Cert.Attn.col qi r) d := by
  unfold iblk1
  rw [View.read_apply]
  show V2 m ρ c main_arg0 (((cfg1.win 0).blk t).view.emb (ix3 (0 : Fin 1) r d)) = m ((c : Thread nD τ).loc main_arg0) (ix3 b (Cert.Attn.col qi r) d)
  rw [V2_arg0]
  congr 1
  obtain ⟨e0, e1, e2, -⟩ := idx1 t
  funext a; apply Fin.ext
  match a with
  | ⟨0, _⟩ => show win1_0.index t (0 : Fin 3) * 1 + 1 * (0 : Fin 1).val = b.val; rw [e0, hb]; simp
  | ⟨1, _⟩ => show win1_0.index t (1 : Fin 3) * 1024 + 1 * r.val = qi.val * 1024 + r.val; rw [e1, hq]; omega
  | ⟨2, _⟩ => show win1_0.index t (2 : Fin 3) * 1024 + 1 * d.val = d.val; rw [e2]; omega

/-- The weight block is the whole scaled query weight, at every point. -/
theorem w_block_at (t : Fin cfg1.N) (d e : Fin 1024) :
    iblk1 (V2 m ρ) c 1 t (ix2 d e) = Wof m c 0 d e * Cert.Attn.wScale := by
  unfold iblk1
  rw [View.read_apply]
  show V2 m ρ c main_v4 (((cfg1.win 1).blk t).view.emb (ix2 d e)) = _
  rw [V2_v4]
  refine Eq.trans ?_ (host_v4_at m ρ c d e)
  congr 1
  obtain ⟨-, -, -, e0, e1, -⟩ := idx1 t
  funext a; apply Fin.ext
  match a with
  | ⟨0, _⟩ => show win1_1.index t (0 : Fin 2) * 1024 + 1 * d.val = d.val; rw [e0]; omega
  | ⟨1, _⟩ => show win1_1.index t (1 : Fin 2) * 1024 + 1 * e.val = e.val; rw [e1]; omega

/-- The key block at point t is rows (key block)·1024 + k of batch t / 4 of the key projection. -/
theorem k_block_at (t : Fin cfg1.N) (b : Fin 4) (g : Fin 2) (hb : b.val = t.val / 4) (hg : g.val = t.val % 2)
    (k e : Fin 1024) : iblk1 (V2 m ρ) c 2 t (ix3 (0 : Fin 1) k e)
      = Cert.Attn.projK (Xof m c) (Wof m c) b (Cert.Attn.col g k) e := by
  unfold iblk1
  rw [View.read_apply]
  show V2 m ρ c main_v11_0 (((cfg1.win 2).blk t).view.emb (ix3 (0 : Fin 1) k e)) = _
  rw [V2_v11_0]
  refine Eq.trans ?_ (K_at m ρ c b (Cert.Attn.col g k) e)
  congr 1
  obtain ⟨-, -, -, -, -, e0, e1, e2, -⟩ := idx1 t
  funext a; apply Fin.ext
  match a with
  | ⟨0, _⟩ => show win1_2.index t (0 : Fin 3) * 1 + 1 * (0 : Fin 1).val = b.val; rw [e0, hb]; simp
  | ⟨1, _⟩ => show win1_2.index t (1 : Fin 3) * 1024 + 1 * k.val = g.val * 1024 + k.val; rw [e1, hg]; omega
  | ⟨2, _⟩ => show win1_2.index t (2 : Fin 3) * 1024 + 1 * e.val = e.val; rw [e2]; omega

/-- The value block at point t is rows (key block)·1024 + k of batch t / 4 of the value projection. -/
theorem v_block_at (t : Fin cfg1.N) (b : Fin 4) (g : Fin 2) (hb : b.val = t.val / 4) (hg : g.val = t.val % 2)
    (k e : Fin 1024) : iblk1 (V2 m ρ) c 3 t (ix3 (0 : Fin 1) k e)
      = Cert.Attn.projV (Xof m c) (Wof m c) b (Cert.Attn.col g k) e := by
  unfold iblk1
  rw [View.read_apply]
  show V2 m ρ c main_v11_1 (((cfg1.win 3).blk t).view.emb (ix3 (0 : Fin 1) k e)) = _
  rw [V2_v11_1]
  refine Eq.trans ?_ (V_at m ρ c b (Cert.Attn.col g k) e)
  congr 1
  obtain ⟨-, -, -, -, -, -, -, -, e0, e1, e2⟩ := idx1 t
  funext a; apply Fin.ext
  match a with
  | ⟨0, _⟩ => show win1_3.index t (0 : Fin 3) * 1 + 1 * (0 : Fin 1).val = b.val; rw [e0, hb]; simp
  | ⟨1, _⟩ => show win1_3.index t (1 : Fin 3) * 1024 + 1 * k.val = g.val * 1024 + k.val; rw [e1, hg]; omega
  | ⟨2, _⟩ => show win1_3.index t (2 : Fin 3) * 1024 + 1 * e.val = e.val; rw [e2]; omega

/-! ## What an odd point writes back -/

/-- The point before t is a point. -/
theorem prev_lt (t : Fin cfg1.N) : t.val - 1 < cfg1.N := Nat.lt_of_le_of_lt (Nat.sub_le _ _) t.isLt

/-- The point before t, as a point. -/
abbrev prevPt (t : Fin cfg1.N) : Fin cfg1.N := ⟨t.val - 1, prev_lt t⟩

/-- After a point with key block 1 the output block's buffer holds the two-block online formula of the blocks the
    point and the point before it (same batch and query block, key block 0) loaded. -/
theorem after4_odd (t : Fin cfg1.N) (h1 : t.val % 2 = 1) :
    (dat1 (V2 m ρ) c).after 4 t
      = Online.outS (iblk1 (V2 m ρ) c 0 (prevPt t)) (iblk1 (V2 m ρ) c 1 (prevPt t)) (iblk1 (V2 m ρ) c 2 (prevPt t))
          (iblk1 (V2 m ρ) c 3 (prevPt t)) (iblk1 (V2 m ρ) c 2 t) (iblk1 (V2 m ρ) c 3 t) := by
  have h0 : ¬t.val % 2 = 0 := by omega
  have h0' : (prevPt t).val % 2 = 0 := by show (t.val - 1) % 2 = 0; omega
  rw [after1_4, outsAt1_B (V2 m ρ) c t h0]
  have hp : outsAt1 (V2 m ρ) c (t.val - 1) (Nat.lt_of_le_of_lt (Nat.sub_le _ _) t.isLt) = outA1 (V2 m ρ) c (prevPt t) h0' :=
    outsAt1_A (V2 m ρ) c (prevPt t) h0'
  rw [hp]
  unfold outB1 outA1
  dsimp only
  rw [piece1_B_4, piece1_A_0, piece1_A_1, piece1_A_2, piece1_A_3]

/-! ## The written-back block is the kernel formula, and so is the array -/

/-- The result array as one function of the argument arrays. -/
abbrev Gout : S4x2048x1024.Idx → Elt Ideal .f32 :=
  fun idx => Cert.Attn.kerOut (Xof m c) (Wof m c) (idx 0) (idx 1) (idx 2)

/-- What an odd point writes back is its block of the kernel formula: the six loaded blocks are the rows of the
    activations, the scaled weight and the key and value projections of the point's batch, so the online formula of
    the blocks is the specification's at row (query block)·1024 + r. -/
theorem flushed4_eq (t : Fin cfg1.N) (h1 : t.val % 2 = 1) :
    (dat1 (V2 m ρ) c).flushed 4 t = ((cfg1.win 4).blk t).view.read (Elt Ideal) (Gout m c) := by
  show (cfg1.win 4).cut (grid1.coords t) ((dat1 (V2 m ρ) c).after 4 t) = _
  rw [after4_odd m ρ c t h1]
  have hN : t.val < 16 := lt_of_lt_of_eq t.isLt N1_eq
  have hb : t.val / 4 < 4 := by omega
  have hq : (t.val / 2) % 2 < 2 := by omega
  refine funext fun (j : S1x1024x1024.Idx) => ?_
  obtain ⟨z, r, e, rfl⟩ : ∃ (z : Fin 1) (r e : Fin 1024), j = ix3 z r e := ⟨j 0, j 1, j 2, eq_ix3 j⟩
  obtain rfl : z = 0 := Subsingleton.elim _ _
  rw [blk4_read_apply]
  refine (Online.out_at (Xof m c) (Wof m c) ⟨t.val / 4, hb⟩ ⟨(t.val / 2) % 2, hq⟩ _ _ _ _ _ _
    (x_block_at m ρ c (prevPt t) _ _ (by show t.val / 4 = (t.val - 1) / 4; omega) (by show (t.val / 2) % 2 = ((t.val - 1) / 2) % 2; omega))
    (w_block_at m ρ c (prevPt t))
    (k_block_at m ρ c (prevPt t) _ _ (by show t.val / 4 = (t.val - 1) / 4; omega) (by show 0 = (t.val - 1) % 2; omega))
    (k_block_at m ρ c t _ _ rfl (by show 1 = t.val % 2; omega))
    (v_block_at m ρ c (prevPt t) _ _ (by show t.val / 4 = (t.val - 1) / 4; omega) (by show 0 = (t.val - 1) % 2; omega))
    (v_block_at m ρ c t _ _ rfl (by show 1 = t.val % 2; omega)) r e).trans ?_
  rfl

theorem out_array_at (b : Fin 4) (i : Fin 2048) (e : Fin 1024) : (dat1 (V2 m ρ) c).arrAt 4 cfg1.N (ix3 b i e) = Cert.Attn.kerOut (Xof m c) (Wof m c) b i e := by
  rw [arrAt4_of_flushed (V2 m ρ) c (Gout m c) (flushed4_eq m ρ c)]

end Cert.KernelIdeal.Hand

end
-- ==== Proof.RefRead.lean ====
/-
  The reference's result read at an index: softmax(q kᵀ / √1024) v as the specification writes it.
-/
import proofs.«101893_j63488206570043_2_alg».proof.Proof.Gen.ReferenceIdeal.Read
import proofs.«101893_j63488206570043_2_alg».proof.Proof.AttnSpec
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx Cert.Attn

variable (x0 : (⟨S4x2048x1024, .f32⟩ : BufTy).Contents (Elt Ideal)) (x1 : (⟨S3x1024x1024, .f32⟩ : BufTy).Contents (Elt Ideal))

/-- The activations as a function of (batch, row, feature). -/
abbrev act : Fin 4 → Fin 2048 → Fin 1024 → EReal := fun b s d => x0 (ix3 b s d)
/-- The stacked weights as a function of (which of the three, input feature, output feature). -/
abbrev wts : Fin 3 → Fin 1024 → Fin 1024 → EReal := fun t d e => x1 (ix3 t d e)

/-! ## The three weight matrices

Slice t of the stacked weights keeps rows [t, t+1) of the first axis; dropping that unit axis sends (d, e) to the
row-major position d·1024 + e of the slice, whose coordinates are (0, d, e) again because e < 1024. -/

theorem w0_at (d e : Fin 1024) : val_main_v1 (F := Ideal) x1 (ix2 d e) = x1 (ix3 (0 : Fin 3) d e) := by
  rw [val_main_v1_apply, val_main_v0_apply]
  refine congrArg x1 (funext fun a => Fin.ext ?_)
  have hd := d.isLt; have he := e.isLt
  match a with
  | ⟨0, _⟩ => rfl
  | ⟨1, _⟩ => show (d.val * 1024 + e.val) / 1024 % 1024 = d.val; omega
  | ⟨2, _⟩ => show (d.val * 1024 + e.val) % 1024 = e.val; omega

theorem w1_at (d e : Fin 1024) : val_main_v4 (F := Ideal) x1 (ix2 d e) = x1 (ix3 (1 : Fin 3) d e) := by
  rw [val_main_v4_apply, val_main_v3_apply]
  refine congrArg x1 (funext fun a => Fin.ext ?_)
  have hd := d.isLt; have he := e.isLt
  match a with
  | ⟨0, _⟩ => rfl
  | ⟨1, _⟩ => show (d.val * 1024 + e.val) / 1024 % 1024 = d.val; omega
  | ⟨2, _⟩ => show (d.val * 1024 + e.val) % 1024 = e.val; omega

theorem w2_at (d e : Fin 1024) : val_main_v7 (F := Ideal) x1 (ix2 d e) = x1 (ix3 (2 : Fin 3) d e) := by
  rw [val_main_v7_apply, val_main_v6_apply]
  refine congrArg x1 (funext fun a => Fin.ext ?_)
  have hd := d.isLt; have he := e.isLt
  match a with
  | ⟨0, _⟩ => rfl
  | ⟨1, _⟩ => show (d.val * 1024 + e.val) / 1024 % 1024 = d.val; omega
  | ⟨2, _⟩ => show (d.val * 1024 + e.val) % 1024 = e.val; omega

/-! ## Queries, keys, values: row s of batch b times column e of the weight -/

theorem q_at (b : Fin 4) (s : Fin 2048) (e : Fin 1024) :
    val_main_v2 (F := Ideal) x0 x1 (ix3 b s e) = projQ (act x0) (wts x1) b s e := by
  rw [val_main_v2_apply]
  unfold projQ
  refine Finset.sum_congr rfl fun k _ => ?_
  have el : lidx_main_v2 (ix3 b s e) k = ix3 b s k :=
    funext fun a => Fin.ext (by match a with | ⟨0, _⟩ => rfl | ⟨1, _⟩ => rfl | ⟨2, _⟩ => rfl)
  have er : ridx_main_v2 (ix3 b s e) k = ix2 k e :=
    funext fun a => Fin.ext (by match a with | ⟨0, _⟩ => rfl | ⟨1, _⟩ => rfl)
  rw [el, er, w0_at]

theorem k_at (b : Fin 4) (s : Fin 2048) (e : Fin 1024) :
    val_main_v5 (F := Ideal) x0 x1 (ix3 b s e) = projK (act x0) (wts x1) b s e := by
  rw [val_main_v5_apply]
  unfold projK
  refine Finset.sum_congr rfl fun k _ => ?_
  have el : lidx_main_v5 (ix3 b s e) k = ix3 b s k :=
    funext fun a => Fin.ext (by match a with | ⟨0, _⟩ => rfl | ⟨1, _⟩ => rfl | ⟨2, _⟩ => rfl)
  have er : ridx_main_v5 (ix3 b s e) k = ix2 k e :=
    funext fun a => Fin.ext (by match a with | ⟨0, _⟩ => rfl | ⟨1, _⟩ => rfl)
  rw [el, er, w1_at]

theorem v_at (b : Fin 4) (s : Fin 2048) (e : Fin 1024) :
    val_main_v8 (F := Ideal) x0 x1 (ix3 b s e) = projV (act x0) (wts x1) b s e := by
  rw [val_main_v8_apply]
  unfold projV
  refine Finset.sum_congr rfl fun k _ => ?_
  have el : lidx_main_v8 (ix3 b s e) k = ix3 b s k :=
    funext fun a => Fin.ext (by match a with | ⟨0, _⟩ => rfl | ⟨1, _⟩ => rfl | ⟨2, _⟩ => rfl)
  have er : ridx_main_v8 (ix3 b s e) k = ix2 k e :=
    funext fun a => Fin.ext (by match a with | ⟨0, _⟩ => rfl | ⟨1, _⟩ => rfl)
  rw [el, er, w2_at]

/-! ## The scores: query row i against key row j, divided by the square root of the word of 1024 -/

theorem score_at (b : Fin 4) (i j : Fin 2048) :
    val_main_v12 (F := Ideal) x0 x1 (ix3 b i j) = refScore (act x0) (wts x1) b i j := by
  rw [val_main_v12_apply, val_main_v9_apply, val_main_v11_apply, val_main_v10_apply, val_main_cst_apply,
    Ideal.hostDivf_def, Ideal.hostUnary_sqrt_def, Ideal.ofBits_def]
  unfold refScore
  refine congrArg (fun z => Ideal.div z (Ideal.sqrt wD)) (Finset.sum_congr rfl fun k _ => ?_)
  have el : lidx_main_v9 (ix3 b i j) k = ix3 b i k :=
    funext fun a => Fin.ext (by match a with | ⟨0, _⟩ => rfl | ⟨1, _⟩ => rfl | ⟨2, _⟩ => rfl)
  have er : ridx_main_v9 (ix3 b i j) k = ix3 b j k :=
    funext fun a => Fin.ext (by match a with | ⟨0, _⟩ => rfl | ⟨1, _⟩ => rfl | ⟨2, _⟩ => rfl)
  rw [el, er, q_at, k_at]

/-! ## The row maximum

The reduction over the key axis is, at (b, i), the fold of max from the word of -∞ over the key coordinate j of the
scores at (b, i, j); the program then takes the maximum with a second copy of that word. -/

theorem rowMax_at (b : Fin 4) (i : Fin 2048) :
    val_main_v13 (F := Ideal) x0 x1 (ix2 b i)
      = (Finset.univ : Finset (Fin 2048)).fold max wNegInf (fun j => refScore (act x0) (wts x1) b i j) := by
  unfold val_main_v13
  have hred : S4x2048x2048.Reduces [2] S4x2048 := by decide
  have key := Host.reduce_eq_fold_single (FloatOps.maximumf (F := Ideal) (φ := .f32)) (val_main_v12 (F := Ideal) x0 x1) (val_main_cst_0 (F := Ideal))
    reducesTo_S4x2048x2048_S4x2048_d2 hred h_S_ (ix2 b i)
  refine key.trans ?_
  have hf : (val_main_v12 (F := Ideal) x0 x1 ∘ hred.lift (ix2 b i)) = fun j : Fin 2048 => refScore (act x0) (wts x1) b i j :=
    funext fun j : Fin 2048 => by
      have el : hred.lift (ix2 b i) j = ix3 b i j :=
        funext fun a => Fin.ext (by match a with | ⟨0, _⟩ => rfl | ⟨1, _⟩ => rfl | ⟨2, _⟩ => rfl)
      show val_main_v12 (F := Ideal) x0 x1 (hred.lift (ix2 b i) j) = _
      rw [el, score_at]
  exact congrArg (fun f => Finset.fold max wNegInf f (Finset.univ : Finset (Fin 2048))) hf

theorem max_at (b : Fin 4) (i : Fin 2048) :
    val_main_v15 (F := Ideal) x0 x1 (ix2 b i) = refMax (act x0) (wts x1) b i := by
  rw [val_main_v15_apply, val_main_v14_apply, val_main_cst_1_apply, rowMax_at, Ideal.maximumf_def, Ideal.ofBits_def]
  rfl

/-! ## The exponentials, their row sum, the weights of the average -/

theorem exp_at (b : Fin 4) (i j : Fin 2048) :
    val_main_v19 (F := Ideal) x0 x1 (ix3 b i j) = refExp (act x0) (wts x1) b i j := by
  have e16 : idx_main_v16 (idx_main_v17 (ix3 b i j)) = ix2 b i :=
    funext fun a => Fin.ext (by match a with | ⟨0, _⟩ => rfl | ⟨1, _⟩ => rfl)
  rw [val_main_v19_apply, val_main_v18_apply, val_main_v17_apply, val_main_v16_apply, e16, score_at, max_at,
    Ideal.hostUnary_exp_def, Ideal.subf_def]
  rfl

theorem sum_at (b : Fin 4) (i : Fin 2048) :
    val_main_v20 (F := Ideal) x0 x1 (ix2 b i) = refSum (act x0) (wts x1) b i := by
  rw [val_main_v20_apply, val_main_cst_2_apply, Ideal.ofBits_def]
  unfold refSum
  refine congrArg (fun z => wZero + z) (Finset.sum_congr rfl fun k _ => ?_)
  have el : idx_main_v20 (ix2 b i) k = ix3 b i k :=
    funext fun a => Fin.ext (by match a with | ⟨0, _⟩ => rfl | ⟨1, _⟩ => rfl | ⟨2, _⟩ => rfl)
  rw [el, exp_at]

theorem attn_at (b : Fin 4) (i j : Fin 2048) :
    val_main_v23 (F := Ideal) x0 x1 (ix3 b i j)
      = Ideal.div (refExp (act x0) (wts x1) b i j) (refSum (act x0) (wts x1) b i) := by
  have e21 : idx_main_v21 (idx_main_v22 (ix3 b i j)) = ix2 b i :=
    funext fun a => Fin.ext (by match a with | ⟨0, _⟩ => rfl | ⟨1, _⟩ => rfl)
  rw [val_main_v23_apply, val_main_v22_apply, val_main_v21_apply, e21, exp_at, sum_at, Ideal.hostDivf_def]

/-! ## The result: the weighted average of the value rows -/

theorem out_at (b : Fin 4) (i : Fin 2048) (e : Fin 1024) :
    val_main_v24 (F := Ideal) x0 x1 (ix3 b i e) = refOut (act x0) (wts x1) b i e := by
  rw [val_main_v24_apply]
  unfold refOut
  refine Finset.sum_congr rfl fun k _ => ?_
  have el : lidx_main_v24 (ix3 b i e) k = ix3 b i k :=
    funext fun a => Fin.ext (by match a with | ⟨0, _⟩ => rfl | ⟨1, _⟩ => rfl | ⟨2, _⟩ => rfl)
  have er : ridx_main_v24 (ix3 b i e) k = ix3 b k e :=
    funext fun a => Fin.ext (by match a with | ⟨0, _⟩ => rfl | ⟨1, _⟩ => rfl | ⟨2, _⟩ => rfl)
  rw [el, er, attn_at, v_at]

open Idealize.ShloMosaic Idealize.ShloMosaic.ValueIdx in
theorem ref_at (x0 : (⟨Cert.ReferenceIdeal.S4x2048x1024, .f32⟩ : BufTy).Contents (Elt Ideal)) (x1 : (⟨Cert.ReferenceIdeal.S3x1024x1024, .f32⟩ : BufTy).Contents (Elt Ideal))
    (b : Fin 4) (i : Fin 2048) (e : Fin 1024) :
    Cert.ReferenceIdeal.Read.val_main_v24 (F := Ideal) x0 x1 (ix3 b i e)
      = Cert.Attn.refOut (fun b s d => x0 (ix3 b s d)) (fun t d e => x1 (ix3 t d e)) b i e :=
  out_at x0 x1 b i e

end Cert.ReferenceIdeal.RefValue

end
-- ==== Proof.LibOnlineSoftmax.lean ====
/-
  General facts about finite sums and finite maxima on the extended reals, used to compare a blocked
  ("online") softmax with the plain one: a finite sum or a finite maximum of real numbers, computed in the
  extended reals, is the coercion of the same sum or maximum computed in the reals; and a sum or a maximum
  over `Fin (m + n)` splits into the part below `m` and the part from `m` on.
-/
import Idealize.ShloMosaic.PureOps.Ideal

noncomputable section

open scoped BigOperators

namespace Cert.OnlineSoftmax

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A maximum, taken from `⊥`, of finitely many (and at least one) real numbers is the coercion of their real
    maximum. -/
theorem fold_max_coe {ι : Type*} (s : Finset ι) (hs : s.Nonempty) (f : ι → ℝ) :
    s.fold max (⊥ : EReal) (fun j => ((f j : ℝ) : EReal)) = ((s.sup' hs f : ℝ) : EReal) := by
  apply le_antisymm
  · refine (Finset.fold_max_le _).2 ⟨bot_le, fun j hj => ?_⟩
    exact EReal.coe_le_coe_iff.2 (Finset.le_sup' f hj)
  · obtain ⟨j, hj, hjM⟩ := Finset.exists_mem_eq_sup' hs f
    rw [hjM]
    exact (Finset.le_fold_max _).2 (Or.inr ⟨j, hj, le_rfl⟩)

/-- A maximum over `Fin (m + n)`, from `⊥`, is the larger of the maximum over the first `m` indices and the
    maximum over the last `n`. -/
theorem fold_max_split {α : Type*} [LinearOrder α] [OrderBot α] (m n : ℕ) (f : Fin (m + n) → α) :
    (Finset.univ : Finset (Fin (m + n))).fold max ⊥ f
      = max ((Finset.univ : Finset (Fin m)).fold max ⊥ (fun k => f (Fin.castAdd n k)))
          ((Finset.univ : Finset (Fin n)).fold max ⊥ (fun k => f (Fin.natAdd m k))) := by
  apply le_antisymm
  · refine (Finset.fold_max_le _).2 ⟨bot_le, fun j _ => ?_⟩
    induction j using Fin.addCases with
    | left k => exact le_max_of_le_left ((Finset.le_fold_max _).2 (Or.inr ⟨k, Finset.mem_univ _, le_rfl⟩))
    | right k => exact le_max_of_le_right ((Finset.le_fold_max _).2 (Or.inr ⟨k, Finset.mem_univ _, le_rfl⟩))
  · refine max_le ?_ ?_
    · exact (Finset.fold_max_le _).2 ⟨bot_le, fun k _ =>
        (Finset.le_fold_max _).2 (Or.inr ⟨Fin.castAdd n k, Finset.mem_univ _, le_rfl⟩)⟩
    · exact (Finset.fold_max_le _).2 ⟨bot_le, fun k _ =>
        (Finset.le_fold_max _).2 (Or.inr ⟨Fin.natAdd m k, Finset.mem_univ _, le_rfl⟩)⟩

/-- Rescaling the first block: `exp (M₀ - M) * Σ exp (s - M₀) · v = Σ exp (s - M) · v`. -/
theorem rescale_sum {ι : Type*} (s : Finset ι) (M₀ M : ℝ) (f v : ι → ℝ) :
    Real.exp (M₀ - M) * ∑ k ∈ s, Real.exp (f k - M₀) * v k = ∑ k ∈ s, Real.exp (f k - M) * v k := by
  rw [Finset.mul_sum]
  refine Finset.sum_congr rfl fun k _ => ?_
  rw [← mul_assoc, ← Real.exp_add]
  congr 2
  ring

end Cert.OnlineSoftmax

end
-- ==== Proof.AttnMath.lean ====
/-
  The blocked softmax of the kernel equals the plain softmax of the reference, for finite inputs.

  With real inputs every projection and every score is a real number (a finite sum of products), so each
  quantity of both formulas is the coercion of a real counterpart defined below.  The four literal words
  are 1/32, 1024, -∞ and 0, and √1024 = 32, so the kernel's scores (weights scaled by 1/32 before the
  product) are the reference's (scores divided by √1024).  A maximum from -∞ over a nonempty block of real
  scores is a real; the maximum over all 2048 columns is the larger of the two block maxima, so the
  kernel's final running maximum is the reference's row maximum M.  The first block starts from the empty
  state: its rescaling factor is exp(-∞) = 0 and multiplies zeros.  The second block rescales the first by
  exp(M₀ - M), and exp(s - M₀)·exp(M₀ - M) = exp(s - M), so the running denominator and numerator are the
  full sums Σ exp(s_j - M) and Σ exp(s_j - M)·v_j over all 2048 columns.  The denominator is positive, so
  dividing by it is multiplying by its reciprocal, which moves inside the finite sum.
-/
import proofs.«101893_j63488206570043_2_alg».proof.Proof.AttnSpec
import proofs.«101893_j63488206570043_2_alg».proof.Proof.LibOnlineSoftmax

noncomputable section

open scoped BigOperators

namespace Cert.Attn

open Idealize.ShloMosaic Cert.OnlineSoftmax

/-! ## The four literal words -/

theorem wScale_eq : wScale = (((1 : ℝ) / 32 : ℝ) : EReal) := by
  simp [Ideal.ofBits, Ideal.ieee, -EReal.coe_mul]; norm_num

theorem wD_eq : wD = ((1024 : ℝ) : EReal) := by
  simp [Ideal.ofBits, Ideal.ieee, -EReal.coe_mul]; norm_num

theorem wNegInf_eq : wNegInf = (⊥ : EReal) := by
  simp [Ideal.ofBits, Ideal.ieee]

theorem wZero_eq : wZero = (0 : EReal) := by
  simp [Ideal.ofBits, Ideal.ieee]

/-- √1024 = 32, since 32² = 1024. -/
theorem sqrt_wD : Ideal.sqrt wD = ((32 : ℝ) : EReal) := by
  rw [wD_eq, Ideal.sqrt_coe, if_neg (by norm_num)]
  congr 1
  rw [show (1024 : ℝ) = 32 ^ 2 by norm_num, Real.sqrt_sq (by norm_num)]

/-! ## The two blocks of key columns -/

theorem col_zero (k : Fin 1024) : (Fin.castAdd 1024 k : Fin 2048) = col 0 k := Fin.ext (by simp [col])
theorem col_one (k : Fin 1024) : (Fin.natAdd 1024 k : Fin 2048) = col 1 k := Fin.ext (by simp [col]; omega)

/-- A sum over the 2048 columns is the sum over block 0 plus the sum over block 1. -/
theorem sum_blocks {M : Type*} [AddCommMonoid M] (f : Fin 2048 → M) :
    ∑ j : Fin 2048, f j = ∑ k : Fin 1024, f (col 0 k) + ∑ k : Fin 1024, f (col 1 k) := by
  have h : ∑ j : Fin 2048, f j
      = ∑ k : Fin 1024, f (Fin.castAdd 1024 k) + ∑ k : Fin 1024, f (Fin.natAdd 1024 k) :=
    Fin.sum_univ_add (a := 1024) (b := 1024) f
  rw [h]
  simp only [col_zero, col_one]

/-- A maximum over the 2048 columns is the larger of the two block maxima. -/
theorem fold_max_blocks (f : Fin 2048 → EReal) :
    (Finset.univ : Finset (Fin 2048)).fold max ⊥ f
      = max ((Finset.univ : Finset (Fin 1024)).fold max ⊥ (fun k => f (col 0 k)))
          ((Finset.univ : Finset (Fin 1024)).fold max ⊥ (fun k => f (col 1 k))) := by
  have h : (Finset.univ : Finset (Fin 2048)).fold max ⊥ f
      = max ((Finset.univ : Finset (Fin 1024)).fold max ⊥ (fun k => f (Fin.castAdd 1024 k)))
          ((Finset.univ : Finset (Fin 1024)).fold max ⊥ (fun k => f (Fin.natAdd 1024 k))) :=
    fold_max_split 1024 1024 f
  rw [h]
  simp only [col_zero, col_one]

/-! ## The real counterparts -/

section RealSide

variable (x : Fin 4 → Fin 2048 → Fin 1024 → ℝ) (w : Fin 3 → Fin 1024 → Fin 1024 → ℝ)

def rQ (b : Fin 4) (s : Fin 2048) (e : Fin 1024) : ℝ := ∑ d : Fin 1024, x b s d * w 0 d e
def rK (b : Fin 4) (s : Fin 2048) (e : Fin 1024) : ℝ := ∑ d : Fin 1024, x b s d * w 1 d e
def rV (b : Fin 4) (s : Fin 2048) (e : Fin 1024) : ℝ := ∑ d : Fin 1024, x b s d * w 2 d e
/-- The score of row i against column j. -/
def rS (b : Fin 4) (i j : Fin 2048) : ℝ := (∑ e : Fin 1024, rQ x w b i e * rK x w b j e) / 32
/-- The maximum of row i's scores over block 0. -/
def rM0 (b : Fin 4) (i : Fin 2048) : ℝ :=
  (Finset.univ : Finset (Fin 1024)).sup' Finset.univ_nonempty (fun k => rS x w b i (col 0 k))
/-- The maximum of row i's scores over all columns. -/
def rM (b : Fin 4) (i : Fin 2048) : ℝ :=
  (Finset.univ : Finset (Fin 2048)).sup' Finset.univ_nonempty (fun j => rS x w b i j)
def rE (b : Fin 4) (i j : Fin 2048) : ℝ := Real.exp (rS x w b i j - rM x w b i)
/-- The softmax denominator. -/
def rL (b : Fin 4) (i : Fin 2048) : ℝ := ∑ j : Fin 2048, rE x w b i j
/-- The softmax numerator. -/
def rA (b : Fin 4) (i : Fin 2048) (e : Fin 1024) : ℝ := ∑ j : Fin 2048, rE x w b i j * rV x w b j e

theorem rL_pos (b : Fin 4) (i : Fin 2048) : 0 < rL x w b i :=
  Finset.sum_pos (fun _ _ => Real.exp_pos _) Finset.univ_nonempty

end RealSide

/-! ## Each quantity is the coercion of its real counterpart -/

section Coe

variable {X : Fin 4 → Fin 2048 → Fin 1024 → EReal} {Wt : Fin 3 → Fin 1024 → Fin 1024 → EReal}
  {x : Fin 4 → Fin 2048 → Fin 1024 → ℝ} {w : Fin 3 → Fin 1024 → Fin 1024 → ℝ}
  (hx : ∀ b s d, X b s d = ((x b s d : ℝ) : EReal)) (hw : ∀ t d e, Wt t d e = ((w t d e : ℝ) : EReal))

include hx hw

theorem projQ_coe (b : Fin 4) (s : Fin 2048) (e : Fin 1024) : projQ X Wt b s e = ((rQ x w b s e : ℝ) : EReal) := by
  simp only [projQ, rQ, hx, hw, ← EReal.coe_mul]
  exact (coe_sum _ _).symm

theorem projK_coe (b : Fin 4) (s : Fin 2048) (e : Fin 1024) : projK X Wt b s e = ((rK x w b s e : ℝ) : EReal) := by
  simp only [projK, rK, hx, hw, ← EReal.coe_mul]
  exact (coe_sum _ _).symm

theorem projV_coe (b : Fin 4) (s : Fin 2048) (e : Fin 1024) : projV X Wt b s e = ((rV x w b s e : ℝ) : EReal) := by
  simp only [projV, rV, hx, hw, ← EReal.coe_mul]
  exact (coe_sum _ _).symm

/-- Scaling the weight by 1/32 scales the projection by 1/32. -/
theorem projQs_coe (b : Fin 4) (s : Fin 2048) (e : Fin 1024) :
    projQs X Wt b s e = ((rQ x w b s e * (1 / 32) : ℝ) : EReal) := by
  simp only [projQs, hx, hw, wScale_eq, ← EReal.coe_mul]
  rw [← coe_sum]
  congr 1
  rw [rQ, Finset.sum_mul]
  exact Finset.sum_congr rfl fun d _ => (mul_assoc _ _ _).symm

theorem refScore_coe (b : Fin 4) (i j : Fin 2048) : refScore X Wt b i j = ((rS x w b i j : ℝ) : EReal) := by
  rw [refScore, sqrt_wD, Ideal.div_coe (by norm_num : (32 : ℝ) ≠ 0)]
  simp only [projQ_coe hx hw, projK_coe hx hw, ← EReal.coe_mul]
  rw [← coe_sum, ← EReal.coe_mul]
  congr 1
  rw [rS]
  ring

theorem kScore_coe (b : Fin 4) (i j : Fin 2048) : kScore X Wt b i j = ((rS x w b i j : ℝ) : EReal) := by
  rw [kScore]
  simp only [projQs_coe hx hw, projK_coe hx hw, ← EReal.coe_mul]
  rw [← coe_sum]
  congr 1
  rw [rS, Finset.sum_div]
  exact Finset.sum_congr rfl fun e _ => by ring

theorem m1_coe (b : Fin 4) (i : Fin 2048) : m1 X Wt b i = ((rM0 x w b i : ℝ) : EReal) := by
  rw [m1, blkMax, wNegInf_eq, max_bot_left]
  simp only [kScore_coe hx hw]
  exact fold_max_coe _ _ _

theorem refMax_coe (b : Fin 4) (i : Fin 2048) : refMax X Wt b i = ((rM x w b i : ℝ) : EReal) := by
  rw [refMax, wNegInf_eq, max_bot_left]
  simp only [refScore_coe hx hw]
  exact fold_max_coe _ _ _

/-- The running maximum after both blocks is the row maximum. -/
theorem m2_coe (b : Fin 4) (i : Fin 2048) : m2 X Wt b i = ((rM x w b i : ℝ) : EReal) := by
  rw [← refMax_coe hx hw, m2, m1, refMax, blkMax, blkMax, wNegInf_eq, max_bot_left, max_bot_left]
  simp only [kScore_coe hx hw, refScore_coe hx hw]
  exact (fold_max_blocks (fun j => ((rS x w b i j : ℝ) : EReal))).symm

/-- The first block rescales the empty state by exp(-∞ - m₁) = 0. -/
theorem a1_eq (b : Fin 4) (i : Fin 2048) : a1 X Wt b i = 0 := by
  rw [a1, wNegInf_eq, EReal.bot_sub, Ideal.exp_bot]

theorem p1_coe (b : Fin 4) (i : Fin 2048) (k : Fin 1024) :
    p1 X Wt b i k = ((Real.exp (rS x w b i (col 0 k) - rM0 x w b i) : ℝ) : EReal) := by
  rw [p1, kScore_coe hx hw, m1_coe hx hw, ← EReal.coe_sub, Ideal.exp_coe]

theorem l1_coe (b : Fin 4) (i : Fin 2048) :
    l1 X Wt b i = ((∑ k : Fin 1024, Real.exp (rS x w b i (col 0 k) - rM0 x w b i) * 1 : ℝ) : EReal) := by
  rw [l1, a1_eq hx hw, wZero_eq, mul_zero, zero_add]
  simp only [p1_coe hx hw, mul_one]
  exact (coe_sum _ _).symm

theorem acc1_coe (b : Fin 4) (i : Fin 2048) (e : Fin 1024) :
    acc1 X Wt b i e
      = ((∑ k : Fin 1024, Real.exp (rS x w b i (col 0 k) - rM0 x w b i) * rV x w b (col 0 k) e : ℝ) : EReal) := by
  rw [acc1, a1_eq hx hw, wZero_eq, mul_zero, zero_add]
  simp only [p1_coe hx hw, projV_coe hx hw, ← EReal.coe_mul]
  exact (coe_sum _ _).symm

theorem a2_coe (b : Fin 4) (i : Fin 2048) :
    a2 X Wt b i = ((Real.exp (rM0 x w b i - rM x w b i) : ℝ) : EReal) := by
  rw [a2, m1_coe hx hw, m2_coe hx hw, ← EReal.coe_sub, Ideal.exp_coe]

theorem p2_coe (b : Fin 4) (i : Fin 2048) (k : Fin 1024) :
    p2 X Wt b i k = ((rE x w b i (col 1 k) : ℝ) : EReal) := by
  rw [p2, kScore_coe hx hw, m2_coe hx hw, ← EReal.coe_sub, Ideal.exp_coe, rE]

/-- The running denominator after both blocks is the full softmax denominator. -/
theorem l2_coe (b : Fin 4) (i : Fin 2048) : l2 X Wt b i = ((rL x w b i : ℝ) : EReal) := by
  rw [l2, a2_coe hx hw, l1_coe hx hw]
  simp only [p2_coe hx hw]
  rw [← coe_sum, ← EReal.coe_mul, ← EReal.coe_add]
  congr 1
  rw [rescale_sum, rL, sum_blocks]
  simp only [rE, mul_one]

/-- The running numerator after both blocks is the full softmax numerator. -/
theorem acc2_coe (b : Fin 4) (i : Fin 2048) (e : Fin 1024) :
    acc2 X Wt b i e = ((rA x w b i e : ℝ) : EReal) := by
  rw [acc2, a2_coe hx hw, acc1_coe hx hw]
  simp only [p2_coe hx hw, projV_coe hx hw, ← EReal.coe_mul]
  rw [← coe_sum, ← EReal.coe_add]
  congr 1
  rw [rescale_sum, rA, sum_blocks]
  simp only [rE]

theorem kerOut_coe (b : Fin 4) (i : Fin 2048) (e : Fin 1024) :
    kerOut X Wt b i e = ((rA x w b i e * (1 / rL x w b i) : ℝ) : EReal) := by
  rw [kerOut, acc2_coe hx hw, l2_coe hx hw, Ideal.div_coe (rL_pos x w b i).ne', ← EReal.coe_mul]

theorem refExp_coe (b : Fin 4) (i j : Fin 2048) : refExp X Wt b i j = ((rE x w b i j : ℝ) : EReal) := by
  rw [refExp, refScore_coe hx hw, refMax_coe hx hw, ← EReal.coe_sub, Ideal.exp_coe, rE]

theorem refSum_coe (b : Fin 4) (i : Fin 2048) : refSum X Wt b i = ((rL x w b i : ℝ) : EReal) := by
  rw [refSum, wZero_eq, zero_add]
  simp only [refExp_coe hx hw]
  exact (coe_sum _ _).symm

theorem refOut_coe (b : Fin 4) (i : Fin 2048) (e : Fin 1024) :
    refOut X Wt b i e = ((∑ j : Fin 2048, rE x w b i j * (1 / rL x w b i) * rV x w b j e : ℝ) : EReal) := by
  rw [refOut]
  simp only [refExp_coe hx hw, refSum_coe hx hw, Ideal.div_coe (rL_pos x w b i).ne', projV_coe hx hw,
    ← EReal.coe_mul]
  exact (coe_sum _ _).symm

end Coe

/-- For finite inputs the kernel's two-block online softmax-weighted sum is the reference's. -/
theorem kerOut_eq_refOut (X : Fin 4 → Fin 2048 → Fin 1024 → EReal) (Wt : Fin 3 → Fin 1024 → Fin 1024 → EReal)
    (hX : ∀ b s d, ∃ r : ℝ, X b s d = (r : EReal)) (hW : ∀ t d e, ∃ r : ℝ, Wt t d e = (r : EReal))
    (b : Fin 4) (i : Fin 2048) (e : Fin 1024) : kerOut X Wt b i e = refOut X Wt b i e := by
  choose x hx using hX
  choose w hw using hW
  rw [kerOut_coe hx hw, refOut_coe hx hw]
  congr 1
  rw [rA, Finset.sum_mul]
  exact Finset.sum_congr rfl fun j _ => by ring

end Cert.Attn

end
-- ==== Proof.FiniteInputs.lean ====
/-
  From the precondition to finiteness: when the predicate "every entry of both inputs has absolute value below +∞"
  evaluates to true, every entry of both inputs is a real number.

  The predicate is the conjunction of two reductions by "and", over all three axes and starting from true, of the
  entrywise comparison |x| < +∞.  A conjunction that is 1 has both parts 1, and a reduction by "and" that is 1 met
  only 1s, so the comparison holds at every index.  On the extended reals |x| = max x (-x), the word 0x7F800000 is
  +∞, and the only extended reals whose absolute value is not below +∞ are -∞ and +∞ themselves.
-/
import proofs.«101893_j63488206570043_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.FiniteInputs

open Idealize.ShloMosaic

/-- The scalar shape has exactly one index. -/
instance : Subsingleton Cert.Pre_finite_inputs.S_.Idx := ⟨fun a b => funext fun d => d.elim0⟩

/-- The word 0x7F800000 is +∞. -/
theorem ofBits_inf : Ideal.ofBits .f32 0x7F800000#32 = (⊤ : EReal) := by
  simp [Ideal.ofBits, Ideal.ieee]

/-- An extended real whose absolute value `max x (-x)` compares below +∞ is a real: at -∞ and at +∞ the
    absolute value is +∞ itself. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- The entrywise comparison of the predicate, read at one index. -/
theorem real_of_cmp {s : Shape} (x : FVec Ideal s .f32) (hb : Cert.Pre_finite_inputs.S_.BroadcastsInDim s ![])
    (j : s.Idx)
    (h : cmpf .olt (Host.absf x)
      (broadcastInDim s ![] hb (constant (F := Ideal) Cert.Pre_finite_inputs.S_ .f32 0x7F800000#32)) j = 1#1) :
    ∃ r : ℝ, x j = (r : EReal) := by
  refine real_of_abs_lt_top (x j) ?_
  rw [← ofBits_inf]
  exact h

theorem of_pre [hF : Cert.Pre_finite_inputs.Facts] (x0 : FVec Ideal Cert.Pre_finite_inputs.S4x2048x1024 .f32) (x1 : FVec Ideal Cert.Pre_finite_inputs.S3x1024x1024 .f32) (h : Cert.Pre_finite_inputs.fn (F := Ideal) x0 x1 = fun _ => 1#1) : (∀ j, ∃ r : ℝ, x0 j = (r : EReal)) ∧ (∀ j, ∃ r : ℝ, x1 j = (r : EReal)) := by
  have h0 := congrFun h ValueIdx.ix0
  dsimp only [Cert.Pre_finite_inputs.fn] at h0
  obtain ⟨ha, hb⟩ := IntOp.andi_eq_one.1 h0
  exact ⟨fun j => real_of_cmp x0 _ j (Host.reduce_andi_all _ _ _ _ _ ha j),
    fun j => real_of_cmp x1 _ j (Host.reduce_andi_all _ _ _ _ _ hb j)⟩

end Cert.FiniteInputs

end
-- ==== Proof.lean ====
/-
  Fused attention against its plain reference, equal over the extended reals.

  The kernel program projects keys and values in a first pallas_call (K = x·W₁, V = x·W₂, block by block) and, in a
  second, computes for each (batch, query block) the queries q = x·(W₀/32) once and then walks the two key blocks with a
  running maximum, denominator and numerator (the online softmax), storing numerator / denominator at the last key
  block. The reference computes softmax(q kᵀ / √1024) v with q = x·W₀ in one piece.
  The three frames: each kernel program runs to the end and leaves its two argument arrays as launched (the two
  regions' body triples at every grid point, the scratch carried from one key block to the next by the second region's
  invariant); the reference's frame is its run with the result dropped. The idealization rewrote nothing.
  The value claim: the kernel's result array, read at (b, i, e) through the blocks the second region writes back, is
  the online formula of the rows of X and the weights; the reference's, read one operation at a time, is the softmax
  formula; for finite inputs (which the precondition gives) the two formulas are equal: exp(s - m₁)·exp(m₁ - m₂) =
  exp(s - m₂), the empty state's rescaling multiplies zeros, √1024 = 32, and the positive common denominator moves
  across the finite sum.
-/
import proofs.«101893_j63488206570043_2_alg».proof.Defs
import proofs.«101893_j63488206570043_2_alg».proof.Proof.Gen.Kernel
import proofs.«101893_j63488206570043_2_alg».proof.Proof.Gen.KernelIdeal
import proofs.«101893_j63488206570043_2_alg».proof.Proof.Gen.ReferenceIdeal
import proofs.«101893_j63488206570043_2_alg».proof.Proof.Gen.Pre_finite_inputs
import proofs.«101893_j63488206570043_2_alg».proof.Proof.Gen.ReferenceIdeal.Run
import proofs.«101893_j63488206570043_2_alg».proof.Proof.Gen.ReferenceIdeal.Read
import proofs.«101893_j63488206570043_2_alg».proof.Proof.K.Run
import proofs.«101893_j63488206570043_2_alg».proof.Proof.KI.Run
import proofs.«101893_j63488206570043_2_alg».proof.Proof.KI.Value1
import proofs.«101893_j63488206570043_2_alg».proof.Proof.RefRead
import proofs.«101893_j63488206570043_2_alg».proof.Proof.AttnMath
import proofs.«101893_j63488206570043_2_alg».proof.Proof.FiniteInputs
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel program runs and keeps its arguments. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the same result array: the online formula is the softmax formula on finite inputs. -/
theorem algebraic : Cert.algebraic_KernelIdeal_ReferenceIdeal := by
  intro m ρ m' ρ' hpre hagree
  refine ⟨fun c => (Cert.KernelIdeal.Hand.dat1 (Cert.KernelIdeal.Hand.V2 m ρ) c).arrAt 4 Cert.KernelIdeal.cfg1.N,
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, (hagree c).1, (hagree c).2]
  have hfin := Cert.FiniteInputs.of_pre _ _ (hpre c)
  funext idx
  obtain ⟨b, i, e, rfl⟩ : ∃ (b : Fin 4) (i : Fin 2048) (e : Fin 1024), idx = ix3 b i e := ⟨idx 0, idx 1, idx 2, eq_ix3 idx⟩
  beta_reduce
  rw [Cert.ReferenceIdeal.RefValue.ref_at, Cert.KernelIdeal.Hand.out_array_at m ρ c]
  exact (Cert.Attn.kerOut_eq_refOut _ _ (fun b s d => hfin.1 (ix3 b s d)) (fun t d e => hfin.2 (ix3 t d e)) b i e).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
